-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v30)) (v2 : (c : Dev Cert.KernelIdeal.nD) → Buf (Elt Ideal) ((c.tc : Thread Cert.KernelIdeal.nD Cert.KernelIdeal.τ).loc Cert.KernelIdeal.main_v34)) (v3 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_v56) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024 : Shape := ⟨2, ![8, 1024]⟩
abbrev S8x1024x2 : Shape := ⟨3, ![8, 1024, 2]⟩
abbrev S8x2048 : Shape := ⟨2, ![8, 2048]⟩
abbrev S8x2048x2 : Shape := ⟨3, ![8, 2048, 2]⟩
abbrev S_ : Shape := ⟨0, ![]⟩

class Facts : Prop where
  bcast_S_S8x1024x2 : S_.BroadcastsInDim S8x1024x2 (![] : Fin 0 → Fin S8x1024x2.rank)
  reducesTo_S8x1024x2_S_d0_1_2 : S8x1024x2.ReducesTo [0, 1, 2] S_
  h_S_ : 0 < S_.numel
  bcast_S_S8x2048x2 : S_.BroadcastsInDim S8x2048x2 (![] : Fin 0 → Fin S8x2048x2.rank)
  reducesTo_S8x2048x2_S_d0_1_2 : S8x2048x2.ReducesTo [0, 1, 2] S_

variable [Facts]

def fn {F : FTy → Type} [FloatOps F] (main_arg0 : IVec S8x1024 32) (main_arg1 : FVec F S8x1024x2 .f32) (main_arg2 : IVec S8x2048 32) (main_arg3 : FVec F S8x2048x2 .f32) : IVec S_ 1 :=
  let main_v0 : FVec F S8x1024x2 .f32 := Host.absf main_arg1
  let main_cst : FVec F S_ .f32 := constant S_ .f32 0x7F800000#32
  let main_v1 : FVec F S8x1024x2 .f32 := broadcastInDim S8x1024x2 ![] bcast_S_S8x1024x2 main_cst
  let main_v2 : IVec S8x1024x2 1 := cmpf .olt main_v0 main_v1
  let main_c : IVec S_ 1 := constantI S_ 1 1#1
  let main_v3 : IVec S_ 1 := (fun x v => Host.reduce IntOp.andi x v reducesTo_S8x1024x2_S_d0_1_2 h_S_) main_v2 main_c
  let main_v4 : FVec F S8x2048x2 .f32 := Host.absf main_arg3
  let main_cst_0 : FVec F S_ .f32 := constant S_ .f32 0x7F800000#32
  let main_v5 : FVec F S8x2048x2 .f32 := broadcastInDim S8x2048x2 ![] bcast_S_S8x2048x2 main_cst_0
  let main_v6 : IVec S8x2048x2 1 := cmpf .olt main_v4 main_v5
  let main_c_1 : IVec S_ 1 := constantI S_ 1 1#1
  let main_v7 : IVec S_ 1 := (fun x v => Host.reduce IntOp.andi x v reducesTo_S8x2048x2_S_d0_1_2 h_S_) main_v6 main_c_1
  let main_v8 : IVec S_ 1 := andi main_v3 main_v7
  main_v8
-- ==== Kernel.lean ====
abbrev S8x1024 : Shape := ⟨2, ![8, 1024]⟩
abbrev S8x1024x2 : Shape := ⟨3, ![8, 1024, 2]⟩
abbrev S8x2048 : Shape := ⟨2, ![8, 2048]⟩
abbrev S8x2048x2 : Shape := ⟨3, ![8, 2048, 2]⟩
abbrev S8x1024x2048 : Shape := ⟨3, ![8, 1024, 2048]⟩
abbrev S1x512x2 : Shape := ⟨3, ![1, 512, 2]⟩
abbrev S1x2048x2 : Shape := ⟨3, ![1, 2048, 2]⟩
abbrev S1x512x2048 : Shape := ⟨3, ![1, 512, 2048]⟩
abbrev S512x2 : Shape := ⟨2, ![512, 2]⟩
abbrev S2048x2 : Shape := ⟨2, ![2048, 2]⟩
abbrev S512x1 : Shape := ⟨2, ![512, 1]⟩
abbrev S2048x1 : Shape := ⟨2, ![2048, 1]⟩
abbrev S2048 : Shape := ⟨1, ![2048]⟩
abbrev S1x2048 : Shape := ⟨2, ![1, 2048]⟩
abbrev S512x2048 : Shape := ⟨2, ![512, 2048]⟩
abbrev S_ : Shape := ⟨0, ![]⟩
abbrev S16777216 : Shape := ⟨1, ![16777216]⟩
abbrev S16777216x1 : Shape := ⟨2, ![16777216, 1]⟩
abbrev S8192x2 : Shape := ⟨2, ![8192, 2]⟩
abbrev S16384x2 : Shape := ⟨2, ![16384, 2]⟩
abbrev S16777216x2 : Shape := ⟨2, ![16777216, 2]⟩

abbrev nBuf : Space → Nat
  | .hbm => 198
  | .vmem => 6
  | .smem => 0
  | _ => 0

abbrev hbmTy0_0 (i : Nat) : BufTy := match i % 128 with
  | 0 => ⟨S8x1024, .i32⟩
  | 1 => ⟨S8x1024x2, .f32⟩
  | 2 => ⟨S8x2048, .i32⟩
  | 3 => ⟨S8x2048x2, .f32⟩
  | 4 => ⟨S8x1024x2048, .i32⟩
  | 5 => ⟨S_, .i32⟩
  | 6 => ⟨S8x1024x2048, .i32⟩
  | 7 => ⟨S8x1024x2048, .i1⟩
  | 8 => ⟨S8x1024x2048, .i1⟩
  | 9 => ⟨S16777216, .i1⟩
  | 10 => ⟨S16777216, .i32⟩
  | 11 => ⟨S_, .i32⟩
  | 12 => ⟨S_, .i32⟩
  | 13 => ⟨S16777216, .i32⟩
  | 14 => ⟨S_, .i32⟩
  | 15 => ⟨S16777216, .i32⟩
  | 16 => ⟨S_, .i32⟩
  | 17 => ⟨S_, .i32⟩
  | 18 => ⟨S16777216, .i32⟩
  | 19 => ⟨S16777216, .i32⟩
  | 20 => ⟨S_, .i32⟩
  | 21 => ⟨S16777216, .i32⟩
  | 22 => ⟨S16777216, .i1⟩
  | 23 => ⟨S_, .i32⟩
  | 24 => ⟨S16777216, .i32⟩
  | 25 => ⟨S16777216, .i32⟩
  | 26 => ⟨S16777216, .i32⟩
  | 27 => ⟨S16777216x1, .i32⟩
  | 28 => ⟨S_, .i32⟩
  | 29 => ⟨S16777216, .i32⟩
  | 30 => ⟨S16777216, .i32⟩
  | 31 => ⟨S_, .i32⟩
  | 32 => ⟨S_, .i32⟩
  | 33 => ⟨S16777216, .i32⟩
  | 34 => ⟨S_, .i32⟩
  | 35 => ⟨S16777216, .i32⟩
  | 36 => ⟨S16777216, .i32⟩
  | 37 => ⟨S16777216, .i32⟩
  | 38 => ⟨S_, .i32⟩
  | 39 => ⟨S16777216, .i32⟩
  | 40 => ⟨S16777216, .i1⟩
  | 41 => ⟨S16777216, .i32⟩
  | 42 => ⟨S16777216, .i32⟩
  | 43 => ⟨S_, .i32⟩
  | 44 => ⟨S16777216, .i32⟩
  | 45 => ⟨S16777216, .i1⟩
  | 46 => ⟨S16777216, .i1⟩
  | 47 => ⟨S_, .i32⟩
  | 48 => ⟨S16777216, .i32⟩
  | 49 => ⟨S16777216, .i32⟩
  | 50 => ⟨S16777216, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S16777216, .i32⟩
  | 58 => ⟨S16777216, .i32⟩
  | 59 => ⟨S_, .i32⟩
  | 60 => ⟨S16777216, .i32⟩
  | 61 => ⟨S16777216, .i1⟩
  | 62 => ⟨S_, .i32⟩
  | 63 => ⟨S16777216, .i32⟩
  | 64 => ⟨S16777216, .i1⟩
  | 65 => ⟨S_, .i32⟩
  | 66 => ⟨S_, .i1⟩
  | 67 => ⟨S16777216, .i1⟩
  | 68 => ⟨S16777216, .i1⟩
  | 69 => ⟨S16777216, .i1⟩
  | 70 => ⟨S16777216, .i32⟩
  | 71 => ⟨S16777216, .i32⟩
  | 72 => ⟨S16777216, .i32⟩
  | 73 => ⟨S16777216, .i32⟩
  | 74 => ⟨S16777216, .i32⟩
  | 75 => ⟨S_, .i32⟩
  | 76 => ⟨S_, .i32⟩
  | 77 => ⟨S16777216, .i32⟩
  | 78 => ⟨S16777216, .i1⟩
  | 79 => ⟨S_, .i32⟩
  | 80 => ⟨S_, .i32⟩
  | 81 => ⟨S16777216, .i32⟩
  | 82 => ⟨S16777216, .i32⟩
  | 83 => ⟨S_, .i32⟩
  | 84 => ⟨S_, .i32⟩
  | 85 => ⟨S16777216, .i32⟩
  | 86 => ⟨S16777216, .i32⟩
  | 87 => ⟨S16777216, .i32⟩
  | 88 => ⟨S_, .i32⟩
  | 89 => ⟨S16777216, .i32⟩
  | 90 => ⟨S16777216, .i1⟩
  | 91 => ⟨S16777216, .i32⟩
  | 92 => ⟨S16777216, .i32⟩
  | 93 => ⟨S_, .i32⟩
  | 94 => ⟨S16777216, .i32⟩
  | 95 => ⟨S16777216, .i1⟩
  | 96 => ⟨S16777216, .i1⟩
  | 97 => ⟨S_, .i32⟩
  | 98 => ⟨S16777216, .i32⟩
  | 99 => ⟨S16777216, .i32⟩
  | 100 => ⟨S16777216, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S16777216, .i32⟩
  | 108 => ⟨S16777216, .i32⟩
  | 109 => ⟨S_, .i32⟩
  | 110 => ⟨S16777216, .i32⟩
  | 111 => ⟨S16777216, .i1⟩
  | 112 => ⟨S_, .i32⟩
  | 113 => ⟨S16777216, .i32⟩
  | 114 => ⟨S16777216, .i1⟩
  | 115 => ⟨S_, .i32⟩
  | 116 => ⟨S_, .i1⟩
  | 117 => ⟨S16777216, .i1⟩
  | 118 => ⟨S16777216, .i1⟩
  | 119 => ⟨S16777216, .i1⟩
  | 120 => ⟨S16777216, .i32⟩
  | 121 => ⟨S16777216, .i32⟩
  | 122 => ⟨S16777216, .i32⟩
  | 123 => ⟨S_, .i32⟩
  | 124 => ⟨S16777216, .i32⟩
  | 125 => ⟨S16777216, .i32⟩
  | 126 => ⟨S_, .i32⟩
  | 127 => ⟨S_, .i32⟩
  | _ => ⟨S8x1024, .i32⟩

abbrev hbmTy0_1 (i : Nat) : BufTy := match i % 128 with
  | 0 => ⟨S16777216, .i32⟩
  | 1 => ⟨S16777216, .i32⟩
  | 2 => ⟨S16777216, .i32⟩
  | 3 => ⟨S_, .i32⟩
  | 4 => ⟨S16777216, .i32⟩
  | 5 => ⟨S16777216, .i1⟩
  | 6 => ⟨S16777216, .i32⟩
  | 7 => ⟨S16777216, .i32⟩
  | 8 => ⟨S_, .i32⟩
  | 9 => ⟨S16777216, .i32⟩
  | 10 => ⟨S16777216, .i1⟩
  | 11 => ⟨S16777216, .i1⟩
  | 12 => ⟨S_, .i32⟩
  | 13 => ⟨S16777216, .i32⟩
  | 14 => ⟨S16777216, .i32⟩
  | 15 => ⟨S16777216, .i32⟩
  | 16 => ⟨S16777216, .i32⟩
  | 17 => ⟨S_, .i32⟩
  | 18 => ⟨S16777216, .i32⟩
  | 19 => ⟨S16777216, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S16777216, .i32⟩
  | 27 => ⟨S16777216, .i32⟩
  | 28 => ⟨S_, .i32⟩
  | 29 => ⟨S16777216, .i32⟩
  | 30 => ⟨S16777216, .i1⟩
  | 31 => ⟨S_, .i32⟩
  | 32 => ⟨S16777216, .i32⟩
  | 33 => ⟨S16777216, .i1⟩
  | 34 => ⟨S_, .i32⟩
  | 35 => ⟨S_, .i1⟩
  | 36 => ⟨S16777216, .i1⟩
  | 37 => ⟨S16777216, .i1⟩
  | 38 => ⟨S16777216, .i1⟩
  | 39 => ⟨S16777216, .i32⟩
  | 40 => ⟨S16777216, .i32⟩
  | 41 => ⟨S16777216, .i32⟩
  | 42 => ⟨S16777216, .i32⟩
  | 43 => ⟨S8192x2, .f32⟩
  | 44 => ⟨S16384x2, .f32⟩
  | 45 => ⟨S_, .i32⟩
  | 46 => ⟨S16777216, .i32⟩
  | 47 => ⟨S16777216, .i1⟩
  | 48 => ⟨S_, .i32⟩
  | 49 => ⟨S16777216, .i32⟩
  | 50 => ⟨S16777216, .i32⟩
  | 51 => ⟨S16777216, .i32⟩
  | 52 => ⟨S16777216x1, .i32⟩
  | 53 => ⟨S16777216x2, .f32⟩
  | 54 => ⟨S_, .i32⟩
  | 55 => ⟨S16777216, .i32⟩
  | 56 => ⟨S16777216, .i1⟩
  | 57 => ⟨S_, .i32⟩
  | 58 => ⟨S16777216, .i32⟩
  | 59 => ⟨S16777216, .i32⟩
  | 60 => ⟨S16777216, .i32⟩
  | 61 => ⟨S16777216x1, .i32⟩
  | 62 => ⟨S16777216x2, .f32⟩
  | 63 => ⟨S16777216x2, .f32⟩
  | 64 => ⟨S16777216, .i32⟩
  | 65 => ⟨S_, .i32⟩
  | 66 => ⟨S_, .i32⟩
  | 67 => ⟨S16777216, .i32⟩
  | 68 => ⟨S16777216, .i32⟩
  | 69 => ⟨S16777216, .i1⟩
  | _ => ⟨S8x1024, .i32⟩

abbrev hbmTy (i : Nat) : BufTy := match i / 128 with
  | 0 => hbmTy0_0 i
  | 1 => hbmTy0_1 i
  | _ => ⟨S8x1024, .i32⟩

abbrev bufTy : (tb : Table) → Fin (tcTables nBuf tb) → BufTy
  | .hbm, ⟨i, _⟩ => hbmTy i
  | .local _ .vmem, ⟨0, _⟩ => ⟨S1x512x2, .f32⟩
  | .local _ .vmem, ⟨1, _⟩ => ⟨S1x512x2, .f32⟩
  | .local _ .vmem, ⟨2, _⟩ => ⟨S1x2048x2, .f32⟩
  | .local _ .vmem, ⟨3, _⟩ => ⟨S1x2048x2, .f32⟩
  | .local _ .vmem, ⟨4, _⟩ => ⟨S1x512x2048, .i32⟩
  | .local _ .vmem, ⟨5, _⟩ => ⟨S1x512x2048, .i32⟩
  | _, _ => ⟨S8x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_call0_c : Ref sig .tc := ⟨.hbm, 11, rfl⟩
abbrev main_call0_call0_v0 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_c_1 : Ref sig .tc := ⟨.hbm, 16, rfl⟩
abbrev main_call1_v0 : Ref sig .tc := ⟨.hbm, 17, rfl⟩
abbrev main_call1_v1 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_c_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_4 : Ref sig .tc := ⟨.hbm, 28, rfl⟩
abbrev main_v14 : Ref sig .tc := ⟨.hbm, 29, rfl⟩
abbrev main_v15 : Ref sig .tc := ⟨.hbm, 30, rfl⟩
abbrev main_call2_call0_c : Ref sig .tc := ⟨.hbm, 31, rfl⟩
abbrev main_call2_call0_v0 : Ref sig .tc := ⟨.hbm, 32, rfl⟩
abbrev main_v16 : Ref sig .tc := ⟨.hbm, 33, rfl⟩
abbrev main_c_5 : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_call3_v5 : Ref sig .tc := ⟨.hbm, 40, rfl⟩
abbrev main_call3_v6 : Ref sig .tc := ⟨.hbm, 41, rfl⟩
abbrev main_call3_v7 : Ref sig .tc := ⟨.hbm, 42, rfl⟩
abbrev main_call3_c : Ref sig .tc := ⟨.hbm, 43, rfl⟩
abbrev main_call3_v8 : Ref sig .tc := ⟨.hbm, 44, rfl⟩
abbrev main_call3_v9 : Ref sig .tc := ⟨.hbm, 45, rfl⟩
abbrev main_call3_v10 : Ref sig .tc := ⟨.hbm, 46, rfl⟩
abbrev main_call3_c_0 : Ref sig .tc := ⟨.hbm, 47, rfl⟩
abbrev main_call3_v11 : Ref sig .tc := ⟨.hbm, 48, rfl⟩
abbrev main_call3_v12 : Ref sig .tc := ⟨.hbm, 49, rfl⟩
abbrev main_v17 : Ref sig .tc := ⟨.hbm, 50, rfl⟩
abbrev main_c_6 : Ref sig .tc := ⟨.hbm, 51, rfl⟩
abbrev main_call4_v0 : Ref sig .tc := ⟨.hbm, 52, rfl⟩
abbrev main_call4_c : Ref sig .tc := ⟨.hbm, 53, rfl⟩
abbrev main_call4_v1 : Ref sig .tc := ⟨.hbm, 54, rfl⟩
abbrev main_call4_c_0 : Ref sig .tc := ⟨.hbm, 55, rfl⟩
abbrev main_call4_v2 : Ref sig .tc := ⟨.hbm, 56, rfl⟩
abbrev main_call4_v3 : Ref sig .tc := ⟨.hbm, 57, rfl⟩
abbrev main_call4_v4 : Ref sig .tc := ⟨.hbm, 58, rfl⟩
abbrev main_call4_c_1 : Ref sig .tc := ⟨.hbm, 59, rfl⟩
abbrev main_call4_v5 : Ref sig .tc := ⟨.hbm, 60, rfl⟩
abbrev main_call4_v6 : Ref sig .tc := ⟨.hbm, 61, rfl⟩
abbrev main_call4_c_2 : Ref sig .tc := ⟨.hbm, 62, rfl⟩
abbrev main_call4_v7 : Ref sig .tc := ⟨.hbm, 63, rfl⟩
abbrev main_call4_v8 : Ref sig .tc := ⟨.hbm, 64, rfl⟩
abbrev main_call4_c_3 : Ref sig .tc := ⟨.hbm, 65, rfl⟩
abbrev main_call4_v9 : Ref sig .tc := ⟨.hbm, 66, rfl⟩
abbrev main_call4_v10 : Ref sig .tc := ⟨.hbm, 67, rfl⟩
abbrev main_call4_v11 : Ref sig .tc := ⟨.hbm, 68, rfl⟩
abbrev main_call4_v12 : Ref sig .tc := ⟨.hbm, 69, rfl⟩
abbrev main_call4_v13 : Ref sig .tc := ⟨.hbm, 70, rfl⟩
abbrev main_call4_v14 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_c_7 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_c_8 : Ref sig .tc := ⟨.hbm, 79, rfl⟩
abbrev main_call5_v0 : Ref sig .tc := ⟨.hbm, 80, rfl⟩
abbrev main_call5_v1 : Ref sig .tc := ⟨.hbm, 81, rfl⟩
abbrev main_v24 : Ref sig .tc := ⟨.hbm, 82, rfl⟩
abbrev main_c_9 : Ref sig .tc := ⟨.hbm, 83, rfl⟩
abbrev main_call6_v0 : Ref sig .tc := ⟨.hbm, 84, rfl⟩
abbrev main_call6_v1 : Ref sig .tc := ⟨.hbm, 85, rfl⟩
abbrev main_call6_v2 : Ref sig .tc := ⟨.hbm, 86, rfl⟩
abbrev main_call6_v3 : Ref sig .tc := ⟨.hbm, 87, rfl⟩
abbrev main_call6_v4 : Ref sig .tc := ⟨.hbm, 88, rfl⟩
abbrev main_call6_v5 : Ref sig .tc := ⟨.hbm, 89, rfl⟩
abbrev main_call6_v6 : Ref sig .tc := ⟨.hbm, 90, rfl⟩
abbrev main_call6_v7 : Ref sig .tc := ⟨.hbm, 91, rfl⟩
abbrev main_call6_v8 : Ref sig .tc := ⟨.hbm, 92, rfl⟩
abbrev main_call6_c : Ref sig .tc := ⟨.hbm, 93, rfl⟩
abbrev main_call6_v9 : Ref sig .tc := ⟨.hbm, 94, rfl⟩
abbrev main_call6_v10 : Ref sig .tc := ⟨.hbm, 95, rfl⟩
abbrev main_call6_v11 : Ref sig .tc := ⟨.hbm, 96, rfl⟩
abbrev main_call6_c_0 : Ref sig .tc := ⟨.hbm, 97, rfl⟩
abbrev main_call6_v12 : Ref sig .tc := ⟨.hbm, 98, rfl⟩
abbrev main_call6_v13 : Ref sig .tc := ⟨.hbm, 99, rfl⟩
abbrev main_v25 : Ref sig .tc := ⟨.hbm, 100, rfl⟩
abbrev main_c_10 : Ref sig .tc := ⟨.hbm, 101, rfl⟩
abbrev main_call7_v0 : Ref sig .tc := ⟨.hbm, 102, rfl⟩
abbrev main_call7_c : Ref sig .tc := ⟨.hbm, 103, rfl⟩
abbrev main_call7_v1 : Ref sig .tc := ⟨.hbm, 104, rfl⟩
abbrev main_call7_c_0 : Ref sig .tc := ⟨.hbm, 105, rfl⟩
abbrev main_call7_v2 : Ref sig .tc := ⟨.hbm, 106, rfl⟩
abbrev main_call7_v3 : Ref sig .tc := ⟨.hbm, 107, rfl⟩
abbrev main_call7_v4 : Ref sig .tc := ⟨.hbm, 108, rfl⟩
abbrev main_call7_c_1 : Ref sig .tc := ⟨.hbm, 109, rfl⟩
abbrev main_call7_v5 : Ref sig .tc := ⟨.hbm, 110, rfl⟩
abbrev main_call7_v6 : Ref sig .tc := ⟨.hbm, 111, rfl⟩
abbrev main_call7_c_2 : Ref sig .tc := ⟨.hbm, 112, rfl⟩
abbrev main_call7_v7 : Ref sig .tc := ⟨.hbm, 113, rfl⟩
abbrev main_call7_v8 : Ref sig .tc := ⟨.hbm, 114, rfl⟩
abbrev main_call7_c_3 : Ref sig .tc := ⟨.hbm, 115, rfl⟩
abbrev main_call7_v9 : Ref sig .tc := ⟨.hbm, 116, rfl⟩
abbrev main_call7_v10 : Ref sig .tc := ⟨.hbm, 117, rfl⟩
abbrev main_call7_v11 : Ref sig .tc := ⟨.hbm, 118, rfl⟩
abbrev main_call7_v12 : Ref sig .tc := ⟨.hbm, 119, rfl⟩
abbrev main_call7_v13 : Ref sig .tc := ⟨.hbm, 120, rfl⟩
abbrev main_call7_v14 : Ref sig .tc := ⟨.hbm, 121, rfl⟩
abbrev main_v26 : Ref sig .tc := ⟨.hbm, 122, rfl⟩
abbrev main_c_11 : Ref sig .tc := ⟨.hbm, 123, rfl⟩
abbrev main_v27 : Ref sig .tc := ⟨.hbm, 124, rfl⟩
abbrev main_v28 : Ref sig .tc := ⟨.hbm, 125, rfl⟩
abbrev main_c_12 : Ref sig .tc := ⟨.hbm, 126, rfl⟩
abbrev main_call8_v0 : Ref sig .tc := ⟨.hbm, 127, rfl⟩
abbrev main_call8_v1 : Ref sig .tc := ⟨.hbm, 128, rfl⟩
abbrev main_call8_v2 : Ref sig .tc := ⟨.hbm, 129, rfl⟩
abbrev main_call8_v3 : Ref sig .tc := ⟨.hbm, 130, rfl⟩
abbrev main_call8_v4 : Ref sig .tc := ⟨.hbm, 131, rfl⟩
abbrev main_call8_v5 : Ref sig .tc := ⟨.hbm, 132, rfl⟩
abbrev main_call8_v6 : Ref sig .tc := ⟨.hbm, 133, rfl⟩
abbrev main_call8_v7 : Ref sig .tc := ⟨.hbm, 134, rfl⟩
abbrev main_call8_v8 : Ref sig .tc := ⟨.hbm, 135, rfl⟩
abbrev main_call8_c : Ref sig .tc := ⟨.hbm, 136, rfl⟩
abbrev main_call8_v9 : Ref sig .tc := ⟨.hbm, 137, rfl⟩
abbrev main_call8_v10 : Ref sig .tc := ⟨.hbm, 138, rfl⟩
abbrev main_call8_v11 : Ref sig .tc := ⟨.hbm, 139, rfl⟩
abbrev main_call8_c_0 : Ref sig .tc := ⟨.hbm, 140, rfl⟩
abbrev main_call8_v12 : Ref sig .tc := ⟨.hbm, 141, rfl⟩
abbrev main_call8_v13 : Ref sig .tc := ⟨.hbm, 142, rfl⟩
abbrev main_v29 : Ref sig .tc := ⟨.hbm, 143, rfl⟩
abbrev main_v30 : Ref sig .tc := ⟨.hbm, 144, rfl⟩
abbrev main_c_13 : Ref sig .tc := ⟨.hbm, 145, rfl⟩
abbrev main_v31 : Ref sig .tc := ⟨.hbm, 146, rfl⟩
abbrev main_v32 : Ref sig .tc := ⟨.hbm, 147, rfl⟩
abbrev main_c_14 : Ref sig .tc := ⟨.hbm, 148, rfl⟩
abbrev main_call9_v0 : Ref sig .tc := ⟨.hbm, 149, rfl⟩
abbrev main_call9_c : Ref sig .tc := ⟨.hbm, 150, rfl⟩
abbrev main_call9_v1 : Ref sig .tc := ⟨.hbm, 151, rfl⟩
abbrev main_call9_c_0 : Ref sig .tc := ⟨.hbm, 152, rfl⟩
abbrev main_call9_v2 : Ref sig .tc := ⟨.hbm, 153, rfl⟩
abbrev main_call9_v3 : Ref sig .tc := ⟨.hbm, 154, rfl⟩
abbrev main_call9_v4 : Ref sig .tc := ⟨.hbm, 155, rfl⟩
abbrev main_call9_c_1 : Ref sig .tc := ⟨.hbm, 156, rfl⟩
abbrev main_call9_v5 : Ref sig .tc := ⟨.hbm, 157, rfl⟩
abbrev main_call9_v6 : Ref sig .tc := ⟨.hbm, 158, rfl⟩
abbrev main_call9_c_2 : Ref sig .tc := ⟨.hbm, 159, rfl⟩
abbrev main_call9_v7 : Ref sig .tc := ⟨.hbm, 160, rfl⟩
abbrev main_call9_v8 : Ref sig .tc := ⟨.hbm, 161, rfl⟩
abbrev main_call9_c_3 : Ref sig .tc := ⟨.hbm, 162, rfl⟩
abbrev main_call9_v9 : Ref sig .tc := ⟨.hbm, 163, rfl⟩
abbrev main_call9_v10 : Ref sig .tc := ⟨.hbm, 164, rfl⟩
abbrev main_call9_v11 : Ref sig .tc := ⟨.hbm, 165, rfl⟩
abbrev main_call9_v12 : Ref sig .tc := ⟨.hbm, 166, rfl⟩
abbrev main_call9_v13 : Ref sig .tc := ⟨.hbm, 167, rfl⟩
abbrev main_call9_v14 : Ref sig .tc := ⟨.hbm, 168, rfl⟩
abbrev main_v33 : Ref sig .tc := ⟨.hbm, 169, rfl⟩
abbrev main_v34 : Ref sig .tc := ⟨.hbm, 170, rfl⟩
abbrev main_v35 : Ref sig .tc := ⟨.hbm, 171, rfl⟩
abbrev main_v36 : Ref sig .tc := ⟨.hbm, 172, rfl⟩
abbrev main_c_15 : Ref sig .tc := ⟨.hbm, 173, rfl⟩
abbrev main_v37 : Ref sig .tc := ⟨.hbm, 174, rfl⟩
abbrev main_v38 : Ref sig .tc := ⟨.hbm, 175, rfl⟩
abbrev main_c_16 : Ref sig .tc := ⟨.hbm, 176, rfl⟩
abbrev main_v39 : Ref sig .tc := ⟨.hbm, 177, rfl⟩
abbrev main_v40 : Ref sig .tc := ⟨.hbm, 178, rfl⟩
abbrev main_v41 : Ref sig .tc := ⟨.hbm, 179, rfl⟩
abbrev main_v42 : Ref sig .tc := ⟨.hbm, 180, rfl⟩
abbrev main_v43 : Ref sig .tc := ⟨.hbm, 181, rfl⟩
abbrev main_c_17 : Ref sig .tc := ⟨.hbm, 182, rfl⟩
abbrev main_v44 : Ref sig .tc := ⟨.hbm, 183, rfl⟩
abbrev main_v45 : Ref sig .tc := ⟨.hbm, 184, rfl⟩
abbrev main_c_18 : Ref sig .tc := ⟨.hbm, 185, rfl⟩
abbrev main_v46 : Ref sig .tc := ⟨.hbm, 186, rfl⟩
abbrev main_v47 : Ref sig .tc := ⟨.hbm, 187, rfl⟩
abbrev main_v48 : Ref sig .tc := ⟨.hbm, 188, rfl⟩
abbrev main_v49 : Ref sig .tc := ⟨.hbm, 189, rfl⟩
abbrev main_v50 : Ref sig .tc := ⟨.hbm, 190, rfl⟩
abbrev main_v51 : Ref sig .tc := ⟨.hbm, 191, rfl⟩
abbrev main_v52 : Ref sig .tc := ⟨.hbm, 192, rfl⟩
abbrev main_c_19 : Ref sig .tc := ⟨.hbm, 193, rfl⟩
abbrev main_v53 : Ref sig .tc := ⟨.hbm, 194, rfl⟩
abbrev main_v54 : Ref sig .tc := ⟨.hbm, 195, rfl⟩
abbrev main_v55 : Ref sig .tc := ⟨.hbm, 196, rfl⟩
abbrev main_v56 : Ref sig .tc := ⟨.hbm, 197, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x512x2_S1x512x2_0_0_0 : ∀ a, (![0, 0, 0] : Fin 3 → Nat) a + S1x512x2.size a ≤ S1x512x2.size a
  h_S1x512x2 : 0 < S1x512x2.numel
  shapeCasts_S1x512x2_S512x2 : S1x512x2.ShapeCasts S512x2
  inb_S1x2048x2_S1x2048x2_0_0_0 : ∀ a, (![0, 0, 0] : Fin 3 → Nat) a + S1x2048x2.size a ≤ S1x2048x2.size a
  h_S1x2048x2 : 0 < S1x2048x2.numel
  shapeCasts_S1x2048x2_S2048x2 : S1x2048x2.ShapeCasts S2048x2
  slices_S512x2_o0_0_S512x1 : S512x2.Slices ![0, 0] S512x1
  slices_S512x2_o0_1_S512x1 : S512x2.Slices ![0, 1] S512x1
  slices_S2048x2_o0_0_S2048x1 : S2048x2.Slices ![0, 0] S2048x1
  shapeCasts_S2048x1_S2048 : S2048x1.ShapeCasts S2048
  shapeCasts_S2048_S1x2048 : S2048.ShapeCasts S1x2048
  slices_S2048x2_o0_1_S2048x1 : S2048x2.Slices ![0, 1] S2048x1
  broadcasts_S512x1_S512x2048 : S512x1.Broadcasts S512x2048
  broadcasts_S1x2048_S512x2048 : S1x2048.Broadcasts S512x2048
  natLt_1_32 : 1 < 32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  bcast_S_S8x1024x2048 : S_.BroadcastsInDim S8x1024x2048 (![] : Fin 0 → Fin S8x1024x2048.rank)
  shapeCasts_S8x1024x2048_S16777216 : S8x1024x2048.ShapeCasts S16777216
  bcast_S_S_ : S_.BroadcastsInDim S_ (![] : Fin 0 → Fin S_.rank)
  reduceWindows_S16777216_S16777216_w16777216s1p16777215_0 : S16777216.ReduceWindows (![16777216] : Fin 1 → Nat) ![1] ![16777215] ![0] S16777216
  h_S_ : 0 < S_.numel
  bcast_S_S16777216 : S_.BroadcastsInDim S16777216 (![] : Fin 0 → Fin S16777216.rank)
  bcast_S16777216_S16777216x1_0 : S16777216.BroadcastsInDim S16777216x1 (![0] : Fin 1 → Fin S16777216x1.rank)
  reducesTo_S16777216_S_d0 : S16777216.ReducesTo [0] S_
  shapeCasts_S8x1024x2_S8192x2 : S8x1024x2.ShapeCasts S8192x2
  shapeCasts_S8x2048x2_S16384x2 : S8x2048x2.ShapeCasts S16384x2
  scatter_S16777216_S16777216x1_S16777216_n_0_0_1_wf : ScatterDims.WF S16777216 S16777216x1 S16777216 [] [0] [0] 1
  gather_S8192x2_S16777216x1_S16777216x2_1_0_n_n_0_1_12_wf : GatherDims.WF S8192x2 S16777216x1 S16777216x2 [1] [0] [] [0] [] 1 ![1, 2]
  gather_S16384x2_S16777216x1_S16777216x2_1_0_n_n_0_1_12_wf : GatherDims.WF S16384x2 S16777216x1 S16777216x2 [1] [0] [] [0] [] 1 ![1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2.size a ≤ S8x1024x2.size a
  hwx0_0 : ∀ i : grid0.Coords, EltTy.bits .f32 = 32 ∨ (Rect.block (s := S8x1024x2) S1x512x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x2.size a ≤ S8x2048x2.size a
  hwx0_1 : ∀ i : grid0.Coords, EltTy.bits .f32 = 32 ∨ (Rect.block (s := S8x2048x2) S1x2048x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S8x1024x2048.size a
  hwx0_2 : ∀ i : grid0.Coords, EltTy.bits .i32 = 32 ∨ (Rect.block (s := S8x1024x2048) S1x512x2048.size (cc0_transform_2 i) (hinb0_2 i)).WholeWords (EltTy.packing .i32)

variable [Facts₀]

def scatter_S16777216_S16777216x1_S16777216_n_0_0_1 : ScatterDims S16777216 S16777216x1 S16777216 where
  updateWindowDims := []
  insertedWindowDims := [0]
  scatterDimsToOperandDims := [0]
  indexVectorDim := 1
  wf := scatter_S16777216_S16777216x1_S16777216_n_0_0_1_wf
def gather_S8192x2_S16777216x1_S16777216x2_1_0_n_n_0_1_12 : GatherDims S8192x2 S16777216x1 S16777216x2 where
  offsetDims := [1]
  collapsedSliceDims := [0]
  operandBatchingDims := []
  startIndicesBatchingDims := []
  startIndexMap := [0]
  indexVectorDim := 1
  sliceSizes := ![1, 2]
  wf := gather_S8192x2_S16777216x1_S16777216x2_1_0_n_n_0_1_12_wf
def gather_S16384x2_S16777216x1_S16777216x2_1_0_n_n_0_1_12 : GatherDims S16384x2 S16777216x1 S16777216x2 where
  offsetDims := [1]
  collapsedSliceDims := [0]
  operandBatchingDims := []
  startIndicesBatchingDims := []
  startIndexMap := [0]
  indexVectorDim := 1
  sliceSizes := ![1, 2]
  wf := gather_S16384x2_S16777216x1_S16777216x2_1_0_n_n_0_1_12_wf

abbrev win0_0 : Pipeline.Window sig grid0 :=
  Pipeline.Window.ofSpec (Memref.whole main_arg1) S1x512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x2048x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x1024 : Shape := ⟨2, ![8, 1024]⟩
abbrev S8x1024x2 : Shape := ⟨3, ![8, 1024, 2]⟩
abbrev S8x2048 : Shape := ⟨2, ![8, 2048]⟩
abbrev S8x2048x2 : Shape := ⟨3, ![8, 2048, 2]⟩
abbrev S8x1024x1x2 : Shape := ⟨4, ![8, 1024, 1, 2]⟩
abbrev S8x1x2048x2 : Shape := ⟨4, ![8, 1, 2048, 2]⟩
abbrev S8x1024x2048x2 : Shape := ⟨4, ![8, 1024, 2048, 2]⟩
abbrev S_ : Shape := ⟨0, ![]⟩
abbrev S8x1024x2048 : Shape := ⟨3, ![8, 1024, 2048]⟩
abbrev S16777216 : Shape := ⟨1, ![16777216]⟩
abbrev S16777216x1 : Shape := ⟨2, ![16777216, 1]⟩
abbrev S8192x2 : Shape := ⟨2, ![8192, 2]⟩
abbrev S16384x2 : Shape := ⟨2, ![16384, 2]⟩
abbrev S16777216x2 : Shape := ⟨2, ![16777216, 2]⟩

abbrev nBuf : Space → Nat
  | .hbm => 205
  | .vmem => 0
  | .smem => 0
  | _ => 0

abbrev hbmTy0_0 (i : Nat) : BufTy := match i % 128 with
  | 0 => ⟨S8x1024, .i32⟩
  | 1 => ⟨S8x1024x2, .f32⟩
  | 2 => ⟨S8x2048, .i32⟩
  | 3 => ⟨S8x2048x2, .f32⟩
  | 4 => ⟨S8x1024x1x2, .f32⟩
  | 5 => ⟨S8x1x2048x2, .f32⟩
  | 6 => ⟨S8x1024x2048x2, .f32⟩
  | 7 => ⟨S8x1024x2048x2, .f32⟩
  | 8 => ⟨S8x1024x2048x2, .f32⟩
  | 9 => ⟨S8x1024x2048x2, .f32⟩
  | 10 => ⟨S_, .f32⟩
  | 11 => ⟨S8x1024x2048, .f32⟩
  | 12 => ⟨S8x1024x2048, .f32⟩
  | 13 => ⟨S_, .f32⟩
  | 14 => ⟨S8x1024x2048, .f32⟩
  | 15 => ⟨S8x1024x2048, .i1⟩
  | 16 => ⟨S16777216, .i1⟩
  | 17 => ⟨S16777216, .i32⟩
  | 18 => ⟨S_, .i32⟩
  | 19 => ⟨S_, .i32⟩
  | 20 => ⟨S16777216, .i32⟩
  | 21 => ⟨S_, .i32⟩
  | 22 => ⟨S16777216, .i32⟩
  | 23 => ⟨S_, .i32⟩
  | 24 => ⟨S_, .i32⟩
  | 25 => ⟨S16777216, .i32⟩
  | 26 => ⟨S16777216, .i32⟩
  | 27 => ⟨S_, .i32⟩
  | 28 => ⟨S16777216, .i32⟩
  | 29 => ⟨S16777216, .i1⟩
  | 30 => ⟨S_, .i32⟩
  | 31 => ⟨S16777216, .i32⟩
  | 32 => ⟨S16777216, .i32⟩
  | 33 => ⟨S16777216, .i32⟩
  | 34 => ⟨S16777216x1, .i32⟩
  | 35 => ⟨S_, .i32⟩
  | 36 => ⟨S16777216, .i32⟩
  | 37 => ⟨S16777216, .i32⟩
  | 38 => ⟨S_, .i32⟩
  | 39 => ⟨S_, .i32⟩
  | 40 => ⟨S16777216, .i32⟩
  | 41 => ⟨S_, .i32⟩
  | 42 => ⟨S16777216, .i32⟩
  | 43 => ⟨S16777216, .i32⟩
  | 44 => ⟨S16777216, .i32⟩
  | 45 => ⟨S_, .i32⟩
  | 46 => ⟨S16777216, .i32⟩
  | 47 => ⟨S16777216, .i1⟩
  | 48 => ⟨S16777216, .i32⟩
  | 49 => ⟨S16777216, .i32⟩
  | 50 => ⟨S_, .i32⟩
  | 51 => ⟨S16777216, .i32⟩
  | 52 => ⟨S16777216, .i1⟩
  | 53 => ⟨S16777216, .i1⟩
  | 54 => ⟨S_, .i32⟩
  | 55 => ⟨S16777216, .i32⟩
  | 56 => ⟨S16777216, .i32⟩
  | 57 => ⟨S16777216, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S16777216, .i32⟩
  | 65 => ⟨S16777216, .i32⟩
  | 66 => ⟨S_, .i32⟩
  | 67 => ⟨S16777216, .i32⟩
  | 68 => ⟨S16777216, .i1⟩
  | 69 => ⟨S_, .i32⟩
  | 70 => ⟨S16777216, .i32⟩
  | 71 => ⟨S16777216, .i1⟩
  | 72 => ⟨S_, .i32⟩
  | 73 => ⟨S_, .i1⟩
  | 74 => ⟨S16777216, .i1⟩
  | 75 => ⟨S16777216, .i1⟩
  | 76 => ⟨S16777216, .i1⟩
  | 77 => ⟨S16777216, .i32⟩
  | 78 => ⟨S16777216, .i32⟩
  | 79 => ⟨S16777216, .i32⟩
  | 80 => ⟨S16777216, .i32⟩
  | 81 => ⟨S16777216, .i32⟩
  | 82 => ⟨S_, .i32⟩
  | 83 => ⟨S_, .i32⟩
  | 84 => ⟨S16777216, .i32⟩
  | 85 => ⟨S16777216, .i1⟩
  | 86 => ⟨S_, .i32⟩
  | 87 => ⟨S_, .i32⟩
  | 88 => ⟨S16777216, .i32⟩
  | 89 => ⟨S16777216, .i32⟩
  | 90 => ⟨S_, .i32⟩
  | 91 => ⟨S_, .i32⟩
  | 92 => ⟨S16777216, .i32⟩
  | 93 => ⟨S16777216, .i32⟩
  | 94 => ⟨S16777216, .i32⟩
  | 95 => ⟨S_, .i32⟩
  | 96 => ⟨S16777216, .i32⟩
  | 97 => ⟨S16777216, .i1⟩
  | 98 => ⟨S16777216, .i32⟩
  | 99 => ⟨S16777216, .i32⟩
  | 100 => ⟨S_, .i32⟩
  | 101 => ⟨S16777216, .i32⟩
  | 102 => ⟨S16777216, .i1⟩
  | 103 => ⟨S16777216, .i1⟩
  | 104 => ⟨S_, .i32⟩
  | 105 => ⟨S16777216, .i32⟩
  | 106 => ⟨S16777216, .i32⟩
  | 107 => ⟨S16777216, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S16777216, .i32⟩
  | 115 => ⟨S16777216, .i32⟩
  | 116 => ⟨S_, .i32⟩
  | 117 => ⟨S16777216, .i32⟩
  | 118 => ⟨S16777216, .i1⟩
  | 119 => ⟨S_, .i32⟩
  | 120 => ⟨S16777216, .i32⟩
  | 121 => ⟨S16777216, .i1⟩
  | 122 => ⟨S_, .i32⟩
  | 123 => ⟨S_, .i1⟩
  | 124 => ⟨S16777216, .i1⟩
  | 125 => ⟨S16777216, .i1⟩
  | 126 => ⟨S16777216, .i1⟩
  | 127 => ⟨S16777216, .i32⟩
  | _ => ⟨S8x1024, .i32⟩

abbrev hbmTy0_1 (i : Nat) : BufTy := match i % 128 with
  | 0 => ⟨S16777216, .i32⟩
  | 1 => ⟨S16777216, .i32⟩
  | 2 => ⟨S_, .i32⟩
  | 3 => ⟨S16777216, .i32⟩
  | 4 => ⟨S16777216, .i32⟩
  | 5 => ⟨S_, .i32⟩
  | 6 => ⟨S_, .i32⟩
  | 7 => ⟨S16777216, .i32⟩
  | 8 => ⟨S16777216, .i32⟩
  | 9 => ⟨S16777216, .i32⟩
  | 10 => ⟨S_, .i32⟩
  | 11 => ⟨S16777216, .i32⟩
  | 12 => ⟨S16777216, .i1⟩
  | 13 => ⟨S16777216, .i32⟩
  | 14 => ⟨S16777216, .i32⟩
  | 15 => ⟨S_, .i32⟩
  | 16 => ⟨S16777216, .i32⟩
  | 17 => ⟨S16777216, .i1⟩
  | 18 => ⟨S16777216, .i1⟩
  | 19 => ⟨S_, .i32⟩
  | 20 => ⟨S16777216, .i32⟩
  | 21 => ⟨S16777216, .i32⟩
  | 22 => ⟨S16777216, .i32⟩
  | 23 => ⟨S16777216, .i32⟩
  | 24 => ⟨S_, .i32⟩
  | 25 => ⟨S16777216, .i32⟩
  | 26 => ⟨S16777216, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S16777216, .i32⟩
  | 34 => ⟨S16777216, .i32⟩
  | 35 => ⟨S_, .i32⟩
  | 36 => ⟨S16777216, .i32⟩
  | 37 => ⟨S16777216, .i1⟩
  | 38 => ⟨S_, .i32⟩
  | 39 => ⟨S16777216, .i32⟩
  | 40 => ⟨S16777216, .i1⟩
  | 41 => ⟨S_, .i32⟩
  | 42 => ⟨S_, .i1⟩
  | 43 => ⟨S16777216, .i1⟩
  | 44 => ⟨S16777216, .i1⟩
  | 45 => ⟨S16777216, .i1⟩
  | 46 => ⟨S16777216, .i32⟩
  | 47 => ⟨S16777216, .i32⟩
  | 48 => ⟨S16777216, .i32⟩
  | 49 => ⟨S16777216, .i32⟩
  | 50 => ⟨S8192x2, .f32⟩
  | 51 => ⟨S16384x2, .f32⟩
  | 52 => ⟨S_, .i32⟩
  | 53 => ⟨S16777216, .i32⟩
  | 54 => ⟨S16777216, .i1⟩
  | 55 => ⟨S_, .i32⟩
  | 56 => ⟨S16777216, .i32⟩
  | 57 => ⟨S16777216, .i32⟩
  | 58 => ⟨S16777216, .i32⟩
  | 59 => ⟨S16777216x1, .i32⟩
  | 60 => ⟨S16777216x2, .f32⟩
  | 61 => ⟨S_, .i32⟩
  | 62 => ⟨S16777216, .i32⟩
  | 63 => ⟨S16777216, .i1⟩
  | 64 => ⟨S_, .i32⟩
  | 65 => ⟨S16777216, .i32⟩
  | 66 => ⟨S16777216, .i32⟩
  | 67 => ⟨S16777216, .i32⟩
  | 68 => ⟨S16777216x1, .i32⟩
  | 69 => ⟨S16777216x2, .f32⟩
  | 70 => ⟨S16777216x2, .f32⟩
  | 71 => ⟨S16777216, .i32⟩
  | 72 => ⟨S_, .i32⟩
  | 73 => ⟨S_, .i32⟩
  | 74 => ⟨S16777216, .i32⟩
  | 75 => ⟨S16777216, .i32⟩
  | 76 => ⟨S16777216, .i1⟩
  | _ => ⟨S8x1024, .i32⟩

abbrev hbmTy (i : Nat) : BufTy := match i / 128 with
  | 0 => hbmTy0_0 i
  | 1 => hbmTy0_1 i
  | _ => ⟨S8x1024, .i32⟩

abbrev bufTy : (tb : Table) → Fin (tcTables nBuf tb) → BufTy
  | .hbm, ⟨i, _⟩ => hbmTy i
  | _, _ => ⟨S8x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_call0_c : Ref sig .tc := ⟨.hbm, 18, rfl⟩
abbrev main_call0_call0_v0 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_c_1 : Ref sig .tc := ⟨.hbm, 23, rfl⟩
abbrev main_call1_v0 : Ref sig .tc := ⟨.hbm, 24, rfl⟩
abbrev main_call1_v1 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_call2_call0_c : Ref sig .tc := ⟨.hbm, 38, rfl⟩
abbrev main_call2_call0_v0 : Ref sig .tc := ⟨.hbm, 39, rfl⟩
abbrev main_v22 : Ref sig .tc := ⟨.hbm, 40, rfl⟩
abbrev main_c_5 : Ref sig .tc := ⟨.hbm, 41, rfl⟩
abbrev main_call3_v0 : Ref sig .tc := ⟨.hbm, 42, rfl⟩
abbrev main_call3_v1 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_call3_v5 : Ref sig .tc := ⟨.hbm, 47, rfl⟩
abbrev main_call3_v6 : Ref sig .tc := ⟨.hbm, 48, rfl⟩
abbrev main_call3_v7 : Ref sig .tc := ⟨.hbm, 49, rfl⟩
abbrev main_call3_c : Ref sig .tc := ⟨.hbm, 50, rfl⟩
abbrev main_call3_v8 : Ref sig .tc := ⟨.hbm, 51, rfl⟩
abbrev main_call3_v9 : Ref sig .tc := ⟨.hbm, 52, rfl⟩
abbrev main_call3_v10 : Ref sig .tc := ⟨.hbm, 53, rfl⟩
abbrev main_call3_c_0 : Ref sig .tc := ⟨.hbm, 54, rfl⟩
abbrev main_call3_v11 : Ref sig .tc := ⟨.hbm, 55, rfl⟩
abbrev main_call3_v12 : Ref sig .tc := ⟨.hbm, 56, rfl⟩
abbrev main_v23 : Ref sig .tc := ⟨.hbm, 57, rfl⟩
abbrev main_c_6 : Ref sig .tc := ⟨.hbm, 58, rfl⟩
abbrev main_call4_v0 : Ref sig .tc := ⟨.hbm, 59, rfl⟩
abbrev main_call4_c : Ref sig .tc := ⟨.hbm, 60, rfl⟩
abbrev main_call4_v1 : Ref sig .tc := ⟨.hbm, 61, rfl⟩
abbrev main_call4_c_0 : Ref sig .tc := ⟨.hbm, 62, rfl⟩
abbrev main_call4_v2 : Ref sig .tc := ⟨.hbm, 63, rfl⟩
abbrev main_call4_v3 : Ref sig .tc := ⟨.hbm, 64, rfl⟩
abbrev main_call4_v4 : Ref sig .tc := ⟨.hbm, 65, rfl⟩
abbrev main_call4_c_1 : Ref sig .tc := ⟨.hbm, 66, rfl⟩
abbrev main_call4_v5 : Ref sig .tc := ⟨.hbm, 67, rfl⟩
abbrev main_call4_v6 : Ref sig .tc := ⟨.hbm, 68, rfl⟩
abbrev main_call4_c_2 : Ref sig .tc := ⟨.hbm, 69, rfl⟩
abbrev main_call4_v7 : Ref sig .tc := ⟨.hbm, 70, rfl⟩
abbrev main_call4_v8 : Ref sig .tc := ⟨.hbm, 71, rfl⟩
abbrev main_call4_c_3 : Ref sig .tc := ⟨.hbm, 72, rfl⟩
abbrev main_call4_v9 : Ref sig .tc := ⟨.hbm, 73, rfl⟩
abbrev main_call4_v10 : Ref sig .tc := ⟨.hbm, 74, rfl⟩
abbrev main_call4_v11 : Ref sig .tc := ⟨.hbm, 75, rfl⟩
abbrev main_call4_v12 : Ref sig .tc := ⟨.hbm, 76, rfl⟩
abbrev main_call4_v13 : Ref sig .tc := ⟨.hbm, 77, rfl⟩
abbrev main_call4_v14 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_c_7 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_c_8 : Ref sig .tc := ⟨.hbm, 86, rfl⟩
abbrev main_call5_v0 : Ref sig .tc := ⟨.hbm, 87, rfl⟩
abbrev main_call5_v1 : Ref sig .tc := ⟨.hbm, 88, rfl⟩
abbrev main_v30 : Ref sig .tc := ⟨.hbm, 89, rfl⟩
abbrev main_c_9 : Ref sig .tc := ⟨.hbm, 90, rfl⟩
abbrev main_call6_v0 : Ref sig .tc := ⟨.hbm, 91, rfl⟩
abbrev main_call6_v1 : Ref sig .tc := ⟨.hbm, 92, rfl⟩
abbrev main_call6_v2 : Ref sig .tc := ⟨.hbm, 93, rfl⟩
abbrev main_call6_v3 : Ref sig .tc := ⟨.hbm, 94, rfl⟩
abbrev main_call6_v4 : Ref sig .tc := ⟨.hbm, 95, rfl⟩
abbrev main_call6_v5 : Ref sig .tc := ⟨.hbm, 96, rfl⟩
abbrev main_call6_v6 : Ref sig .tc := ⟨.hbm, 97, rfl⟩
abbrev main_call6_v7 : Ref sig .tc := ⟨.hbm, 98, rfl⟩
abbrev main_call6_v8 : Ref sig .tc := ⟨.hbm, 99, rfl⟩
abbrev main_call6_c : Ref sig .tc := ⟨.hbm, 100, rfl⟩
abbrev main_call6_v9 : Ref sig .tc := ⟨.hbm, 101, rfl⟩
abbrev main_call6_v10 : Ref sig .tc := ⟨.hbm, 102, rfl⟩
abbrev main_call6_v11 : Ref sig .tc := ⟨.hbm, 103, rfl⟩
abbrev main_call6_c_0 : Ref sig .tc := ⟨.hbm, 104, rfl⟩
abbrev main_call6_v12 : Ref sig .tc := ⟨.hbm, 105, rfl⟩
abbrev main_call6_v13 : Ref sig .tc := ⟨.hbm, 106, rfl⟩
abbrev main_v31 : Ref sig .tc := ⟨.hbm, 107, rfl⟩
abbrev main_c_10 : Ref sig .tc := ⟨.hbm, 108, rfl⟩
abbrev main_call7_v0 : Ref sig .tc := ⟨.hbm, 109, rfl⟩
abbrev main_call7_c : Ref sig .tc := ⟨.hbm, 110, rfl⟩
abbrev main_call7_v1 : Ref sig .tc := ⟨.hbm, 111, rfl⟩
abbrev main_call7_c_0 : Ref sig .tc := ⟨.hbm, 112, rfl⟩
abbrev main_call7_v2 : Ref sig .tc := ⟨.hbm, 113, rfl⟩
abbrev main_call7_v3 : Ref sig .tc := ⟨.hbm, 114, rfl⟩
abbrev main_call7_v4 : Ref sig .tc := ⟨.hbm, 115, rfl⟩
abbrev main_call7_c_1 : Ref sig .tc := ⟨.hbm, 116, rfl⟩
abbrev main_call7_v5 : Ref sig .tc := ⟨.hbm, 117, rfl⟩
abbrev main_call7_v6 : Ref sig .tc := ⟨.hbm, 118, rfl⟩
abbrev main_call7_c_2 : Ref sig .tc := ⟨.hbm, 119, rfl⟩
abbrev main_call7_v7 : Ref sig .tc := ⟨.hbm, 120, rfl⟩
abbrev main_call7_v8 : Ref sig .tc := ⟨.hbm, 121, rfl⟩
abbrev main_call7_c_3 : Ref sig .tc := ⟨.hbm, 122, rfl⟩
abbrev main_call7_v9 : Ref sig .tc := ⟨.hbm, 123, rfl⟩
abbrev main_call7_v10 : Ref sig .tc := ⟨.hbm, 124, rfl⟩
abbrev main_call7_v11 : Ref sig .tc := ⟨.hbm, 125, rfl⟩
abbrev main_call7_v12 : Ref sig .tc := ⟨.hbm, 126, rfl⟩
abbrev main_call7_v13 : Ref sig .tc := ⟨.hbm, 127, rfl⟩
abbrev main_call7_v14 : Ref sig .tc := ⟨.hbm, 128, rfl⟩
abbrev main_v32 : Ref sig .tc := ⟨.hbm, 129, rfl⟩
abbrev main_c_11 : Ref sig .tc := ⟨.hbm, 130, rfl⟩
abbrev main_v33 : Ref sig .tc := ⟨.hbm, 131, rfl⟩
abbrev main_v34 : Ref sig .tc := ⟨.hbm, 132, rfl⟩
abbrev main_c_12 : Ref sig .tc := ⟨.hbm, 133, rfl⟩
abbrev main_call8_v0 : Ref sig .tc := ⟨.hbm, 134, rfl⟩
abbrev main_call8_v1 : Ref sig .tc := ⟨.hbm, 135, rfl⟩
abbrev main_call8_v2 : Ref sig .tc := ⟨.hbm, 136, rfl⟩
abbrev main_call8_v3 : Ref sig .tc := ⟨.hbm, 137, rfl⟩
abbrev main_call8_v4 : Ref sig .tc := ⟨.hbm, 138, rfl⟩
abbrev main_call8_v5 : Ref sig .tc := ⟨.hbm, 139, rfl⟩
abbrev main_call8_v6 : Ref sig .tc := ⟨.hbm, 140, rfl⟩
abbrev main_call8_v7 : Ref sig .tc := ⟨.hbm, 141, rfl⟩
abbrev main_call8_v8 : Ref sig .tc := ⟨.hbm, 142, rfl⟩
abbrev main_call8_c : Ref sig .tc := ⟨.hbm, 143, rfl⟩
abbrev main_call8_v9 : Ref sig .tc := ⟨.hbm, 144, rfl⟩
abbrev main_call8_v10 : Ref sig .tc := ⟨.hbm, 145, rfl⟩
abbrev main_call8_v11 : Ref sig .tc := ⟨.hbm, 146, rfl⟩
abbrev main_call8_c_0 : Ref sig .tc := ⟨.hbm, 147, rfl⟩
abbrev main_call8_v12 : Ref sig .tc := ⟨.hbm, 148, rfl⟩
abbrev main_call8_v13 : Ref sig .tc := ⟨.hbm, 149, rfl⟩
abbrev main_v35 : Ref sig .tc := ⟨.hbm, 150, rfl⟩
abbrev main_v36 : Ref sig .tc := ⟨.hbm, 151, rfl⟩
abbrev main_c_13 : Ref sig .tc := ⟨.hbm, 152, rfl⟩
abbrev main_v37 : Ref sig .tc := ⟨.hbm, 153, rfl⟩
abbrev main_v38 : Ref sig .tc := ⟨.hbm, 154, rfl⟩
abbrev main_c_14 : Ref sig .tc := ⟨.hbm, 155, rfl⟩
abbrev main_call9_v0 : Ref sig .tc := ⟨.hbm, 156, rfl⟩
abbrev main_call9_c : Ref sig .tc := ⟨.hbm, 157, rfl⟩
abbrev main_call9_v1 : Ref sig .tc := ⟨.hbm, 158, rfl⟩
abbrev main_call9_c_0 : Ref sig .tc := ⟨.hbm, 159, rfl⟩
abbrev main_call9_v2 : Ref sig .tc := ⟨.hbm, 160, rfl⟩
abbrev main_call9_v3 : Ref sig .tc := ⟨.hbm, 161, rfl⟩
abbrev main_call9_v4 : Ref sig .tc := ⟨.hbm, 162, rfl⟩
abbrev main_call9_c_1 : Ref sig .tc := ⟨.hbm, 163, rfl⟩
abbrev main_call9_v5 : Ref sig .tc := ⟨.hbm, 164, rfl⟩
abbrev main_call9_v6 : Ref sig .tc := ⟨.hbm, 165, rfl⟩
abbrev main_call9_c_2 : Ref sig .tc := ⟨.hbm, 166, rfl⟩
abbrev main_call9_v7 : Ref sig .tc := ⟨.hbm, 167, rfl⟩
abbrev main_call9_v8 : Ref sig .tc := ⟨.hbm, 168, rfl⟩
abbrev main_call9_c_3 : Ref sig .tc := ⟨.hbm, 169, rfl⟩
abbrev main_call9_v9 : Ref sig .tc := ⟨.hbm, 170, rfl⟩
abbrev main_call9_v10 : Ref sig .tc := ⟨.hbm, 171, rfl⟩
abbrev main_call9_v11 : Ref sig .tc := ⟨.hbm, 172, rfl⟩
abbrev main_call9_v12 : Ref sig .tc := ⟨.hbm, 173, rfl⟩
abbrev main_call9_v13 : Ref sig .tc := ⟨.hbm, 174, rfl⟩
abbrev main_call9_v14 : Ref sig .tc := ⟨.hbm, 175, rfl⟩
abbrev main_v39 : Ref sig .tc := ⟨.hbm, 176, rfl⟩
abbrev main_v40 : Ref sig .tc := ⟨.hbm, 177, rfl⟩
abbrev main_v41 : Ref sig .tc := ⟨.hbm, 178, rfl⟩
abbrev main_v42 : Ref sig .tc := ⟨.hbm, 179, rfl⟩
abbrev main_c_15 : Ref sig .tc := ⟨.hbm, 180, rfl⟩
abbrev main_v43 : Ref sig .tc := ⟨.hbm, 181, rfl⟩
abbrev main_v44 : Ref sig .tc := ⟨.hbm, 182, rfl⟩
abbrev main_c_16 : Ref sig .tc := ⟨.hbm, 183, rfl⟩
abbrev main_v45 : Ref sig .tc := ⟨.hbm, 184, rfl⟩
abbrev main_v46 : Ref sig .tc := ⟨.hbm, 185, rfl⟩
abbrev main_v47 : Ref sig .tc := ⟨.hbm, 186, rfl⟩
abbrev main_v48 : Ref sig .tc := ⟨.hbm, 187, rfl⟩
abbrev main_v49 : Ref sig .tc := ⟨.hbm, 188, rfl⟩
abbrev main_c_17 : Ref sig .tc := ⟨.hbm, 189, rfl⟩
abbrev main_v50 : Ref sig .tc := ⟨.hbm, 190, rfl⟩
abbrev main_v51 : Ref sig .tc := ⟨.hbm, 191, rfl⟩
abbrev main_c_18 : Ref sig .tc := ⟨.hbm, 192, rfl⟩
abbrev main_v52 : Ref sig .tc := ⟨.hbm, 193, rfl⟩
abbrev main_v53 : Ref sig .tc := ⟨.hbm, 194, rfl⟩
abbrev main_v54 : Ref sig .tc := ⟨.hbm, 195, rfl⟩
abbrev main_v55 : Ref sig .tc := ⟨.hbm, 196, rfl⟩
abbrev main_v56 : Ref sig .tc := ⟨.hbm, 197, rfl⟩
abbrev main_v57 : Ref sig .tc := ⟨.hbm, 198, rfl⟩
abbrev main_v58 : Ref sig .tc := ⟨.hbm, 199, rfl⟩
abbrev main_c_19 : Ref sig .tc := ⟨.hbm, 200, rfl⟩
abbrev main_v59 : Ref sig .tc := ⟨.hbm, 201, rfl⟩
abbrev main_v60 : Ref sig .tc := ⟨.hbm, 202, rfl⟩
abbrev main_v61 : Ref sig .tc := ⟨.hbm, 203, rfl⟩
abbrev main_v62 : Ref sig .tc := ⟨.hbm, 204, rfl⟩

abbrev nD : Nat := 1
abbrev τ : Topo := Topo.v7x

variable {F : FTy → Type} [FloatOps F]

class Facts₀ : Prop where
  bcast_S8x1024x2_S8x1024x1x2_0_1_3 : S8x1024x2.BroadcastsInDim S8x1024x1x2 (![0, 1, 3] : Fin 3 → Fin S8x1024x1x2.rank)
  bcast_S8x2048x2_S8x1x2048x2_0_2_3 : S8x2048x2.BroadcastsInDim S8x1x2048x2 (![0, 2, 3] : Fin 3 → Fin S8x1x2048x2.rank)
  bcast_S8x1024x1x2_S8x1024x2048x2_0_1_2_3 : S8x1024x1x2.BroadcastsInDim S8x1024x2048x2 (![0, 1, 2, 3] : Fin 4 → Fin S8x1024x2048x2.rank)
  bcast_S8x1x2048x2_S8x1024x2048x2_0_1_2_3 : S8x1x2048x2.BroadcastsInDim S8x1024x2048x2 (![0, 1, 2, 3] : Fin 4 → Fin S8x1024x2048x2.rank)
  reducesTo_S8x1024x2048x2_S8x1024x2048_d3 : S8x1024x2048x2.ReducesTo [3] S8x1024x2048
  h_S_ : 0 < S_.numel
  bcast_S_S8x1024x2048 : S_.BroadcastsInDim S8x1024x2048 (![] : Fin 0 → Fin S8x1024x2048.rank)
  shapeCasts_S8x1024x2048_S16777216 : S8x1024x2048.ShapeCasts S16777216
  natLt_1_32 : 1 < 32
  bcast_S_S_ : S_.BroadcastsInDim S_ (![] : Fin 0 → Fin S_.rank)
  reduceWindows_S16777216_S16777216_w16777216s1p16777215_0 : S16777216.ReduceWindows (![16777216] : Fin 1 → Nat) ![1] ![16777215] ![0] S16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  reducesTo_S16777216_S_d0 : S16777216.ReducesTo [0] S_
  shapeCasts_S8x1024x2_S8192x2 : S8x1024x2.ShapeCasts S8192x2
  shapeCasts_S8x2048x2_S16384x2 : S8x2048x2.ShapeCasts S16384x2
  scatter_S16777216_S16777216x1_S16777216_n_0_0_1_wf : ScatterDims.WF S16777216 S16777216x1 S16777216 [] [0] [0] 1
  gather_S8192x2_S16777216x1_S16777216x2_1_0_n_n_0_1_12_wf : GatherDims.WF S8192x2 S16777216x1 S16777216x2 [1] [0] [] [0] [] 1 ![1, 2]
  gather_S16384x2_S16777216x1_S16777216x2_1_0_n_n_0_1_12_wf : GatherDims.WF S16384x2 S16777216x1 S16777216x2 [1] [0] [] [0] [] 1 ![1, 2]

variable [Facts₀]

def scatter_S16777216_S16777216x1_S16777216_n_0_0_1 : ScatterDims S16777216 S16777216x1 S16777216 where
  updateWindowDims := []
  insertedWindowDims := [0]
  scatterDimsToOperandDims := [0]
  indexVectorDim := 1
  wf := scatter_S16777216_S16777216x1_S16777216_n_0_0_1_wf
def gather_S8192x2_S16777216x1_S16777216x2_1_0_n_n_0_1_12 : GatherDims S8192x2 S16777216x1 S16777216x2 where
  offsetDims := [1]
  collapsedSliceDims := [0]
  operandBatchingDims := []
  startIndicesBatchingDims := []
  startIndexMap := [0]
  indexVectorDim := 1
  sliceSizes := ![1, 2]
  wf := gather_S8192x2_S16777216x1_S16777216x2_1_0_n_n_0_1_12_wf
def gather_S16384x2_S16777216x1_S16777216x2_1_0_n_n_0_1_12 : GatherDims S16384x2 S16777216x1 S16777216x2 where
  offsetDims := [1]
  collapsedSliceDims := [0]
  operandBatchingDims := []
  startIndicesBatchingDims := []
  startIndexMap := [0]
  indexVectorDim := 1
  sliceSizes := ![1, 2]
  wf := gather_S16384x2_S16777216x1_S16777216x2_1_0_n_n_0_1_12_wf

class Facts : Prop extends Facts₀ where

variable [Facts]
-- ==== Proof.BodyK.lean ====
import proofs.«142671_j52776558133736_1_alg».proof.Proof.LaunchK
import proofs.«142671_j52776558133736_1_alg».proof.Proof.Gen.Kernel.Skeleton
import proofs.«142671_j52776558133736_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! The kernel body on any whole staging memrefs. The body reads the two input blocks, reads the output buffer
    (a value it never uses) and stores one payload over the whole output block; so, given the inputs at contents
    `x0`, `x1` and the output buffer at anything, it returns the inputs as they were and the output buffer with
    one piece written, the payload of the two input blocks over the whole block. -/

set_option maxRecDepth 16384

noncomputable section

namespace Cert.Kernel.GenP

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's one store leaves in the output's staging memref, with the body's triple: the inputs'
    memrefs whole at `x0`, `x1`, the output's at anything; afterwards the inputs as they were and the output's
    buffer with the pieces written. -/
noncomputable def kernelRun0_A (c : Dev nD) (i : grid0.Coords)
    (arg2 : Memref sig .tc .vmem S1x512x2 .f32) (harg2 : arg2.IsWhole)
    (arg3 : Memref sig .tc .vmem S1x2048x2 .f32) (harg3 : arg3.IsWhole)
    (arg4 : Memref sig .tc .vmem S1x512x2048 .i32) (harg4 : arg4.IsWhole)
    (x0 : Vec F S1x512x2 .f32) (x1 : Vec F S1x2048x2 .f32) :
    { L2 : List (View.Piece (Elt F) S1x512x2048 .i32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__mask_kernel i arg2 harg2 arg3 harg3 arg4 harg4) K } := by
  refine ⟨?_, fun E K => ?run⟩
  case run =>
    simp only [cc0__mask_kernel_eq_skeleton]; unfold cc0__mask_kernel_skel
    unfold owns
    iintro ⟨⟨%f0, %hf0, H0⟩, ⟨%f1, %hf1, H1⟩, ⟨%d2, %f2, -, H2⟩, Hk⟩
    obtain rfl := harg2.eq_unread hf0
    obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.GenP

end
-- ==== Proof.TailFactsK.lean ====
import proofs.«142671_j52776558133736_1_alg».proof.Proof.LaunchK
import Idealize.ShloMosaic.Lib.Pipeline.FrameSuffix

/-! The host operations after the region, stretch by stretch: each allocates nothing, and each writes only its own
    result buffer, which is none of the pipeline's three arrays (the two coordinate inputs and the mask). -/

set_option maxRecDepth 16384

noncomputable section

namespace Cert.Kernel.GenP

open Cert.Kernel.Gen
open Idealize.ShloMosaic Idealize.ShloMosaic.TcCoe
open Idealize.SL Idealize.SL.Sem

variable {F : FTy → Type} [FloatOps F]

theorem hostOps1_fresh : (hostOps1 : List (HloOp τ sig (Elt F))).Forall fun op => op.fresh = ∅ := by
  simp only [List.Forall]; repeat' constructor

theorem hostOps1_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_1_fresh : (hostOps1_1 : List (HloOp τ sig (Elt F))).Forall fun op => op.fresh = ∅ := by
  simp only [List.Forall]; repeat' constructor

theorem hostOps1_1_keeps : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_2_fresh : (hostOps1_2 : List (HloOp τ sig (Elt F))).Forall fun op => op.fresh = ∅ := by
  simp only [List.Forall]; repeat' constructor

theorem hostOps1_2_keeps : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_3_fresh : (hostOps1_3 : List (HloOp τ sig (Elt F))).Forall fun op => op.fresh = ∅ := by
  simp only [List.Forall]; repeat' constructor

theorem hostOps1_3_keeps : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_4_fresh : (hostOps1_4 : List (HloOp τ sig (Elt F))).Forall fun op => op.fresh = ∅ := by
  simp only [List.Forall]; repeat' constructor

theorem hostOps1_4_keeps : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_5_fresh : (hostOps1_5 : List (HloOp τ sig (Elt F))).Forall fun op => op.fresh = ∅ := by
  simp only [List.Forall]; repeat' constructor

theorem hostOps1_5_keeps : ∀ op ∈ (hostOps1_5 : List (HloOp τ sig (Elt F))), ∀ w, Proc.devRef .tc (Pipeline.arrRef spec0 w) ∉ op.writes := by
  intro op hop
  simp only [hostOps1_5, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_6_fresh : (hostOps1_6 : List (HloOp τ sig (Elt F))).Forall fun op => op.fresh = ∅ := by
  simp only [List.Forall]; repeat' constructor

theorem hostOps1_6_keeps : ∀ op ∈ (hostOps1_6 : List (HloOp τ sig (Elt F))), ∀ w, Proc.devRef .tc (Pipeline.arrRef spec0 w) ∉ op.writes := by
  intro op hop
  simp only [hostOps1_6, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_7_fresh : (hostOps1_7 : List (HloOp τ sig (Elt F))).Forall fun op => op.fresh = ∅ := by
  simp only [List.Forall]; repeat' constructor

theorem hostOps1_7_keeps : ∀ op ∈ (hostOps1_7 : List (HloOp τ sig (Elt F))), ∀ w, Proc.devRef .tc (Pipeline.arrRef spec0 w) ∉ op.writes := by
  intro op hop
  simp only [hostOps1_7, List.mem_cons, List.mem_nil_iff, or_false] at hop
  rcases hop with rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_8_fresh : (hostOps1_8 : List (HloOp τ sig (Elt F))).Forall fun op => op.fresh = ∅ := by
  simp only [List.Forall]; repeat' constructor

theorem hostOps1_8_keeps : ∀ op ∈ (hostOps1_8 : List (HloOp τ sig (Elt F))), ∀ w, Proc.devRef .tc (Pipeline.arrRef spec0 w) ∉ op.writes := by
  intro op hop
  simp only [hostOps1_8, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_9_fresh : (hostOps1_9 : List (HloOp τ sig (Elt F))).Forall fun op => op.fresh = ∅ := by
  simp only [List.Forall]; repeat' constructor

theorem hostOps1_9_keeps : ∀ op ∈ (hostOps1_9 : List (HloOp τ sig (Elt F))), ∀ w, Proc.devRef .tc (Pipeline.arrRef spec0 w) ∉ op.writes := by
  intro op hop
  simp only [hostOps1_9, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_10_fresh : (hostOps1_10 : List (HloOp τ sig (Elt F))).Forall fun op => op.fresh = ∅ := by
  simp only [List.Forall]; repeat' constructor

theorem hostOps1_10_keeps : ∀ op ∈ (hostOps1_10 : List (HloOp τ sig (Elt F))), ∀ w, Proc.devRef .tc (Pipeline.arrRef spec0 w) ∉ op.writes := by
  intro op hop
  simp only [hostOps1_10, List.mem_cons, List.mem_nil_iff, or_false] at hop
  rcases hop with rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_11_fresh : (hostOps1_11 : List (HloOp τ sig (Elt F))).Forall fun op => op.fresh = ∅ := by
  simp only [List.Forall]; repeat' constructor

theorem hostOps1_11_keeps : ∀ op ∈ (hostOps1_11 : List (HloOp τ sig (Elt F))), ∀ w, Proc.devRef .tc (Pipeline.arrRef spec0 w) ∉ op.writes := by
  intro op hop
  simp only [hostOps1_11, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_12_fresh : (hostOps1_12 : List (HloOp τ sig (Elt F))).Forall fun op => op.fresh = ∅ := by
  simp only [List.Forall]; repeat' constructor

theorem hostOps1_12_keeps : ∀ op ∈ (hostOps1_12 : List (HloOp τ sig (Elt F))), ∀ w, Proc.devRef .tc (Pipeline.arrRef spec0 w) ∉ op.writes := by
  intro op hop
  simp only [hostOps1_12, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_13_fresh : (hostOps1_13 : List (HloOp τ sig (Elt F))).Forall fun op => op.fresh = ∅ := by
  simp only [List.Forall]; repeat' constructor

theorem hostOps1_13_keeps : ∀ op ∈ (hostOps1_13 : List (HloOp τ sig (Elt F))), ∀ w, Proc.devRef .tc (Pipeline.arrRef spec0 w) ∉ op.writes := by
  intro op hop
  simp only [hostOps1_13, List.mem_cons, List.mem_nil_iff, or_false] at hop
  rcases hop with rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_14_fresh : (hostOps1_14 : List (HloOp τ sig (Elt F))).Forall fun op => op.fresh = ∅ := by
  simp only [List.Forall]; repeat' constructor

theorem hostOps1_14_keeps : ∀ op ∈ (hostOps1_14 : List (HloOp τ sig (Elt F))), ∀ w, Proc.devRef .tc (Pipeline.arrRef spec0 w) ∉ op.writes := by
  intro op hop
  simp only [hostOps1_14, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_15_fresh : (hostOps1_15 : List (HloOp τ sig (Elt F))).Forall fun op => op.fresh = ∅ := by
  simp only [List.Forall]; repeat' constructor

theorem hostOps1_15_keeps : ∀ op ∈ (hostOps1_15 : List (HloOp τ sig (Elt F))), ∀ w, Proc.devRef .tc (Pipeline.arrRef spec0 w) ∉ op.writes := by
  intro op hop
  simp only [hostOps1_15, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_16_fresh : (hostOps1_16 : List (HloOp τ sig (Elt F))).Forall fun op => op.fresh = ∅ := by
  simp only [List.Forall]; repeat' constructor

theorem hostOps1_16_keeps : ∀ op ∈ (hostOps1_16 : List (HloOp τ sig (Elt F))), ∀ w, Proc.devRef .tc (Pipeline.arrRef spec0 w) ∉ op.writes := by
  intro op hop
  simp only [hostOps1_16, List.mem_cons, List.mem_nil_iff, or_false] at hop
  rcases hop with rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_17_fresh : (hostOps1_17 : List (HloOp τ sig (Elt F))).Forall fun op => op.fresh = ∅ := by
  simp only [List.Forall]; repeat' constructor

theorem hostOps1_17_keeps : ∀ op ∈ (hostOps1_17 : List (HloOp τ sig (Elt F))), ∀ w, Proc.devRef .tc (Pipeline.arrRef spec0 w) ∉ op.writes := by
  intro op hop
  simp only [hostOps1_17, List.mem_cons, List.mem_nil_iff, or_false] at hop
  rcases hop with rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_18_fresh : (hostOps1_18 : List (HloOp τ sig (Elt F))).Forall fun op => op.fresh = ∅ := by
  simp only [List.Forall]; repeat' constructor

theorem hostOps1_18_keeps : ∀ op ∈ (hostOps1_18 : List (HloOp τ sig (Elt F))), ∀ w, Proc.devRef .tc (Pipeline.arrRef spec0 w) ∉ op.writes := by
  intro op hop
  simp only [hostOps1_18, List.mem_cons, List.mem_nil_iff, or_false] at hop
  rcases hop with rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_19_fresh : (hostOps1_19 : List (HloOp τ sig (Elt F))).Forall fun op => op.fresh = ∅ := by
  simp only [List.Forall]; repeat' constructor

theorem hostOps1_19_keeps : ∀ op ∈ (hostOps1_19 : List (HloOp τ sig (Elt F))), ∀ w, Proc.devRef .tc (Pipeline.arrRef spec0 w) ∉ op.writes := by
  intro op hop
  simp only [hostOps1_19, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_20_fresh : (hostOps1_20 : List (HloOp τ sig (Elt F))).Forall fun op => op.fresh = ∅ := by
  simp only [List.Forall]; repeat' constructor

theorem hostOps1_20_keeps : ∀ op ∈ (hostOps1_20 : List (HloOp τ sig (Elt F))), ∀ w, Proc.devRef .tc (Pipeline.arrRef spec0 w) ∉ op.writes := by
  intro op hop
  simp only [hostOps1_20, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The lines after the region touch the pipeline's arrays and the bypassing buffers only. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOpss, List.mem_cons, List.mem_nil_iff, or_false] at hops
  rcases hops with rfl | rfl | rfl | rfl | rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)
  · exact Pipeline.sub_ucRefs op ((List.forall_iff_forall_mem.mp hostOps1_17_sub) op hop)
  · exact Pipeline.sub_ucRefs op ((List.forall_iff_forall_mem.mp hostOps1_18_sub) op hop)
  · exact Pipeline.sub_ucRefs op ((List.forall_iff_forall_mem.mp hostOps1_19_sub) op hop)
  · exact Pipeline.sub_ucRefs op ((List.forall_iff_forall_mem.mp hostOps1_20_sub) op hop)

/-- They allocate nothing. -/
theorem sfx_fresh : ∀ ops ∈ (tailOpss : List (List (HloOp τ sig (Elt F)))), ∀ op ∈ ops, op.fresh = ∅ := by
  intro ops hops op hop
  simp only [tailOpss, List.mem_cons, List.mem_nil_iff, or_false] at hops
  rcases hops with rfl | rfl | rfl | rfl | rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop
  · exact (List.forall_iff_forall_mem.mp hostOps1_17_fresh) op hop
  · exact (List.forall_iff_forall_mem.mp hostOps1_18_fresh) op hop
  · exact (List.forall_iff_forall_mem.mp hostOps1_19_fresh) op hop
  · exact (List.forall_iff_forall_mem.mp hostOps1_20_fresh) op hop

/-- And write no array of the pipeline. -/
theorem sfx_keeps : ∀ ops ∈ (tailOpss : List (List (HloOp τ sig (Elt F)))), ∀ op ∈ ops,
    ∀ w, Proc.devRef .tc (Pipeline.arrRef spec0 w) ∉ op.writes := by
  intro ops hops op hop
  simp only [tailOpss, List.mem_cons, List.mem_nil_iff, or_false] at hops
  rcases hops with rfl | rfl | rfl | rfl | rfl | rfl | rfl | rfl | rfl | rfl | rfl | rfl | rfl | rfl | rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop
  · exact hostOps1_7_keeps op hop
  · exact hostOps1_8_keeps op hop
  · exact hostOps1_9_keeps op hop
  · exact hostOps1_10_keeps op hop
  · exact hostOps1_11_keeps op hop
  · exact hostOps1_12_keeps op hop
  · exact hostOps1_13_keeps op hop
  · exact hostOps1_14_keeps op hop
  · exact hostOps1_15_keeps op hop
  · exact hostOps1_16_keeps op hop
  · exact hostOps1_17_keeps op hop
  · exact hostOps1_18_keeps op hop
  · exact hostOps1_19_keeps op hop
  · exact hostOps1_20_keeps op hop

theorem hostOps1_keeps02 : ∀ op ∈ (hostOps1 : List (HloOp τ sig (Elt F))), Proc.devRef .tc main_arg0 ∉ op.writes ∧ Proc.devRef .tc main_arg2 ∉ op.writes := by
  intro op hop
  simp only [hostOps1, List.mem_cons, List.mem_nil_iff, or_false] at hop
  rcases hop with rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_1_keeps02 : ∀ op ∈ (hostOps1_1 : List (HloOp τ sig (Elt F))), Proc.devRef .tc main_arg0 ∉ op.writes ∧ Proc.devRef .tc main_arg2 ∉ op.writes := by
  intro op hop
  simp only [hostOps1_1, List.mem_cons, List.mem_nil_iff, or_false] at hop
  rcases hop with rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_2_keeps02 : ∀ op ∈ (hostOps1_2 : List (HloOp τ sig (Elt F))), Proc.devRef .tc main_arg0 ∉ op.writes ∧ Proc.devRef .tc main_arg2 ∉ op.writes := by
  intro op hop
  simp only [hostOps1_2, List.mem_cons, List.mem_nil_iff, or_false] at hop
  rcases hop with rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_3_keeps02 : ∀ op ∈ (hostOps1_3 : List (HloOp τ sig (Elt F))), Proc.devRef .tc main_arg0 ∉ op.writes ∧ Proc.devRef .tc main_arg2 ∉ op.writes := by
  intro op hop
  simp only [hostOps1_3, List.mem_cons, List.mem_nil_iff, or_false] at hop
  rcases hop with rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_4_keeps02 : ∀ op ∈ (hostOps1_4 : List (HloOp τ sig (Elt F))), Proc.devRef .tc main_arg0 ∉ op.writes ∧ Proc.devRef .tc main_arg2 ∉ op.writes := by
  intro op hop
  simp only [hostOps1_4, List.mem_cons, List.mem_nil_iff, or_false] at hop
  rcases hop with rfl | rfl | rfl | rfl | rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_5_keeps02 : ∀ op ∈ (hostOps1_5 : List (HloOp τ sig (Elt F))), Proc.devRef .tc main_arg0 ∉ op.writes ∧ Proc.devRef .tc main_arg2 ∉ op.writes := by
  intro op hop
  simp only [hostOps1_5, List.mem_cons, List.mem_nil_iff, or_false] at hop
  rcases hop with rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_6_keeps02 : ∀ op ∈ (hostOps1_6 : List (HloOp τ sig (Elt F))), Proc.devRef .tc main_arg0 ∉ op.writes ∧ Proc.devRef .tc main_arg2 ∉ op.writes := by
  intro op hop
  simp only [hostOps1_6, List.mem_cons, List.mem_nil_iff, or_false] at hop
  rcases hop with rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_7_keeps02 : ∀ op ∈ (hostOps1_7 : List (HloOp τ sig (Elt F))), Proc.devRef .tc main_arg0 ∉ op.writes ∧ Proc.devRef .tc main_arg2 ∉ op.writes := by
  intro op hop
  simp only [hostOps1_7, List.mem_cons, List.mem_nil_iff, or_false] at hop
  rcases hop with rfl | rfl | rfl | rfl | rfl | rfl | rfl | rfl | rfl | rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_8_keeps02 : ∀ op ∈ (hostOps1_8 : List (HloOp τ sig (Elt F))), Proc.devRef .tc main_arg0 ∉ op.writes ∧ Proc.devRef .tc main_arg2 ∉ op.writes := by
  intro op hop
  simp only [hostOps1_8, List.mem_cons, List.mem_nil_iff, or_false] at hop
  rcases hop with rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_9_keeps02 : ∀ op ∈ (hostOps1_9 : List (HloOp τ sig (Elt F))), Proc.devRef .tc main_arg0 ∉ op.writes ∧ Proc.devRef .tc main_arg2 ∉ op.writes := by
  intro op hop
  simp only [hostOps1_9, List.mem_cons, List.mem_nil_iff, or_false] at hop
  rcases hop with rfl | rfl | rfl | rfl | rfl | rfl | rfl | rfl | rfl | rfl | rfl | rfl | rfl | rfl | rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_10_keeps02 : ∀ op ∈ (hostOps1_10 : List (HloOp τ sig (Elt F))), Proc.devRef .tc main_arg0 ∉ op.writes ∧ Proc.devRef .tc main_arg2 ∉ op.writes := by
  intro op hop
  simp only [hostOps1_10, List.mem_cons, List.mem_nil_iff, or_false] at hop
  rcases hop with rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_11_keeps02 : ∀ op ∈ (hostOps1_11 : List (HloOp τ sig (Elt F))), Proc.devRef .tc main_arg0 ∉ op.writes ∧ Proc.devRef .tc main_arg2 ∉ op.writes := by
  intro op hop
  simp only [hostOps1_11, List.mem_cons, List.mem_nil_iff, or_false] at hop
  rcases hop with rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_12_keeps02 : ∀ op ∈ (hostOps1_12 : List (HloOp τ sig (Elt F))), Proc.devRef .tc main_arg0 ∉ op.writes ∧ Proc.devRef .tc main_arg2 ∉ op.writes := by
  intro op hop
  simp only [hostOps1_12, List.mem_cons, List.mem_nil_iff, or_false] at hop
  rcases hop with rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_13_keeps02 : ∀ op ∈ (hostOps1_13 : List (HloOp τ sig (Elt F))), Proc.devRef .tc main_arg0 ∉ op.writes ∧ Proc.devRef .tc main_arg2 ∉ op.writes := by
  intro op hop
  simp only [hostOps1_13, List.mem_cons, List.mem_nil_iff, or_false] at hop
  rcases hop with rfl | rfl | rfl | rfl | rfl | rfl | rfl | rfl | rfl | rfl | rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_14_keeps02 : ∀ op ∈ (hostOps1_14 : List (HloOp τ sig (Elt F))), Proc.devRef .tc main_arg0 ∉ op.writes ∧ Proc.devRef .tc main_arg2 ∉ op.writes := by
  intro op hop
  simp only [hostOps1_14, List.mem_cons, List.mem_nil_iff, or_false] at hop
  rcases hop with rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_15_keeps02 : ∀ op ∈ (hostOps1_15 : List (HloOp τ sig (Elt F))), Proc.devRef .tc main_arg0 ∉ op.writes ∧ Proc.devRef .tc main_arg2 ∉ op.writes := by
  intro op hop
  simp only [hostOps1_15, List.mem_cons, List.mem_nil_iff, or_false] at hop
  rcases hop with rfl | rfl | rfl | rfl | rfl | rfl | rfl | rfl | rfl | rfl | rfl | rfl | rfl | rfl | rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_16_keeps02 : ∀ op ∈ (hostOps1_16 : List (HloOp τ sig (Elt F))), Proc.devRef .tc main_arg0 ∉ op.writes ∧ Proc.devRef .tc main_arg2 ∉ op.writes := by
  intro op hop
  simp only [hostOps1_16, List.mem_cons, List.mem_nil_iff, or_false] at hop
  rcases hop with rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_17_keeps02 : ∀ op ∈ (hostOps1_17 : List (HloOp τ sig (Elt F))), Proc.devRef .tc main_arg0 ∉ op.writes ∧ Proc.devRef .tc main_arg2 ∉ op.writes := by
  intro op hop
  simp only [hostOps1_17, List.mem_cons, List.mem_nil_iff, or_false] at hop
  rcases hop with rfl | rfl | rfl | rfl | rfl | rfl | rfl | rfl | rfl | rfl | rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_18_keeps02 : ∀ op ∈ (hostOps1_18 : List (HloOp τ sig (Elt F))), Proc.devRef .tc main_arg0 ∉ op.writes ∧ Proc.devRef .tc main_arg2 ∉ op.writes := by
  intro op hop
  simp only [hostOps1_18, List.mem_cons, List.mem_nil_iff, or_false] at hop
  rcases hop with rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_19_keeps02 : ∀ op ∈ (hostOps1_19 : List (HloOp τ sig (Elt F))), Proc.devRef .tc main_arg0 ∉ op.writes ∧ Proc.devRef .tc main_arg2 ∉ op.writes := by
  intro op hop
  simp only [hostOps1_19, List.mem_cons, List.mem_nil_iff, or_false] at hop
  rcases hop with rfl | rfl | rfl | rfl | rfl | rfl | rfl | rfl | rfl | rfl | rfl | rfl | rfl | rfl | rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_20_keeps02 : ∀ op ∈ (hostOps1_20 : List (HloOp τ sig (Elt F))), Proc.devRef .tc main_arg0 ∉ op.writes ∧ Proc.devRef .tc main_arg2 ∉ op.writes := by
  intro op hop
  simp only [hostOps1_20, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation after the region writes the two integer inputs. -/
theorem tail_keeps02 : ∀ op ∈ (tailOpss : List (List (HloOp τ sig (Elt F)))).flatten, Proc.devRef .tc main_arg0 ∉ op.writes ∧ Proc.devRef .tc main_arg2 ∉ op.writes := by
  intro op hop
  obtain ⟨ops, hops, hop⟩ := List.mem_flatten.mp hop
  simp only [tailOpss, List.mem_cons, List.mem_nil_iff, or_false] at hops
  rcases hops with rfl | rfl | rfl | rfl | rfl | rfl | rfl | rfl | rfl | rfl | rfl | rfl | rfl | rfl | rfl | rfl | rfl | rfl | rfl | rfl | rfl
  · exact hostOps1_keeps02 op hop
  · exact hostOps1_1_keeps02 op hop
  · exact hostOps1_2_keeps02 op hop
  · exact hostOps1_3_keeps02 op hop
  · exact hostOps1_4_keeps02 op hop
  · exact hostOps1_5_keeps02 op hop
  · exact hostOps1_6_keeps02 op hop
  · exact hostOps1_7_keeps02 op hop
  · exact hostOps1_8_keeps02 op hop
  · exact hostOps1_9_keeps02 op hop
  · exact hostOps1_10_keeps02 op hop
  · exact hostOps1_11_keeps02 op hop
  · exact hostOps1_12_keeps02 op hop
  · exact hostOps1_13_keeps02 op hop
  · exact hostOps1_14_keeps02 op hop
  · exact hostOps1_15_keeps02 op hop
  · exact hostOps1_16_keeps02 op hop
  · exact hostOps1_17_keeps02 op hop
  · exact hostOps1_18_keeps02 op hop
  · exact hostOps1_19_keeps02 op hop
  · exact hostOps1_20_keeps02 op hop

end Cert.Kernel.GenP

end
-- ==== Proof.FrameK.lean ====
import proofs.«142671_j52776558133736_1_alg».proof.Proof.BodyK
import proofs.«142671_j52776558133736_1_alg».proof.Proof.TailFactsK

/-! The program's run around its one region: the proof data of the pipeline (each input's staging buffer at its
    block, the output's at the body's one store read back), the body obligation from the body's triple, and the
    launch theorem for a region followed by host operations. Its post names every array of the pipeline after the
    region and every other buffer as the later host operations leave it. -/

set_option maxRecDepth 16384

noncomputable section

namespace Cert.Kernel.GenP

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered, as a valuation: the launch contents (no host operation
    precedes the region). -/
abbrev V0 (c : Dev nD) : Valuation τ sig (Elt F) := StableHlo.after (List.flatten []) (fun b => m (c, b))
/-- The same read at a reference. -/
abbrev V (c : Dev nD) (b : Ref sig .tc) : Buf (Elt F) ((c : Thread nD τ).loc b) := V0 m c (Proc.devRef .tc b)

/-- @main is the region continued by the later host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss : List (List (HloOp τ sig (Elt F)))).map StableHlo.seq)) :=
  Pipeline.hmain_around cfgs 0 defs₀ 𝒱₀ m main [] tailOpss (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the
    block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point -/

/-- One staging buffer of the output window, through which its contents are stated (the choice does not matter). -/
abbrev VO0_2 : View sig .tc .vmem S1x512x2048 .i32 := (Memref.whole cc0_stg2_0 : Memref sig .tc .vmem S1x512x2048 .i32).view
abbrev ms0_0 (t : Fin cfg0.N) : Memref sig .tc .vmem S1x512x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x2 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x2048 .i32 := win0_2.stage (cfg0.slots t 2)
abbrev hs0_2 (t : Fin cfg0.N) : (ms0_2 t).IsWhole := hstage0_2 ((cfg0.slots t 2).cast nbuf0_2)

/-- The run's one piece for the output tiles its block, so it covers it. -/
theorem cover0_A_2 (c : Dev nD) (i : grid0.Coords) (arg2 : Memref sig .tc .vmem S1x512x2 .f32) (harg2 : arg2.IsWhole)
    (arg3 : Memref sig .tc .vmem S1x2048x2 .f32) (harg3 : arg3.IsWhole) (arg4 : Memref sig .tc .vmem S1x512x2048 .i32) (harg4 : arg4.IsWhole)
    (x0 : Vec F S1x512x2 .f32) (x1 : Vec F S1x2048x2 .f32) (y : S1x512x2048.Idx) :
    ∃ pc ∈ (kernelRun0_A c i arg2 harg2 arg3 harg3 arg4 harg4 x0 x1).1, y ∈ pc.1.set :=
  View.cover_of_tiledL (kernelRun0_A c i arg2 harg2 arg3 harg3 arg4 harg4 x0 x1).1 S1x512x2048.size (by sl_kernel_rfl) y

/-- What the run leaves in the output's staging buffer: its piece read back over junk. -/
def out0_A_2 (c : Dev nD) (i : grid0.Coords) (arg2 : Memref sig .tc .vmem S1x512x2 .f32) (harg2 : arg2.IsWhole)
    (arg3 : Memref sig .tc .vmem S1x2048x2 .f32) (harg3 : arg3.IsWhole) (arg4 : Memref sig .tc .vmem S1x512x2048 .i32) (harg4 : arg4.IsWhole)
    (x0 : Vec F S1x512x2 .f32) (x1 : Vec F S1x2048x2 .f32) : Vec F S1x512x2048 .i32 :=
  VO0_2.read (Elt F) (VO0_2.writes (Elt F) VO0_2.junk (kernelRun0_A c i arg2 harg2 arg3 harg3 arg4 harg4 x0 x1).1)

/-- What the output's staging buffer holds after the body at point `t`. -/
def outsAt0 (c : Dev nD) (t : Fin cfg0.N) : Vec F S1x512x2048 .i32 :=
  out0_A_2 c (grid0.coords t) (ms0_0 t) (hs0_0 t) (ms0_1 t) (hs0_1 t) (ms0_2 t) (hs0_2 t) (iblk m c 0 t) (iblk m c 1 t)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  unfold outsAt0
  unfold out0_A_2
  iintro ⟨HΦ, Ho, ⟨%d0, H0⟩, ⟨%d1, H1⟩, ⟨%d2, H2⟩⟩
  iapply ((kernelRun0_A c (grid0.coords t) _ _ _ _ _ _ (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates, and every final state has every array of the pipeline at what
    the library computes from the proof data and every other unscoped buffer as the later host operations leave it. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-! ## The argument arrays end unchanged -/

/-- No host operation after the region writes `main_arg0`: it ends as launched. -/
theorem W_main_arg0 (c : Dev nD) :
    Pipeline.afterTail₀ cfgs (dats m) 0 (V0 m) tailOpss c main_arg0 = m ((c : Thread nD τ).loc main_arg0) := by
  unfold Pipeline.afterTail₀
  rw [StableHlo.after_of_forall_not_mem (b := Proc.devRef .tc main_arg0) _ _ (fun op hop => (tail_keeps02 op hop).1),
    Pipeline.withArrays_of_ne _ c (V0 m c) _ main_arg0 (by exact (by decide : ∀ w, Pipeline.arrRef spec0 w ≠ main_arg0))]
  rfl

/-- Nor `main_arg2`. -/
theorem W_main_arg2 (c : Dev nD) :
    Pipeline.afterTail₀ cfgs (dats m) 0 (V0 m) tailOpss c main_arg2 = m ((c : Thread nD τ).loc main_arg2) := by
  unfold Pipeline.afterTail₀
  rw [StableHlo.after_of_forall_not_mem (b := Proc.devRef .tc main_arg2) _ _ (fun op hop => (tail_keeps02 op hop).2),
    Pipeline.withArrays_of_ne _ c (V0 m c) _ main_arg2 (by exact (by decide : ∀ w, Pipeline.arrRef spec0 w ≠ main_arg2))]
  rfl

/-- The four argument arrays after a frame run: the two staged inputs by the library's reading of an input array, the
    two integer arrays because nothing writes them. -/
theorem kept_args (r : PUnit × MemSt nD τ sig (Elt F))
    (h : Pipeline.FramePost cfgs (dats m) 0 (Pipeline.afterTail₀ cfgs (dats m) 0 (V0 m) tailOpss) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).2 main_arg0 (Pipeline.mem_restRefs_of main_arg0 (by decide) (by decide))).trans (W_main_arg0 m c),
   ((h c).1 0).trans (((dats m 0 c).arrAt_in 0 rfl _).trans ((A_eq m c 0).trans (V_main_arg1 m c))),
   ((h c).2 main_arg2 (Pipeline.mem_restRefs_of main_arg2 (by decide) (by decide))).trans (W_main_arg2 m c),
   ((h c).1 1).trans (((dats m 0 c).arrAt_in 1 rfl _).trans ((A_eq m c 1).trans (V_main_arg3 m c)))⟩

/-- The frame claim at any `F`: the program runs to the end, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => kept_args m r h c) (run_main m ρ)

end Cert.Kernel.GenP

end
-- ==== Proof.BodyKI.lean ====
import proofs.«142671_j52776558133736_1_alg».proof.Proof.LaunchKI
import proofs.«142671_j52776558133736_1_alg».proof.Proof.Gen.KernelIdeal.Skeleton
import proofs.«142671_j52776558133736_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! The kernel body on any whole staging memrefs. The body reads the two input blocks, reads the output buffer
    (a value it never uses) and stores one payload over the whole output block; so, given the inputs at contents
    `x0`, `x1` and the output buffer at anything, it returns the inputs as they were and the output buffer with
    one piece written, the payload of the two input blocks over the whole block. -/

set_option maxRecDepth 16384

noncomputable section

namespace Cert.KernelIdeal.GenP

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's one store leaves in the output's staging memref, with the body's triple: the inputs'
    memrefs whole at `x0`, `x1`, the output's at anything; afterwards the inputs as they were and the output's
    buffer with the pieces written. -/
noncomputable def kernelRun0_A (c : Dev nD) (i : grid0.Coords)
    (arg2 : Memref sig .tc .vmem S1x512x2 .f32) (harg2 : arg2.IsWhole)
    (arg3 : Memref sig .tc .vmem S1x2048x2 .f32) (harg3 : arg3.IsWhole)
    (arg4 : Memref sig .tc .vmem S1x512x2048 .i32) (harg4 : arg4.IsWhole)
    (x0 : Vec F S1x512x2 .f32) (x1 : Vec F S1x2048x2 .f32) :
    { L2 : List (View.Piece (Elt F) S1x512x2048 .i32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__mask_kernel i arg2 harg2 arg3 harg3 arg4 harg4) K } := by
  refine ⟨?_, fun E K => ?run⟩
  case run =>
    simp only [cc0__mask_kernel_eq_skeleton]; unfold cc0__mask_kernel_skel
    unfold owns
    iintro ⟨⟨%f0, %hf0, H0⟩, ⟨%f1, %hf1, H1⟩, ⟨%d2, %f2, -, H2⟩, Hk⟩
    obtain rfl := harg2.eq_unread hf0
    obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.GenP

end
-- ==== Proof.TailFactsKI.lean ====
import proofs.«142671_j52776558133736_1_alg».proof.Proof.LaunchKI
import Idealize.ShloMosaic.Lib.Pipeline.FrameSuffix

/-! The host operations after the region, stretch by stretch: each allocates nothing, and each writes only its own
    result buffer, which is none of the pipeline's three arrays (the two coordinate inputs and the mask). -/

set_option maxRecDepth 16384

noncomputable section

namespace Cert.KernelIdeal.GenP

open Cert.KernelIdeal.Gen
open Idealize.ShloMosaic Idealize.ShloMosaic.TcCoe
open Idealize.SL Idealize.SL.Sem

variable {F : FTy → Type} [FloatOps F]

theorem hostOps1_fresh : (hostOps1 : List (HloOp τ sig (Elt F))).Forall fun op => op.fresh = ∅ := by
  simp only [List.Forall]; repeat' constructor

theorem hostOps1_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_1_fresh : (hostOps1_1 : List (HloOp τ sig (Elt F))).Forall fun op => op.fresh = ∅ := by
  simp only [List.Forall]; repeat' constructor

theorem hostOps1_1_keeps : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_2_fresh : (hostOps1_2 : List (HloOp τ sig (Elt F))).Forall fun op => op.fresh = ∅ := by
  simp only [List.Forall]; repeat' constructor

theorem hostOps1_2_keeps : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_3_fresh : (hostOps1_3 : List (HloOp τ sig (Elt F))).Forall fun op => op.fresh = ∅ := by
  simp only [List.Forall]; repeat' constructor

theorem hostOps1_3_keeps : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_4_fresh : (hostOps1_4 : List (HloOp τ sig (Elt F))).Forall fun op => op.fresh = ∅ := by
  simp only [List.Forall]; repeat' constructor

theorem hostOps1_4_keeps : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_5_fresh : (hostOps1_5 : List (HloOp τ sig (Elt F))).Forall fun op => op.fresh = ∅ := by
  simp only [List.Forall]; repeat' constructor

theorem hostOps1_5_keeps : ∀ op ∈ (hostOps1_5 : List (HloOp τ sig (Elt F))), ∀ w, Proc.devRef .tc (Pipeline.arrRef spec0 w) ∉ op.writes := by
  intro op hop
  simp only [hostOps1_5, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_6_fresh : (hostOps1_6 : List (HloOp τ sig (Elt F))).Forall fun op => op.fresh = ∅ := by
  simp only [List.Forall]; repeat' constructor

theorem hostOps1_6_keeps : ∀ op ∈ (hostOps1_6 : List (HloOp τ sig (Elt F))), ∀ w, Proc.devRef .tc (Pipeline.arrRef spec0 w) ∉ op.writes := by
  intro op hop
  simp only [hostOps1_6, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_7_fresh : (hostOps1_7 : List (HloOp τ sig (Elt F))).Forall fun op => op.fresh = ∅ := by
  simp only [List.Forall]; repeat' constructor

theorem hostOps1_7_keeps : ∀ op ∈ (hostOps1_7 : List (HloOp τ sig (Elt F))), ∀ w, Proc.devRef .tc (Pipeline.arrRef spec0 w) ∉ op.writes := by
  intro op hop
  simp only [hostOps1_7, List.mem_cons, List.mem_nil_iff, or_false] at hop
  rcases hop with rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_8_fresh : (hostOps1_8 : List (HloOp τ sig (Elt F))).Forall fun op => op.fresh = ∅ := by
  simp only [List.Forall]; repeat' constructor

theorem hostOps1_8_keeps : ∀ op ∈ (hostOps1_8 : List (HloOp τ sig (Elt F))), ∀ w, Proc.devRef .tc (Pipeline.arrRef spec0 w) ∉ op.writes := by
  intro op hop
  simp only [hostOps1_8, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_9_fresh : (hostOps1_9 : List (HloOp τ sig (Elt F))).Forall fun op => op.fresh = ∅ := by
  simp only [List.Forall]; repeat' constructor

theorem hostOps1_9_keeps : ∀ op ∈ (hostOps1_9 : List (HloOp τ sig (Elt F))), ∀ w, Proc.devRef .tc (Pipeline.arrRef spec0 w) ∉ op.writes := by
  intro op hop
  simp only [hostOps1_9, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_10_fresh : (hostOps1_10 : List (HloOp τ sig (Elt F))).Forall fun op => op.fresh = ∅ := by
  simp only [List.Forall]; repeat' constructor

theorem hostOps1_10_keeps : ∀ op ∈ (hostOps1_10 : List (HloOp τ sig (Elt F))), ∀ w, Proc.devRef .tc (Pipeline.arrRef spec0 w) ∉ op.writes := by
  intro op hop
  simp only [hostOps1_10, List.mem_cons, List.mem_nil_iff, or_false] at hop
  rcases hop with rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_11_fresh : (hostOps1_11 : List (HloOp τ sig (Elt F))).Forall fun op => op.fresh = ∅ := by
  simp only [List.Forall]; repeat' constructor

theorem hostOps1_11_keeps : ∀ op ∈ (hostOps1_11 : List (HloOp τ sig (Elt F))), ∀ w, Proc.devRef .tc (Pipeline.arrRef spec0 w) ∉ op.writes := by
  intro op hop
  simp only [hostOps1_11, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_12_fresh : (hostOps1_12 : List (HloOp τ sig (Elt F))).Forall fun op => op.fresh = ∅ := by
  simp only [List.Forall]; repeat' constructor

theorem hostOps1_12_keeps : ∀ op ∈ (hostOps1_12 : List (HloOp τ sig (Elt F))), ∀ w, Proc.devRef .tc (Pipeline.arrRef spec0 w) ∉ op.writes := by
  intro op hop
  simp only [hostOps1_12, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_13_fresh : (hostOps1_13 : List (HloOp τ sig (Elt F))).Forall fun op => op.fresh = ∅ := by
  simp only [List.Forall]; repeat' constructor

theorem hostOps1_13_keeps : ∀ op ∈ (hostOps1_13 : List (HloOp τ sig (Elt F))), ∀ w, Proc.devRef .tc (Pipeline.arrRef spec0 w) ∉ op.writes := by
  intro op hop
  simp only [hostOps1_13, List.mem_cons, List.mem_nil_iff, or_false] at hop
  rcases hop with rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_14_fresh : (hostOps1_14 : List (HloOp τ sig (Elt F))).Forall fun op => op.fresh = ∅ := by
  simp only [List.Forall]; repeat' constructor

theorem hostOps1_14_keeps : ∀ op ∈ (hostOps1_14 : List (HloOp τ sig (Elt F))), ∀ w, Proc.devRef .tc (Pipeline.arrRef spec0 w) ∉ op.writes := by
  intro op hop
  simp only [hostOps1_14, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_15_fresh : (hostOps1_15 : List (HloOp τ sig (Elt F))).Forall fun op => op.fresh = ∅ := by
  simp only [List.Forall]; repeat' constructor

theorem hostOps1_15_keeps : ∀ op ∈ (hostOps1_15 : List (HloOp τ sig (Elt F))), ∀ w, Proc.devRef .tc (Pipeline.arrRef spec0 w) ∉ op.writes := by
  intro op hop
  simp only [hostOps1_15, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_16_fresh : (hostOps1_16 : List (HloOp τ sig (Elt F))).Forall fun op => op.fresh = ∅ := by
  simp only [List.Forall]; repeat' constructor

theorem hostOps1_16_keeps : ∀ op ∈ (hostOps1_16 : List (HloOp τ sig (Elt F))), ∀ w, Proc.devRef .tc (Pipeline.arrRef spec0 w) ∉ op.writes := by
  intro op hop
  simp only [hostOps1_16, List.mem_cons, List.mem_nil_iff, or_false] at hop
  rcases hop with rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_17_fresh : (hostOps1_17 : List (HloOp τ sig (Elt F))).Forall fun op => op.fresh = ∅ := by
  simp only [List.Forall]; repeat' constructor

theorem hostOps1_17_keeps : ∀ op ∈ (hostOps1_17 : List (HloOp τ sig (Elt F))), ∀ w, Proc.devRef .tc (Pipeline.arrRef spec0 w) ∉ op.writes := by
  intro op hop
  simp only [hostOps1_17, List.mem_cons, List.mem_nil_iff, or_false] at hop
  rcases hop with rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_18_fresh : (hostOps1_18 : List (HloOp τ sig (Elt F))).Forall fun op => op.fresh = ∅ := by
  simp only [List.Forall]; repeat' constructor

theorem hostOps1_18_keeps : ∀ op ∈ (hostOps1_18 : List (HloOp τ sig (Elt F))), ∀ w, Proc.devRef .tc (Pipeline.arrRef spec0 w) ∉ op.writes := by
  intro op hop
  simp only [hostOps1_18, List.mem_cons, List.mem_nil_iff, or_false] at hop
  rcases hop with rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_19_fresh : (hostOps1_19 : List (HloOp τ sig (Elt F))).Forall fun op => op.fresh = ∅ := by
  simp only [List.Forall]; repeat' constructor

theorem hostOps1_19_keeps : ∀ op ∈ (hostOps1_19 : List (HloOp τ sig (Elt F))), ∀ w, Proc.devRef .tc (Pipeline.arrRef spec0 w) ∉ op.writes := by
  intro op hop
  simp only [hostOps1_19, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_20_fresh : (hostOps1_20 : List (HloOp τ sig (Elt F))).Forall fun op => op.fresh = ∅ := by
  simp only [List.Forall]; repeat' constructor

theorem hostOps1_20_keeps : ∀ op ∈ (hostOps1_20 : List (HloOp τ sig (Elt F))), ∀ w, Proc.devRef .tc (Pipeline.arrRef spec0 w) ∉ op.writes := by
  intro op hop
  simp only [hostOps1_20, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The lines after the region touch the pipeline's arrays and the bypassing buffers only. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOpss, List.mem_cons, List.mem_nil_iff, or_false] at hops
  rcases hops with rfl | rfl | rfl | rfl | rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)
  · exact Pipeline.sub_ucRefs op ((List.forall_iff_forall_mem.mp hostOps1_17_sub) op hop)
  · exact Pipeline.sub_ucRefs op ((List.forall_iff_forall_mem.mp hostOps1_18_sub) op hop)
  · exact Pipeline.sub_ucRefs op ((List.forall_iff_forall_mem.mp hostOps1_19_sub) op hop)
  · exact Pipeline.sub_ucRefs op ((List.forall_iff_forall_mem.mp hostOps1_20_sub) op hop)

/-- They allocate nothing. -/
theorem sfx_fresh : ∀ ops ∈ (tailOpss : List (List (HloOp τ sig (Elt F)))), ∀ op ∈ ops, op.fresh = ∅ := by
  intro ops hops op hop
  simp only [tailOpss, List.mem_cons, List.mem_nil_iff, or_false] at hops
  rcases hops with rfl | rfl | rfl | rfl | rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop
  · exact (List.forall_iff_forall_mem.mp hostOps1_17_fresh) op hop
  · exact (List.forall_iff_forall_mem.mp hostOps1_18_fresh) op hop
  · exact (List.forall_iff_forall_mem.mp hostOps1_19_fresh) op hop
  · exact (List.forall_iff_forall_mem.mp hostOps1_20_fresh) op hop

/-- And write no array of the pipeline. -/
theorem sfx_keeps : ∀ ops ∈ (tailOpss : List (List (HloOp τ sig (Elt F)))), ∀ op ∈ ops,
    ∀ w, Proc.devRef .tc (Pipeline.arrRef spec0 w) ∉ op.writes := by
  intro ops hops op hop
  simp only [tailOpss, List.mem_cons, List.mem_nil_iff, or_false] at hops
  rcases hops with rfl | rfl | rfl | rfl | rfl | rfl | rfl | rfl | rfl | rfl | rfl | rfl | rfl | rfl | rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop
  · exact hostOps1_7_keeps op hop
  · exact hostOps1_8_keeps op hop
  · exact hostOps1_9_keeps op hop
  · exact hostOps1_10_keeps op hop
  · exact hostOps1_11_keeps op hop
  · exact hostOps1_12_keeps op hop
  · exact hostOps1_13_keeps op hop
  · exact hostOps1_14_keeps op hop
  · exact hostOps1_15_keeps op hop
  · exact hostOps1_16_keeps op hop
  · exact hostOps1_17_keeps op hop
  · exact hostOps1_18_keeps op hop
  · exact hostOps1_19_keeps op hop
  · exact hostOps1_20_keeps op hop

theorem hostOps1_keeps02 : ∀ op ∈ (hostOps1 : List (HloOp τ sig (Elt F))), Proc.devRef .tc main_arg0 ∉ op.writes ∧ Proc.devRef .tc main_arg2 ∉ op.writes := by
  intro op hop
  simp only [hostOps1, List.mem_cons, List.mem_nil_iff, or_false] at hop
  rcases hop with rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_1_keeps02 : ∀ op ∈ (hostOps1_1 : List (HloOp τ sig (Elt F))), Proc.devRef .tc main_arg0 ∉ op.writes ∧ Proc.devRef .tc main_arg2 ∉ op.writes := by
  intro op hop
  simp only [hostOps1_1, List.mem_cons, List.mem_nil_iff, or_false] at hop
  rcases hop with rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_2_keeps02 : ∀ op ∈ (hostOps1_2 : List (HloOp τ sig (Elt F))), Proc.devRef .tc main_arg0 ∉ op.writes ∧ Proc.devRef .tc main_arg2 ∉ op.writes := by
  intro op hop
  simp only [hostOps1_2, List.mem_cons, List.mem_nil_iff, or_false] at hop
  rcases hop with rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_3_keeps02 : ∀ op ∈ (hostOps1_3 : List (HloOp τ sig (Elt F))), Proc.devRef .tc main_arg0 ∉ op.writes ∧ Proc.devRef .tc main_arg2 ∉ op.writes := by
  intro op hop
  simp only [hostOps1_3, List.mem_cons, List.mem_nil_iff, or_false] at hop
  rcases hop with rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_4_keeps02 : ∀ op ∈ (hostOps1_4 : List (HloOp τ sig (Elt F))), Proc.devRef .tc main_arg0 ∉ op.writes ∧ Proc.devRef .tc main_arg2 ∉ op.writes := by
  intro op hop
  simp only [hostOps1_4, List.mem_cons, List.mem_nil_iff, or_false] at hop
  rcases hop with rfl | rfl | rfl | rfl | rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_5_keeps02 : ∀ op ∈ (hostOps1_5 : List (HloOp τ sig (Elt F))), Proc.devRef .tc main_arg0 ∉ op.writes ∧ Proc.devRef .tc main_arg2 ∉ op.writes := by
  intro op hop
  simp only [hostOps1_5, List.mem_cons, List.mem_nil_iff, or_false] at hop
  rcases hop with rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_6_keeps02 : ∀ op ∈ (hostOps1_6 : List (HloOp τ sig (Elt F))), Proc.devRef .tc main_arg0 ∉ op.writes ∧ Proc.devRef .tc main_arg2 ∉ op.writes := by
  intro op hop
  simp only [hostOps1_6, List.mem_cons, List.mem_nil_iff, or_false] at hop
  rcases hop with rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_7_keeps02 : ∀ op ∈ (hostOps1_7 : List (HloOp τ sig (Elt F))), Proc.devRef .tc main_arg0 ∉ op.writes ∧ Proc.devRef .tc main_arg2 ∉ op.writes := by
  intro op hop
  simp only [hostOps1_7, List.mem_cons, List.mem_nil_iff, or_false] at hop
  rcases hop with rfl | rfl | rfl | rfl | rfl | rfl | rfl | rfl | rfl | rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_8_keeps02 : ∀ op ∈ (hostOps1_8 : List (HloOp τ sig (Elt F))), Proc.devRef .tc main_arg0 ∉ op.writes ∧ Proc.devRef .tc main_arg2 ∉ op.writes := by
  intro op hop
  simp only [hostOps1_8, List.mem_cons, List.mem_nil_iff, or_false] at hop
  rcases hop with rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_9_keeps02 : ∀ op ∈ (hostOps1_9 : List (HloOp τ sig (Elt F))), Proc.devRef .tc main_arg0 ∉ op.writes ∧ Proc.devRef .tc main_arg2 ∉ op.writes := by
  intro op hop
  simp only [hostOps1_9, List.mem_cons, List.mem_nil_iff, or_false] at hop
  rcases hop with rfl | rfl | rfl | rfl | rfl | rfl | rfl | rfl | rfl | rfl | rfl | rfl | rfl | rfl | rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_10_keeps02 : ∀ op ∈ (hostOps1_10 : List (HloOp τ sig (Elt F))), Proc.devRef .tc main_arg0 ∉ op.writes ∧ Proc.devRef .tc main_arg2 ∉ op.writes := by
  intro op hop
  simp only [hostOps1_10, List.mem_cons, List.mem_nil_iff, or_false] at hop
  rcases hop with rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_11_keeps02 : ∀ op ∈ (hostOps1_11 : List (HloOp τ sig (Elt F))), Proc.devRef .tc main_arg0 ∉ op.writes ∧ Proc.devRef .tc main_arg2 ∉ op.writes := by
  intro op hop
  simp only [hostOps1_11, List.mem_cons, List.mem_nil_iff, or_false] at hop
  rcases hop with rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_12_keeps02 : ∀ op ∈ (hostOps1_12 : List (HloOp τ sig (Elt F))), Proc.devRef .tc main_arg0 ∉ op.writes ∧ Proc.devRef .tc main_arg2 ∉ op.writes := by
  intro op hop
  simp only [hostOps1_12, List.mem_cons, List.mem_nil_iff, or_false] at hop
  rcases hop with rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_13_keeps02 : ∀ op ∈ (hostOps1_13 : List (HloOp τ sig (Elt F))), Proc.devRef .tc main_arg0 ∉ op.writes ∧ Proc.devRef .tc main_arg2 ∉ op.writes := by
  intro op hop
  simp only [hostOps1_13, List.mem_cons, List.mem_nil_iff, or_false] at hop
  rcases hop with rfl | rfl | rfl | rfl | rfl | rfl | rfl | rfl | rfl | rfl | rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_14_keeps02 : ∀ op ∈ (hostOps1_14 : List (HloOp τ sig (Elt F))), Proc.devRef .tc main_arg0 ∉ op.writes ∧ Proc.devRef .tc main_arg2 ∉ op.writes := by
  intro op hop
  simp only [hostOps1_14, List.mem_cons, List.mem_nil_iff, or_false] at hop
  rcases hop with rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_15_keeps02 : ∀ op ∈ (hostOps1_15 : List (HloOp τ sig (Elt F))), Proc.devRef .tc main_arg0 ∉ op.writes ∧ Proc.devRef .tc main_arg2 ∉ op.writes := by
  intro op hop
  simp only [hostOps1_15, List.mem_cons, List.mem_nil_iff, or_false] at hop
  rcases hop with rfl | rfl | rfl | rfl | rfl | rfl | rfl | rfl | rfl | rfl | rfl | rfl | rfl | rfl | rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_16_keeps02 : ∀ op ∈ (hostOps1_16 : List (HloOp τ sig (Elt F))), Proc.devRef .tc main_arg0 ∉ op.writes ∧ Proc.devRef .tc main_arg2 ∉ op.writes := by
  intro op hop
  simp only [hostOps1_16, List.mem_cons, List.mem_nil_iff, or_false] at hop
  rcases hop with rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_17_keeps02 : ∀ op ∈ (hostOps1_17 : List (HloOp τ sig (Elt F))), Proc.devRef .tc main_arg0 ∉ op.writes ∧ Proc.devRef .tc main_arg2 ∉ op.writes := by
  intro op hop
  simp only [hostOps1_17, List.mem_cons, List.mem_nil_iff, or_false] at hop
  rcases hop with rfl | rfl | rfl | rfl | rfl | rfl | rfl | rfl | rfl | rfl | rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_18_keeps02 : ∀ op ∈ (hostOps1_18 : List (HloOp τ sig (Elt F))), Proc.devRef .tc main_arg0 ∉ op.writes ∧ Proc.devRef .tc main_arg2 ∉ op.writes := by
  intro op hop
  simp only [hostOps1_18, List.mem_cons, List.mem_nil_iff, or_false] at hop
  rcases hop with rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_19_keeps02 : ∀ op ∈ (hostOps1_19 : List (HloOp τ sig (Elt F))), Proc.devRef .tc main_arg0 ∉ op.writes ∧ Proc.devRef .tc main_arg2 ∉ op.writes := by
  intro op hop
  simp only [hostOps1_19, List.mem_cons, List.mem_nil_iff, or_false] at hop
  rcases hop with rfl | rfl | rfl | rfl | rfl | rfl | rfl | rfl | rfl | rfl | rfl | rfl | rfl | rfl | rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem hostOps1_20_keeps02 : ∀ op ∈ (hostOps1_20 : List (HloOp τ sig (Elt F))), Proc.devRef .tc main_arg0 ∉ op.writes ∧ Proc.devRef .tc main_arg2 ∉ op.writes := by
  intro op hop
  simp only [hostOps1_20, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl
  all_goals constructor <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation after the region writes the two integer inputs. -/
theorem tail_keeps02 : ∀ op ∈ (tailOpss : List (List (HloOp τ sig (Elt F)))).flatten, Proc.devRef .tc main_arg0 ∉ op.writes ∧ Proc.devRef .tc main_arg2 ∉ op.writes := by
  intro op hop
  obtain ⟨ops, hops, hop⟩ := List.mem_flatten.mp hop
  simp only [tailOpss, List.mem_cons, List.mem_nil_iff, or_false] at hops
  rcases hops with rfl | rfl | rfl | rfl | rfl | rfl | rfl | rfl | rfl | rfl | rfl | rfl | rfl | rfl | rfl | rfl | rfl | rfl | rfl | rfl | rfl
  · exact hostOps1_keeps02 op hop
  · exact hostOps1_1_keeps02 op hop
  · exact hostOps1_2_keeps02 op hop
  · exact hostOps1_3_keeps02 op hop
  · exact hostOps1_4_keeps02 op hop
  · exact hostOps1_5_keeps02 op hop
  · exact hostOps1_6_keeps02 op hop
  · exact hostOps1_7_keeps02 op hop
  · exact hostOps1_8_keeps02 op hop
  · exact hostOps1_9_keeps02 op hop
  · exact hostOps1_10_keeps02 op hop
  · exact hostOps1_11_keeps02 op hop
  · exact hostOps1_12_keeps02 op hop
  · exact hostOps1_13_keeps02 op hop
  · exact hostOps1_14_keeps02 op hop
  · exact hostOps1_15_keeps02 op hop
  · exact hostOps1_16_keeps02 op hop
  · exact hostOps1_17_keeps02 op hop
  · exact hostOps1_18_keeps02 op hop
  · exact hostOps1_19_keeps02 op hop
  · exact hostOps1_20_keeps02 op hop

end Cert.KernelIdeal.GenP

end
-- ==== Proof.FrameKI.lean ====
import proofs.«142671_j52776558133736_1_alg».proof.Proof.BodyKI
import proofs.«142671_j52776558133736_1_alg».proof.Proof.TailFactsKI

/-! The program's run around its one region: the proof data of the pipeline (each input's staging buffer at its
    block, the output's at the body's one store read back), the body obligation from the body's triple, and the
    launch theorem for a region followed by host operations. Its post names every array of the pipeline after the
    region and every other buffer as the later host operations leave it. -/

set_option maxRecDepth 16384

noncomputable section

namespace Cert.KernelIdeal.GenP

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered, as a valuation: the launch contents (no host operation
    precedes the region). -/
abbrev V0 (c : Dev nD) : Valuation τ sig (Elt F) := StableHlo.after (List.flatten []) (fun b => m (c, b))
/-- The same read at a reference. -/
abbrev V (c : Dev nD) (b : Ref sig .tc) : Buf (Elt F) ((c : Thread nD τ).loc b) := V0 m c (Proc.devRef .tc b)

/-- @main is the region continued by the later host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss : List (List (HloOp τ sig (Elt F)))).map StableHlo.seq)) :=
  Pipeline.hmain_around cfgs 0 defs₀ 𝒱₀ m main [] tailOpss (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the
    block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point -/

/-- One staging buffer of the output window, through which its contents are stated (the choice does not matter). -/
abbrev VO0_2 : View sig .tc .vmem S1x512x2048 .i32 := (Memref.whole cc0_stg2_0 : Memref sig .tc .vmem S1x512x2048 .i32).view
abbrev ms0_0 (t : Fin cfg0.N) : Memref sig .tc .vmem S1x512x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x2 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x2048 .i32 := win0_2.stage (cfg0.slots t 2)
abbrev hs0_2 (t : Fin cfg0.N) : (ms0_2 t).IsWhole := hstage0_2 ((cfg0.slots t 2).cast nbuf0_2)

/-- The run's one piece for the output tiles its block, so it covers it. -/
theorem cover0_A_2 (c : Dev nD) (i : grid0.Coords) (arg2 : Memref sig .tc .vmem S1x512x2 .f32) (harg2 : arg2.IsWhole)
    (arg3 : Memref sig .tc .vmem S1x2048x2 .f32) (harg3 : arg3.IsWhole) (arg4 : Memref sig .tc .vmem S1x512x2048 .i32) (harg4 : arg4.IsWhole)
    (x0 : Vec F S1x512x2 .f32) (x1 : Vec F S1x2048x2 .f32) (y : S1x512x2048.Idx) :
    ∃ pc ∈ (kernelRun0_A c i arg2 harg2 arg3 harg3 arg4 harg4 x0 x1).1, y ∈ pc.1.set :=
  View.cover_of_tiledL (kernelRun0_A c i arg2 harg2 arg3 harg3 arg4 harg4 x0 x1).1 S1x512x2048.size (by sl_kernel_rfl) y

/-- What the run leaves in the output's staging buffer: its piece read back over junk. -/
def out0_A_2 (c : Dev nD) (i : grid0.Coords) (arg2 : Memref sig .tc .vmem S1x512x2 .f32) (harg2 : arg2.IsWhole)
    (arg3 : Memref sig .tc .vmem S1x2048x2 .f32) (harg3 : arg3.IsWhole) (arg4 : Memref sig .tc .vmem S1x512x2048 .i32) (harg4 : arg4.IsWhole)
    (x0 : Vec F S1x512x2 .f32) (x1 : Vec F S1x2048x2 .f32) : Vec F S1x512x2048 .i32 :=
  VO0_2.read (Elt F) (VO0_2.writes (Elt F) VO0_2.junk (kernelRun0_A c i arg2 harg2 arg3 harg3 arg4 harg4 x0 x1).1)

/-- What the output's staging buffer holds after the body at point `t`. -/
def outsAt0 (c : Dev nD) (t : Fin cfg0.N) : Vec F S1x512x2048 .i32 :=
  out0_A_2 c (grid0.coords t) (ms0_0 t) (hs0_0 t) (ms0_1 t) (hs0_1 t) (ms0_2 t) (hs0_2 t) (iblk m c 0 t) (iblk m c 1 t)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  unfold outsAt0
  unfold out0_A_2
  iintro ⟨HΦ, Ho, ⟨%d0, H0⟩, ⟨%d1, H1⟩, ⟨%d2, H2⟩⟩
  iapply ((kernelRun0_A c (grid0.coords t) _ _ _ _ _ _ (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates, and every final state has every array of the pipeline at what
    the library computes from the proof data and every other unscoped buffer as the later host operations leave it. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-! ## The argument arrays end unchanged -/

/-- No host operation after the region writes `main_arg0`: it ends as launched. -/
theorem W_main_arg0 (c : Dev nD) :
    Pipeline.afterTail₀ cfgs (dats m) 0 (V0 m) tailOpss c main_arg0 = m ((c : Thread nD τ).loc main_arg0) := by
  unfold Pipeline.afterTail₀
  rw [StableHlo.after_of_forall_not_mem (b := Proc.devRef .tc main_arg0) _ _ (fun op hop => (tail_keeps02 op hop).1),
    Pipeline.withArrays_of_ne _ c (V0 m c) _ main_arg0 (by exact (by decide : ∀ w, Pipeline.arrRef spec0 w ≠ main_arg0))]
  rfl

/-- Nor `main_arg2`. -/
theorem W_main_arg2 (c : Dev nD) :
    Pipeline.afterTail₀ cfgs (dats m) 0 (V0 m) tailOpss c main_arg2 = m ((c : Thread nD τ).loc main_arg2) := by
  unfold Pipeline.afterTail₀
  rw [StableHlo.after_of_forall_not_mem (b := Proc.devRef .tc main_arg2) _ _ (fun op hop => (tail_keeps02 op hop).2),
    Pipeline.withArrays_of_ne _ c (V0 m c) _ main_arg2 (by exact (by decide : ∀ w, Pipeline.arrRef spec0 w ≠ main_arg2))]
  rfl

/-- The four argument arrays after a frame run: the two staged inputs by the library's reading of an input array, the
    two integer arrays because nothing writes them. -/
theorem kept_args (r : PUnit × MemSt nD τ sig (Elt F))
    (h : Pipeline.FramePost cfgs (dats m) 0 (Pipeline.afterTail₀ cfgs (dats m) 0 (V0 m) tailOpss) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).2 main_arg0 (Pipeline.mem_restRefs_of main_arg0 (by decide) (by decide))).trans (W_main_arg0 m c),
   ((h c).1 0).trans (((dats m 0 c).arrAt_in 0 rfl _).trans ((A_eq m c 0).trans (V_main_arg1 m c))),
   ((h c).2 main_arg2 (Pipeline.mem_restRefs_of main_arg2 (by decide) (by decide))).trans (W_main_arg2 m c),
   ((h c).1 1).trans (((dats m 0 c).arrAt_in 1 rfl _).trans ((A_eq m c 1).trans (V_main_arg3 m c)))⟩

/-- The frame claim at any `F`: the program runs to the end, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => kept_args m r h c) (run_main m ρ)

end Cert.KernelIdeal.GenP

end
-- ==== Proof.MaskSpec.lean ====
/-
  The mask, entry by entry, as a function of the two coordinate arrays: entry (b, n, j) is the 32-bit word of
  "the squared distance between point n of the first array and point j of the second, both in batch b, is at
  most 49", every operation the exact one on the extended reals.
-/
import Idealize.ShloMosaic.PureOps.Ideal
import Idealize.ShloMosaic.Lib.ValueIdx

noncomputable section

namespace Cert.Mask

open Idealize.ShloMosaic Idealize.ShloMosaic.ValueIdx

/-- One entry of the mask from the four coordinates it reads: the one-bit answer of
    `(ax - cx)² + (ay - cy)² ≤ 49` (49 as the float word `0x42440000`), widened to 32 bits. -/
def cell (ax ay cx cy : EReal) : BitVec 32 :=
  (Ideal.cmp .ole ((ax - cx) * (ax - cx) + (ay - cy) * (ay - cy)) (Ideal.ofBits .f32 0x42440000#32)).setWidth 32

/-- The entry at batch `b`, row `n`, column `j`, coordinates of literal extents. -/
def entry (a : FVec Ideal ⟨3, ![8, 1024, 2]⟩ .f32) (c : FVec Ideal ⟨3, ![8, 2048, 2]⟩ .f32)
    (b : Fin 8) (n : Fin 1024) (j : Fin 2048) : BitVec 32 :=
  cell (a (ix3 b n (0 : Fin 2))) (a (ix3 b n (1 : Fin 2))) (c (ix3 b j (0 : Fin 2))) (c (ix3 b j (1 : Fin 2)))

/-- The whole mask as one function of the two arrays. -/
def G (a : FVec Ideal ⟨3, ![8, 1024, 2]⟩ .f32) (c : FVec Ideal ⟨3, ![8, 2048, 2]⟩ .f32) :
    IVec ⟨3, ![8, 1024, 2048]⟩ 32 :=
  fun i => entry a c (i 0) (i 1) (i 2)

/-- The mask read at coordinates. -/
theorem G_apply (a : FVec Ideal ⟨3, ![8, 1024, 2]⟩ .f32) (c : FVec Ideal ⟨3, ![8, 2048, 2]⟩ .f32)
    (b : Fin 8) (n : Fin 1024) (j : Fin 2048) :
    G a c (ix3 b n j)
      = cell (a (ix3 b n (0 : Fin 2))) (a (ix3 b n (1 : Fin 2))) (c (ix3 b j (0 : Fin 2))) (c (ix3 b j (1 : Fin 2))) :=
  rfl

/-- The comparison bit of an entry is set exactly when the inequality holds. -/
theorem cell_eq (ax ay cx cy : EReal) :
    cell ax ay cx cy
      = (BitVec.ofBool (decide ((ax - cx) * (ax - cx) + (ay - cy) * (ay - cy) ≤ Ideal.ofBits .f32 0x42440000#32))).setWidth 32 :=
  rfl

end Cert.Mask

end
-- ==== Proof.MaskKernel.lean ====
/-
  The kernel body's stored value read at an index: entry (0, r, j) of the block is the mask entry of row r of the
  first operand block and row j of the second.
-/
import proofs.«142671_j52776558133736_1_alg».proof.Proof.Gen.KernelIdeal.Skeleton
import proofs.«142671_j52776558133736_1_alg».proof.Proof.MaskSpec
import Idealize.ShloMosaic.Lib.ValueIdx
import Idealize.ShloMosaic.Lib.ValueLayout
import Idealize.ShloMosaic.Lib.Pipeline.Value

noncomputable section

namespace Cert.Mask

open Idealize.ShloMosaic Idealize.ShloMosaic.ValueIdx

section Layout
variable {α : Type}

/-- A column `[a, 1]` cast to the vector `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

open Cert.KernelIdeal in
/-- A coordinate column of the first operand block, broadcast along the rows of the tile. -/
theorem bcol_apply (o : ℕ) (x0 : FVec Ideal S1x512x2 .f32) (hc : S1x512x2.ShapeCasts S512x2)
    (hs : S512x2.Slices ![0, o] S512x1) (hb : S512x1.Broadcasts S512x2048) (k : Fin 2) (hk : k.val = o)
    (r : Fin 512) (j : Fin 2048) :
    broadcastTo S512x2048 (extractStridedSlice S512x1 ![0, o] (shapeCast S512x2 x0 hc) hs) hb (ix2 r j)
      = x0 (ix3 (0 : Fin 1) r k) := by
  refine (broadcastTo_a1_ab_apply _ hb r j).trans ?_
  refine (slice2_axis1_apply o _ hs r (0 : Fin 1) k (by rw [hk]; rfl)).trans ?_
  exact shapeCast_1ab_ab_apply x0 hc r k

open Cert.KernelIdeal in
/-- A coordinate column of the second operand block, laid along the columns of the tile. -/
theorem brow_apply (o : ℕ) (x2 : FVec Ideal S1x2048x2 .f32) (hc : S1x2048x2.ShapeCasts S2048x2)
    (hs : S2048x2.Slices ![0, o] S2048x1) (h1 : S2048x1.ShapeCasts S2048) (h2 : S2048.ShapeCasts S1x2048)
    (hb : S1x2048.Broadcasts S512x2048) (k : Fin 2) (hk : k.val = o) (r : Fin 512) (j : Fin 2048) :
    broadcastTo S512x2048 (shapeCast S1x2048 (shapeCast S2048
        (extractStridedSlice S2048x1 ![0, o] (shapeCast S2048x2 x2 hc) hs) h1) h2) hb (ix2 r j)
      = x2 (ix3 (0 : Fin 1) j k) := by
  refine (broadcastTo_1b_ab_apply _ hb r j).trans ?_
  refine (shapeCast_a_1a_apply _ h2 (0 : Fin 1) j).trans ?_
  refine (shapeCast_a1_a_apply _ h1 j).trans ?_
  refine (slice2_axis1_apply o _ hs j (0 : Fin 1) k (by rw [hk]; rfl)).trans ?_
  exact shapeCast_1ab_ab_apply x2 hc j k

open Cert.KernelIdeal in
/-- THE STORED VALUE AT AN INDEX. -/
theorem pay1_apply (x0 : Vec Ideal Cert.KernelIdeal.S1x512x2 .f32) (x2 : Vec Ideal Cert.KernelIdeal.S1x2048x2 .f32)
    (r : Fin 512) (j : Fin 2048) :
    Cert.KernelIdeal.Gen.k0_pay1 (F := Ideal) x0 x2 (ix3 (0 : Fin 1) r j)
      = cell (x0 (ix3 (0 : Fin 1) r (0 : Fin 2))) (x0 (ix3 (0 : Fin 1) r (1 : Fin 2)))
          (x2 (ix3 (0 : Fin 1) j (0 : Fin 2))) (x2 (ix3 (0 : Fin 1) j (1 : Fin 2))) := by
  unfold Cert.KernelIdeal.Gen.k0_pay1
  refine (shapeCast_ab_1ab_apply _ _ (0 : Fin 1) r j).trans ?_
  have hA := bcol_apply 0 x0 Gen.shapeCasts_S1x512x2_S512x2 Gen.slices_S512x2_o0_0_S512x1
    Gen.broadcasts_S512x1_S512x2048 (0 : Fin 2) rfl r j
  have hC := bcol_apply 1 x0 Gen.shapeCasts_S1x512x2_S512x2 Gen.slices_S512x2_o0_1_S512x1
    Gen.broadcasts_S512x1_S512x2048 (1 : Fin 2) rfl r j
  have hB := brow_apply 0 x2 Gen.shapeCasts_S1x2048x2_S2048x2 Gen.slices_S2048x2_o0_0_S2048x1
    Gen.shapeCasts_S2048x1_S2048 Gen.shapeCasts_S2048_S1x2048 Gen.broadcasts_S1x2048_S512x2048 (0 : Fin 2) rfl r j
  have hD := brow_apply 1 x2 Gen.shapeCasts_S1x2048x2_S2048x2 Gen.slices_S2048x2_o0_1_S2048x1
    Gen.shapeCasts_S2048x1_S2048 Gen.shapeCasts_S2048_S1x2048 Gen.broadcasts_S1x2048_S512x2048 (1 : Fin 2) rfl r j
  rw [← hA, ← hB, ← hC, ← hD]
  rfl

end Cert.Mask

end
-- ==== Proof.KValue.lean ====
import proofs.«142671_j52776558133736_1_alg».proof.Proof.FrameKI
import proofs.«142671_j52776558133736_1_alg».proof.Proof.MaskKernel
import Idealize.ShloMosaic.Lib.Pipeline.Value
import Idealize.ShloMosaic.Lib.ValueIdx

/-! The mask array after the region, as one function of the two coordinate arrays: point `t` of the 8 × 2 grid writes
    back the 512 rows `512·(t mod 2) …` of batch `t / 2`, each entry the body's payload of the agent block's row and
    the context block's row; the 16 blocks tile the array. -/

set_option maxRecDepth 16384

noncomputable section

namespace Cert.KernelIdeal.KVal

open Cert.KernelIdeal Cert.KernelIdeal.Gen Cert.KernelIdeal.GenP Cert.Mask
open Idealize.ShloMosaic Idealize.ShloMosaic.TcCoe Idealize.ShloMosaic.Tactic Idealize.ShloMosaic.ValueIdx
open Idealize.SL Idealize.SL.Sem
open Idealize.ShloMosaic.Pipeline (Dat Cfg Window)

theorem hz3 : (![0, 0, 0] : Fin 3 → Nat) = fun _ => 0 := funext fun a => by fin_cases a <;> rfl

section
variable {F : FTy → Type} [FloatOps F]

/-- What the body leaves in the output's buffer is its payload of the two input blocks. -/
theorem out_eq (c : Dev nD) (i : grid0.Coords) (arg2 : Memref sig .tc .vmem S1x512x2 .f32) (harg2 : arg2.IsWhole)
    (arg3 : Memref sig .tc .vmem S1x2048x2 .f32) (harg3 : arg3.IsWhole) (arg4 : Memref sig .tc .vmem S1x512x2048 .i32) (harg4 : arg4.IsWhole)
    (x0 : Vec F S1x512x2 .f32) (x1 : Vec F S1x2048x2 .f32) :
    out0_A_2 c i arg2 harg2 arg3 harg3 arg4 harg4 x0 x1 = k0_pay1 x0 x1 := by
  unfold out0_A_2
  rw [View.read_writes_eq_canon _ _ _ (cover0_A_2 c i arg2 harg2 arg3 harg3 arg4 harg4 x0 x1)]
  unfold kernelRun0_A
  dsimp only
  rw [View.canon_unit_zero hz3]
  simp only [View.readAt_eq_ld, harg2.read_unread, harg3.read_unread, View.ld_unit_zero (S := S1x512x2) hz3, View.ld_unit_zero (S := S1x2048x2) hz3]
end

variable (m : (ℓ : Loc nD τ sig) → Buf (Elt Ideal) ℓ) (ρ : Dev nD → PrngReg)

/-- The printed index maps, decided over the grid: the agent window moves with the output window along the batch and the
    row axes, the context window along the batch axis only; every other block index is 0. -/
theorem idx_facts : ∀ t : Fin cfg0.N,
    win0_0.index t (0 : Fin 3) = win0_2.index t (0 : Fin 3) ∧ win0_0.index t (1 : Fin 3) = win0_2.index t (1 : Fin 3) ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (0 : Fin 3) ≤ 7 ∧ win0_2.index t (1 : Fin 3) ≤ 1 ∧ win0_2.index t (2 : Fin 3) = 0 :=
  (by decide +kernel : ∀ t : Fin grid0.N, _)

/-- Every block of the array is some point's. -/
theorem idx_onto : ∀ (q0 : Fin 8) (q1 : Fin 2), ∃ t : Fin cfg0.N, win0_2.index t = ![q0.val, q1.val, 0] :=
  (by decide +kernel : ∀ (q0 : Fin 8) (q1 : Fin 2), ∃ t : Fin grid0.N, win0_2.index t = ![q0.val, q1.val, 0])

/-- An input block read at an index is the array read at the block's embedded index. -/
theorem iblk0_apply (c : Dev nD) (t : Fin cfg0.N) (z : S1x512x2.Idx) :
    (iblk m c 0 t : Vec Ideal S1x512x2 .f32) z = V m c main_arg1 (((cfg0.win 0).blk t).view.emb z) := rfl
theorem iblk1_apply (c : Dev nD) (t : Fin cfg0.N) (z : S1x2048x2.Idx) :
    (iblk m c 1 t : Vec Ideal S1x2048x2 .f32) z = V m c main_arg3 (((cfg0.win 1).blk t).view.emb z) := rfl

/-- The agent block's row r at point t sits, in the array, at the batch and row of the output block's row r. -/
theorem emb0 (t : Fin cfg0.N) (r : Fin 512) (j : Fin 2048) (k : Fin 2) :
    ((cfg0.win 0).blk t).view.emb (ix3 (0 : Fin 1) r k)
      = ix3 ((((cfg0.win 2).blk t).view.emb (ix3 (0 : Fin 1) r j)) 0) ((((cfg0.win 2).blk t).view.emb (ix3 (0 : Fin 1) r j)) 1) k := by
  obtain ⟨e0, e1, e2, e3, e4, e5, e6, e7, e8⟩ := idx_facts t
  funext a; apply Fin.ext
  match a with
  | ⟨0, _⟩ => show win0_0.index t (0 : Fin 3) * 1 + 1 * 0 = win0_2.index t (0 : Fin 3) * 1 + 1 * 0; omega
  | ⟨1, _⟩ => show win0_0.index t (1 : Fin 3) * 512 + 1 * r.val = win0_2.index t (1 : Fin 3) * 512 + 1 * r.val; omega
  | ⟨2, _⟩ => show win0_0.index t (2 : Fin 3) * 2 + 1 * k.val = k.val; omega

/-- The context block's row j at point t sits at the batch of the output block and at row j. -/
theorem emb1 (t : Fin cfg0.N) (r : Fin 512) (j : Fin 2048) (k : Fin 2) :
    ((cfg0.win 1).blk t).view.emb (ix3 (0 : Fin 1) j k)
      = ix3 ((((cfg0.win 2).blk t).view.emb (ix3 (0 : Fin 1) r j)) 0) ((((cfg0.win 2).blk t).view.emb (ix3 (0 : Fin 1) r j)) 2) k := by
  obtain ⟨e0, e1, e2, e3, e4, e5, e6, e7, e8⟩ := idx_facts t
  funext a; apply Fin.ext
  match a with
  | ⟨0, _⟩ => show win0_1.index t (0 : Fin 3) * 1 + 1 * 0 = win0_2.index t (0 : Fin 3) * 1 + 1 * 0; omega
  | ⟨1, _⟩ => show win0_1.index t (1 : Fin 3) * 2048 + 1 * j.val = win0_2.index t (2 : Fin 3) * 2048 + 1 * j.val; omega
  | ⟨2, _⟩ => show win0_1.index t (2 : Fin 3) * 2 + 1 * k.val = k.val; omega

/-- The payload of the two input blocks at point t, at a block index, is G of the two arrays at the array index. -/
theorem flushed_at (c : Dev nD) (t : Fin cfg0.N) (u : Fin 1) (r : Fin 512) (j : Fin 2048) :
    k0_pay1 (F := Ideal) (iblk m c 0 t) (iblk m c 1 t) (ix3 u r j)
      = G (V m c main_arg1) (V m c main_arg3) (((cfg0.win 2).blk t).view.emb (ix3 u r j)) := by
  obtain rfl : u = 0 := Subsingleton.elim _ _
  refine (pay1_apply (iblk m c 0 t) (iblk m c 1 t) r j).trans ?_
  rw [iblk0_apply, iblk0_apply, iblk1_apply, iblk1_apply, emb0 t r j, emb0 t r j, emb1 t r j, emb1 t r j]
  rfl

/-- What point t writes back is block t of G of the two coordinate arrays. -/
theorem flushed_eq (c : Dev nD) (t : Fin cfg0.N) :
    (dats m 0 c).flushed 2 t = ((cfg0.win 2).blk t).view.read (Elt Ideal) (G (V m c main_arg1) (V m c main_arg3)) := by
  show (cfg0.win 2).cut (grid0.coords t) ((dats m 0 c).after 2 t) = _
  rw [after0_2]
  unfold outsAt0
  rw [out_eq]
  funext y
  show k0_pay1 (F := Ideal) (iblk m c 0 t) (iblk m c 1 t) y = G (V m c main_arg1) (V m c main_arg3) (((cfg0.win 2).blk t).view.emb y)
  have hy : (y : S1x512x2048.Idx) = ix3 (y 0) (y 1) (y 2) := eq_ix3 y
  rw [hy]
  exact flushed_at m c t (y 0) (y 1) (y 2)

/-- An index of the array is in point t's block iff each coordinate is in the block's range on its axis. -/
theorem mem_blk (t : Fin cfg0.N) (i : S8x1024x2048.Idx) :
    i ∈ ((cfg0.win 2).blk t).view.set ↔ ∀ a : Fin 3, win0_2.index t a * S1x512x2048.size a ≤ (i a).val ∧ (i a).val < win0_2.index t a * S1x512x2048.size a + S1x512x2048.size a := by
  show i ∈ ((View.whole main_v0).slice (win0_2.rect t)).set ↔ _
  rw [View.set_slice_whole, Rect.mem_set_unit]
  exact Iff.rfl

/-- Every index of the mask array is in the block of the point of its batch and its half of the rows. -/
theorem cover (i : S8x1024x2048.Idx) : ∃ t : Fin cfg0.N, (cfg0.win 2).flush t = true ∧ i ∈ ((cfg0.win 2).blk t).view.set := by
  have hi0 : (i 0).val < 8 := (i 0).isLt
  have hi1 : (i 1).val < 1024 := (i 1).isLt
  have hi2 : (i 2).val < 2048 := (i 2).isLt
  obtain ⟨t, ht⟩ := idx_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 2048 ≤ (i 2).val ∧ (i 2).val < win0_2.index t (2 : Fin 3) * 2048 + 2048; omega

/-- The mask array after the region is G of the two coordinate arrays. -/
theorem final2 (c : Dev nD) : (dats m 0 c).arrAt 2 cfg0.N = G (V m c main_arg1) (V m c main_arg3) :=
  (dats m 0 c).arrAt_eq_of_cover 2 (G (V m c main_arg1) (V m c main_arg3)) (fun t _ => flushed_eq m c t) cover

/-- The contents the later host operations start from: the launch contents with the pipeline's arrays as the region
    leaves them. -/
abbrev WT (c : Dev nD) : Valuation τ sig (Elt Ideal) :=
  Pipeline.withArrays (cfgs 0).spec c (V0 m c) fun w => (dats m 0 c).arrAt w (cfgs 0).N

theorem WT_v0 (c : Dev nD) : (WT m c (Proc.devRef .tc main_v0) : IVec S8x1024x2048 32)
    = G (m ((c : Thread nD τ).loc main_arg1)) (m ((c : Thread nD τ).loc main_arg3)) :=
  (Pipeline.withArrays_arr spec0 launch0.win.arr_inj c _ _ 2).trans (final2 m c)

theorem WT_arg1 (c : Dev nD) : (WT m c (Proc.devRef .tc main_arg1) : FVec Ideal S8x1024x2 .f32) = m ((c : Thread nD τ).loc main_arg1) :=
  (Pipeline.withArrays_arr spec0 launch0.win.arr_inj c _ _ 0).trans (((dats m 0 c).arrAt_in 0 rfl _).trans ((A_eq m c 0).trans (V_main_arg1 m c)))

theorem WT_arg3 (c : Dev nD) : (WT m c (Proc.devRef .tc main_arg3) : FVec Ideal S8x2048x2 .f32) = m ((c : Thread nD τ).loc main_arg3) :=
  (Pipeline.withArrays_arr spec0 launch0.win.arr_inj c _ _ 1).trans (((dats m 0 c).arrAt_in 1 rfl _).trans ((A_eq m c 1).trans (V_main_arg3 m c)))

/-- The run, read: the four results are the later host operations' fold over WT, the arguments end unchanged. -/
theorem run : θ_run defs (onTc (τ := τ) (main (F := Ideal))) ⟨m, fun _ => 0, ρ⟩ fun r => ∀ c : Dev nD,
      r.2.mem ((c.tc : Thread nD τ).loc main_v51) = StableHlo.after (List.flatten (tailOpss (F := Ideal))) (WT m c) (Proc.devRef .tc main_v51)
      ∧ r.2.mem ((c.tc : Thread nD τ).loc main_v30) = StableHlo.after (List.flatten (tailOpss (F := Ideal))) (WT m c) (Proc.devRef .tc main_v30)
      ∧ r.2.mem ((c.tc : Thread nD τ).loc main_v34) = StableHlo.after (List.flatten (tailOpss (F := Ideal))) (WT m c) (Proc.devRef .tc main_v34)
      ∧ r.2.mem ((c.tc : Thread nD τ).loc main_v56) = StableHlo.after (List.flatten (tailOpss (F := Ideal))) (WT m c) (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
      ⟨(h c).2 main_v51 (Pipeline.mem_restRefs_of main_v51 (by decide) (by decide)),
       (h c).2 main_v30 (Pipeline.mem_restRefs_of main_v30 (by decide) (by decide)),
       (h c).2 main_v34 (Pipeline.mem_restRefs_of main_v34 (by decide) (by decide)),
       (h c).2 main_v56 (Pipeline.mem_restRefs_of main_v56 (by decide) (by decide)),
       kept_args m r h c⟩)
    (run_main m ρ)

end Cert.KernelIdeal.KVal
end
-- ==== Proof.RefOps.lean ====
/- The reference program's @main as literal lists of its host operations, in program order: the calls of the
   module-local functions unfolded at their call sites over each call's buffer record. The 201 operations are
   cut into 21 consecutive stretches: a stretch of @main's own lines, then one inlined call, alternately.
   `ops` is their concatenation, the appends nested to the right: `rOps0 ++ (rOps1 ++ (… ++ rOps20))`. -/
import proofs.«142671_j52776558133736_1_alg».proof.ReferenceIdeal
import Idealize.ShloMosaic.Lib.StableHlo.Run

noncomputable section

namespace Cert.ReferenceIdeal.RefRun

open Idealize.ShloMosaic Idealize.ShloMosaic.TcCoe Idealize.SL.Sem
open Cert.ReferenceIdeal.Facts₀ Cert.ReferenceIdeal.Facts

variable {F : FTy → Type} [FloatOps F] [Facts]

/-- Stretch 0, 13 operations: the pairwise distance mask: 13 operations of @main (%0 … %10 with %cst, %cst_0). -/
abbrev rOps0 : List (HloOp τ sig (Elt F)) :=
  [ StableHlo.unary main_arg1 main_v0 (broadcastInDim S8x1024x1x2 ![0, 1, 3] bcast_S8x1024x2_S8x1024x1x2_0_1_3 : (⟨S8x1024x2, .f32⟩ : BufTy).Contents (Elt F) → (⟨S8x1024x1x2, .f32⟩ : BufTy).Contents (Elt F)),
    StableHlo.unary main_arg3 main_v1 (broadcastInDim S8x1x2048x2 ![0, 2, 3] bcast_S8x2048x2_S8x1x2048x2_0_2_3 : (⟨S8x2048x2, .f32⟩ : BufTy).Contents (Elt F) → (⟨S8x1x2048x2, .f32⟩ : BufTy).Contents (Elt F)),
    StableHlo.unary main_v0 main_v2 (broadcastInDim S8x1024x2048x2 ![0, 1, 2, 3] bcast_S8x1024x1x2_S8x1024x2048x2_0_1_2_3 : (⟨S8x1024x1x2, .f32⟩ : BufTy).Contents (Elt F) → (⟨S8x1024x2048x2, .f32⟩ : BufTy).Contents (Elt F)),
    StableHlo.unary main_v1 main_v3 (broadcastInDim S8x1024x2048x2 ![0, 1, 2, 3] bcast_S8x1x2048x2_S8x1024x2048x2_0_1_2_3 : (⟨S8x1x2048x2, .f32⟩ : BufTy).Contents (Elt F) → (⟨S8x1024x2048x2, .f32⟩ : BufTy).Contents (Elt F)),
    StableHlo.binary main_v2 main_v3 main_v4 (subf : (⟨S8x1024x2048x2, .f32⟩ : BufTy).Contents (Elt F) → (⟨S8x1024x2048x2, .f32⟩ : BufTy).Contents (Elt F) → (⟨S8x1024x2048x2, .f32⟩ : BufTy).Contents (Elt F)),
    StableHlo.binary main_v4 main_v4 main_v5 (mulf : (⟨S8x1024x2048x2, .f32⟩ : BufTy).Contents (Elt F) → (⟨S8x1024x2048x2, .f32⟩ : BufTy).Contents (Elt F) → (⟨S8x1024x2048x2, .f32⟩ : BufTy).Contents (Elt F)),
    StableHlo.nullary main_cst (constant S_ .f32 0x00000000#32),
    StableHlo.binary main_v5 main_cst main_v6 ((fun x v => Host.reduceAdd x v reducesTo_S8x1024x2048x2_S8x1024x2048_d3 h_S_) : (⟨S8x1024x2048x2, .f32⟩ : BufTy).Contents (Elt F) → (⟨S_, .f32⟩ : BufTy).Contents (Elt F) → (⟨S8x1024x2048, .f32⟩ : BufTy).Contents (Elt F)),
    StableHlo.unary main_v6 main_v7 (Host.sqrt : (⟨S8x1024x2048, .f32⟩ : BufTy).Contents (Elt F) → (⟨S8x1024x2048, .f32⟩ : BufTy).Contents (Elt F)),
    StableHlo.nullary main_cst_0 (constant S_ .f32 0x40E00000#32),
    StableHlo.unary main_cst_0 main_v8 (broadcastInDim S8x1024x2048 ![] bcast_S_S8x1024x2048 : (⟨S_, .f32⟩ : BufTy).Contents (Elt F) → (⟨S8x1024x2048, .f32⟩ : BufTy).Contents (Elt F)),
    StableHlo.binary main_v7 main_v8 main_v9 (cmpf .ole : (⟨S8x1024x2048, .f32⟩ : BufTy).Contents (Elt F) → (⟨S8x1024x2048, .f32⟩ : BufTy).Contents (Elt F) → (⟨S8x1024x2048, .i1⟩ : BufTy).Contents (Elt F)),
    StableHlo.reshape main_v9 main_v10 rfl shapeCasts_S8x1024x2048_S16777216 ]
/-- Each operation of stretch 0 touches TensorCore references only. -/
theorem rOps0_sub : (rOps0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.reshape_bufs_sub ..⟩
/-- No operation of stretch 0 allocates: each determines its results. -/
theorem rOps0_fresh : (rOps0 : List (HloOp τ sig (Elt F))).Forall fun op => op.fresh = ∅ :=
  ⟨rfl, rfl, rfl, rfl, rfl, rfl, rfl, rfl, rfl, rfl, rfl, rfl, rfl⟩

/-- Stretch 1, 4 operations: @cumsum inlined at %11 (record main_call0). -/
abbrev rOps1 : List (HloOp τ sig (Elt F)) :=
  [ StableHlo.TRef.unary (.of main_v10 : StableHlo.TRef sig ⟨S16777216, .i1⟩) (.of main_call0_v0 : StableHlo.TRef sig ⟨S16777216, .i32⟩) (extui 32 · natLt_1_32),
    StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_call0_v0 : StableHlo.TRef sig ⟨S16777216, .i32⟩) (.of main_call0_call0_v0 : StableHlo.TRef sig ⟨S_, .i32⟩) (.of main_v11 : StableHlo.TRef sig ⟨S16777216, .i32⟩) (fun x v => Host.reduceWindow IntOp.addi ![16777216] ![1] ![16777215] ![0] x v reduceWindows_S16777216_S16777216_w16777216s1p16777215_0 h_S_) ]
/-- Each operation of stretch 1 touches TensorCore references only. -/
theorem rOps1_sub : (rOps1 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub ..⟩
/-- No operation of stretch 1 allocates: each determines its results. -/
theorem rOps1_fresh : (rOps1 : List (HloOp τ sig (Elt F))).Forall fun op => op.fresh = ∅ :=
  ⟨rfl, rfl, rfl, rfl⟩

/-- Stretch 2, 3 operations: @main's %c, %12, %c_1. -/
abbrev rOps2 : List (HloOp τ sig (Elt F)) :=
  [ StableHlo.nullary main_c (constantI S_ 32 0#32),
    StableHlo.unary main_c main_v12 (broadcastInDim S16777216 ![] bcast_S_S16777216 : (⟨S_, .i32⟩ : BufTy).Contents (Elt F) → (⟨S16777216, .i32⟩ : BufTy).Contents (Elt F)),
    StableHlo.nullary main_c_1 (constantI S_ 32 0#32) ]
/-- Each operation of stretch 2 touches TensorCore references only. -/
theorem rOps2_sub : (rOps2 : List (HloOp τ sig (Elt F))).Forall fun op => op.bufs ⊆ StableHlo.tcRefs τ sig :=
  ⟨StableHlo.nullary_bufs_sub .., StableHlo.unary_bufs_sub .., StableHlo.nullary_bufs_sub ..⟩
/-- No operation of stretch 2 allocates: each determines its results. -/
theorem rOps2_fresh : (rOps2 : List (HloOp τ sig (Elt F))).Forall fun op => op.fresh = ∅ :=
  ⟨rfl, rfl, rfl⟩

/-- Stretch 3, 3 operations: @clip inlined at %13 (record main_call1). -/
abbrev rOps3 : List (HloOp τ sig (Elt F)) :=
  [ StableHlo.TRef.unary (.of main_c_1 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S16777216, .i32⟩) (broadcastInDim S16777216 ![] bcast_S_S16777216),
    StableHlo.TRef.binary (.of main_call1_v1 : StableHlo.TRef sig ⟨S16777216, .i32⟩) (.of main_v11 : StableHlo.TRef sig ⟨S16777216, .i32⟩) (.of main_v13 : StableHlo.TRef sig ⟨S16777216, .i32⟩) maxsi ]
/-- Each operation of stretch 3 touches TensorCore references only. -/
theorem rOps3_sub : (rOps3 : List (HloOp τ sig (Elt F))).Forall fun op => op.bufs ⊆ StableHlo.tcRefs τ sig :=
  ⟨StableHlo.unary_bufs_sub .., StableHlo.unary_bufs_sub .., StableHlo.binary_bufs_sub ..⟩
/-- No operation of stretch 3 allocates: each determines its results. -/
theorem rOps3_fresh : (rOps3 : List (HloOp τ sig (Elt F))).Forall fun op => op.fresh = ∅ :=
  ⟨rfl, rfl, rfl⟩

/-- Stretch 4, 11 operations: @main's %c_2 … %21, the scatter last. -/
abbrev rOps4 : List (HloOp τ sig (Elt F)) :=
  [ StableHlo.nullary main_c_2 (constantI S_ 32 0#32),
    StableHlo.unary main_c_2 main_v14 (broadcastInDim S16777216 ![] bcast_S_S16777216 : (⟨S_, .i32⟩ : BufTy).Contents (Elt F) → (⟨S16777216, .i32⟩ : BufTy).Contents (Elt F)),
    StableHlo.binary main_v13 main_v14 main_v15 (cmpi .slt : (⟨S16777216, .i32⟩ : BufTy).Contents (Elt F) → (⟨S16777216, .i32⟩ : BufTy).Contents (Elt F) → (⟨S16777216, .i1⟩ : BufTy).Contents (Elt F)),
    StableHlo.nullary main_c_3 (constantI S_ 32 16777216#32),
    StableHlo.unary main_c_3 main_v16 (broadcastInDim S16777216 ![] bcast_S_S16777216 : (⟨S_, .i32⟩ : BufTy).Contents (Elt F) → (⟨S16777216, .i32⟩ : BufTy).Contents (Elt F)),
    StableHlo.binary main_v13 main_v16 main_v17 (addi : (⟨S16777216, .i32⟩ : BufTy).Contents (Elt F) → (⟨S16777216, .i32⟩ : BufTy).Contents (Elt F) → (⟨S16777216, .i32⟩ : BufTy).Contents (Elt F)),
    StableHlo.ternary main_v15 main_v17 main_v13 main_v18 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v18 main_v19 (broadcastInDim S16777216x1 ![0] bcast_S16777216_S16777216x1_0 : (⟨S16777216, .i32⟩ : BufTy).Contents (Elt F) → (⟨S16777216x1, .i32⟩ : BufTy).Contents (Elt F)),
    StableHlo.nullary main_c_4 (constantI S_ 32 1#32),
    StableHlo.unary main_c_4 main_v20 (broadcastInDim S16777216 ![] bcast_S_S16777216 : (⟨S_, .i32⟩ : BufTy).Contents (Elt F) → (⟨S16777216, .i32⟩ : BufTy).Contents (Elt F)),
    StableHlo.ternary main_v12 main_v19 main_v20 main_v21 ((fun x i u => Host.scatter scatter_S16777216_S16777216x1_S16777216_n_0_0_1 IntOp.addi x i u) : (⟨S16777216, .i32⟩ : BufTy).Contents (Elt F) → (⟨S16777216x1, .i32⟩ : BufTy).Contents (Elt F) → (⟨S16777216, .i32⟩ : BufTy).Contents (Elt F) → (⟨S16777216, .i32⟩ : BufTy).Contents (Elt F)) ]
/-- Each operation of stretch 4 touches TensorCore references only. -/
theorem rOps4_sub : (rOps4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub ..⟩
/-- No operation of stretch 4 allocates: each determines its results. -/
theorem rOps4_fresh : (rOps4 : List (HloOp τ sig (Elt F))).Forall fun op => op.fresh = ∅ :=
  ⟨rfl, rfl, rfl, rfl, rfl, rfl, rfl, rfl, rfl, rfl, rfl⟩

/-- Stretch 5, 3 operations: @cumsum_1 inlined at %22 (record main_call2). -/
abbrev rOps5 : List (HloOp τ sig (Elt F)) :=
  [ StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_v21 : StableHlo.TRef sig ⟨S16777216, .i32⟩) (.of main_call2_call0_v0 : StableHlo.TRef sig ⟨S_, .i32⟩) (.of main_v22 : StableHlo.TRef sig ⟨S16777216, .i32⟩) (fun x v => Host.reduceWindow IntOp.addi ![16777216] ![1] ![16777215] ![0] x v reduceWindows_S16777216_S16777216_w16777216s1p16777215_0 h_S_) ]
/-- Each operation of stretch 5 touches TensorCore references only. -/
theorem rOps5_sub : (rOps5 : List (HloOp τ sig (Elt F))).Forall fun op => op.bufs ⊆ StableHlo.tcRefs τ sig :=
  ⟨StableHlo.nullary_bufs_sub .., StableHlo.unary_bufs_sub .., StableHlo.binary_bufs_sub ..⟩
/-- No operation of stretch 5 allocates: each determines its results. -/
theorem rOps5_fresh : (rOps5 : List (HloOp τ sig (Elt F))).Forall fun op => op.fresh = ∅ :=
  ⟨rfl, rfl, rfl⟩

/-- Stretch 6, 1 operation: @main's %c_5. -/
abbrev rOps6 : List (HloOp τ sig (Elt F)) :=
  [ StableHlo.nullary main_c_5 (constantI S_ 32 1#32) ]
/-- Each operation of stretch 6 touches TensorCore references only. -/
theorem rOps6_sub : (rOps6 : List (HloOp τ sig (Elt F))).Forall fun op => op.bufs ⊆ StableHlo.tcRefs τ sig :=
  StableHlo.nullary_bufs_sub ..
/-- No operation of stretch 6 allocates: each determines its results. -/
theorem rOps6_fresh : (rOps6 : List (HloOp τ sig (Elt F))).Forall fun op => op.fresh = ∅ :=
  rfl

/-- Stretch 7, 16 operations: @floor_divide inlined at %23 (record main_call3). -/
abbrev rOps7 : List (HloOp τ sig (Elt F)) :=
  [ StableHlo.TRef.unary (.of main_c_5 : StableHlo.TRef sig ⟨S_, .i32⟩) (.of main_call3_v0 : StableHlo.TRef sig ⟨S16777216, .i32⟩) (broadcastInDim S16777216 ![] bcast_S_S16777216),
    StableHlo.TRef.binary (.of main_v22 : StableHlo.TRef sig ⟨S16777216, .i32⟩) (.of main_call3_v0 : StableHlo.TRef sig ⟨S16777216, .i32⟩) (.of main_call3_v1 : StableHlo.TRef sig ⟨S16777216, .i32⟩) Host.divsi,
    StableHlo.TRef.unary (.of main_v22 : StableHlo.TRef sig ⟨S16777216, .i32⟩) (.of main_call3_v2 : StableHlo.TRef sig ⟨S16777216, .i32⟩) signi,
    StableHlo.TRef.unary (.of main_c_5 : StableHlo.TRef sig ⟨S_, .i32⟩) (.of main_call3_v3 : StableHlo.TRef sig ⟨S_, .i32⟩) signi,
    StableHlo.TRef.unary (.of main_call3_v3 : StableHlo.TRef sig ⟨S_, .i32⟩) (.of main_call3_v4 : StableHlo.TRef sig ⟨S16777216, .i32⟩) (broadcastInDim S16777216 ![] bcast_S_S16777216),
    StableHlo.TRef.binary (.of main_call3_v2 : StableHlo.TRef sig ⟨S16777216, .i32⟩) (.of main_call3_v4 : StableHlo.TRef sig ⟨S16777216, .i32⟩) (.of main_call3_v5 : StableHlo.TRef sig ⟨S16777216, .i1⟩) (cmpi .ne),
    StableHlo.TRef.unary (.of main_c_5 : StableHlo.TRef sig ⟨S_, .i32⟩) (.of main_call3_v6 : StableHlo.TRef sig ⟨S16777216, .i32⟩) (broadcastInDim S16777216 ![] bcast_S_S16777216),
    StableHlo.TRef.binary (.of main_v22 : StableHlo.TRef sig ⟨S16777216, .i32⟩) (.of main_call3_v6 : StableHlo.TRef sig ⟨S16777216, .i32⟩) (.of main_call3_v7 : StableHlo.TRef sig ⟨S16777216, .i32⟩) Host.remsi,
    StableHlo.TRef.nullary (.of main_call3_c : StableHlo.TRef sig ⟨S_, .i32⟩) (constantI S_ 32 0#32),
    StableHlo.TRef.unary (.of main_call3_c : StableHlo.TRef sig ⟨S_, .i32⟩) (.of main_call3_v8 : StableHlo.TRef sig ⟨S16777216, .i32⟩) (broadcastInDim S16777216 ![] bcast_S_S16777216),
    StableHlo.TRef.binary (.of main_call3_v7 : StableHlo.TRef sig ⟨S16777216, .i32⟩) (.of main_call3_v8 : StableHlo.TRef sig ⟨S16777216, .i32⟩) (.of main_call3_v9 : StableHlo.TRef sig ⟨S16777216, .i1⟩) (cmpi .ne),
    StableHlo.TRef.binary (.of main_call3_v5 : StableHlo.TRef sig ⟨S16777216, .i1⟩) (.of main_call3_v9 : StableHlo.TRef sig ⟨S16777216, .i1⟩) (.of main_call3_v10 : StableHlo.TRef sig ⟨S16777216, .i1⟩) andi,
    StableHlo.TRef.nullary (.of main_call3_c_0 : StableHlo.TRef sig ⟨S_, .i32⟩) (constantI S_ 32 1#32),
    StableHlo.TRef.unary (.of main_call3_c_0 : StableHlo.TRef sig ⟨S_, .i32⟩) (.of main_call3_v11 : StableHlo.TRef sig ⟨S16777216, .i32⟩) (broadcastInDim S16777216 ![] bcast_S_S16777216),
    StableHlo.TRef.binary (.of main_call3_v1 : StableHlo.TRef sig ⟨S16777216, .i32⟩) (.of main_call3_v11 : StableHlo.TRef sig ⟨S16777216, .i32⟩) (.of main_call3_v12 : StableHlo.TRef sig ⟨S16777216, .i32⟩) subi,
    StableHlo.TRef.ternary (.of main_call3_v10 : StableHlo.TRef sig ⟨S16777216, .i1⟩) (.of main_call3_v12 : StableHlo.TRef sig ⟨S16777216, .i32⟩) (.of main_call3_v1 : StableHlo.TRef sig ⟨S16777216, .i32⟩) (.of main_v23 : StableHlo.TRef sig ⟨S16777216, .i32⟩) select ]
/-- Each operation of stretch 7 touches TensorCore references only. -/
theorem rOps7_sub : (rOps7 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- No operation of stretch 7 allocates: each determines its results. -/
theorem rOps7_fresh : (rOps7 : List (HloOp τ sig (Elt F))).Forall fun op => op.fresh = ∅ :=
  ⟨rfl, rfl, rfl, rfl, rfl, rfl, rfl, rfl, rfl, rfl, rfl, rfl, rfl, rfl, rfl, rfl⟩

/-- Stretch 8, 1 operation: @main's %c_6. -/
abbrev rOps8 : List (HloOp τ sig (Elt F)) :=
  [ StableHlo.nullary main_c_6 (constantI S_ 32 16777216#32) ]
/-- Each operation of stretch 8 touches TensorCore references only. -/
theorem rOps8_sub : (rOps8 : List (HloOp τ sig (Elt F))).Forall fun op => op.bufs ⊆ StableHlo.tcRefs τ sig :=
  StableHlo.nullary_bufs_sub ..
/-- No operation of stretch 8 allocates: each determines its results. -/
theorem rOps8_fresh : (rOps8 : List (HloOp τ sig (Elt F))).Forall fun op => op.fresh = ∅ :=
  rfl

/-- Stretch 9, 21 operations: @remainder inlined at %24 (record main_call4). -/
abbrev rOps9 : List (HloOp τ sig (Elt F)) :=
  [ StableHlo.TRef.unary (.of main_c_6 : StableHlo.TRef sig ⟨S_, .i32⟩) (.of main_call4_v0 : StableHlo.TRef sig ⟨S_, .i32⟩) id,
    StableHlo.TRef.nullary (.of main_call4_c : StableHlo.TRef sig ⟨S_, .i32⟩) (constantI S_ 32 0#32),
    StableHlo.TRef.binary (.of main_call4_v0 : StableHlo.TRef sig ⟨S_, .i32⟩) (.of main_call4_c : StableHlo.TRef sig ⟨S_, .i32⟩) (.of main_call4_v1 : StableHlo.TRef sig ⟨S_, .i1⟩) (cmpi .eq),
    StableHlo.TRef.nullary (.of main_call4_c_0 : StableHlo.TRef sig ⟨S_, .i32⟩) (constantI S_ 32 1#32),
    StableHlo.TRef.ternary (.of main_call4_v1 : StableHlo.TRef sig ⟨S_, .i1⟩) (.of main_call4_c_0 : StableHlo.TRef sig ⟨S_, .i32⟩) (.of main_call4_v0 : StableHlo.TRef sig ⟨S_, .i32⟩) (.of main_call4_v2 : StableHlo.TRef sig ⟨S_, .i32⟩) select,
    StableHlo.TRef.unary main_call4_call0.v0 (.of main_call4_v3 : StableHlo.TRef sig ⟨S16777216, .i32⟩) (broadcastInDim S16777216 ![] bcast_S_S16777216),
    StableHlo.TRef.binary (.of main_v23 : StableHlo.TRef sig ⟨S16777216, .i32⟩) (.of main_call4_v3 : StableHlo.TRef sig ⟨S16777216, .i32⟩) (.of main_call4_v4 : StableHlo.TRef sig ⟨S16777216, .i32⟩) Host.remsi,
    StableHlo.TRef.nullary (.of main_call4_c_1 : StableHlo.TRef sig ⟨S_, .i32⟩) (constantI S_ 32 0#32),
    StableHlo.TRef.unary (.of main_call4_c_1 : StableHlo.TRef sig ⟨S_, .i32⟩) (.of main_call4_v5 : StableHlo.TRef sig ⟨S16777216, .i32⟩) (broadcastInDim S16777216 ![] bcast_S_S16777216),
    StableHlo.TRef.binary (.of main_call4_v4 : StableHlo.TRef sig ⟨S16777216, .i32⟩) (.of main_call4_v5 : StableHlo.TRef sig ⟨S16777216, .i32⟩) (.of main_call4_v6 : StableHlo.TRef sig ⟨S16777216, .i1⟩) (cmpi .ne),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v7 : StableHlo.TRef sig ⟨S16777216, .i32⟩) (broadcastInDim S16777216 ![] bcast_S_S16777216),
    StableHlo.TRef.binary (.of main_call4_v4 : StableHlo.TRef sig ⟨S16777216, .i32⟩) (.of main_call4_v7 : StableHlo.TRef sig ⟨S16777216, .i32⟩) (.of main_call4_v8 : StableHlo.TRef sig ⟨S16777216, .i1⟩) (cmpi .slt),
    StableHlo.TRef.nullary (.of main_call4_c_3 : StableHlo.TRef sig ⟨S_, .i32⟩) (constantI S_ 32 0#32),
    StableHlo.TRef.binary main_call4_call0.v0 (.of main_call4_c_3 : StableHlo.TRef sig ⟨S_, .i32⟩) (.of main_call4_v9 : StableHlo.TRef sig ⟨S_, .i1⟩) (cmpi .slt),
    StableHlo.TRef.unary (.of main_call4_v9 : StableHlo.TRef sig ⟨S_, .i1⟩) (.of main_call4_v10 : StableHlo.TRef sig ⟨S16777216, .i1⟩) (broadcastInDim S16777216 ![] bcast_S_S16777216),
    StableHlo.TRef.binary (.of main_call4_v8 : StableHlo.TRef sig ⟨S16777216, .i1⟩) (.of main_call4_v10 : StableHlo.TRef sig ⟨S16777216, .i1⟩) (.of main_call4_v11 : StableHlo.TRef sig ⟨S16777216, .i1⟩) (cmpi .ne),
    StableHlo.TRef.binary (.of main_call4_v11 : StableHlo.TRef sig ⟨S16777216, .i1⟩) (.of main_call4_v6 : StableHlo.TRef sig ⟨S16777216, .i1⟩) (.of main_call4_v12 : StableHlo.TRef sig ⟨S16777216, .i1⟩) andi,
    StableHlo.TRef.unary main_call4_call0.v0 (.of main_call4_v13 : StableHlo.TRef sig ⟨S16777216, .i32⟩) (broadcastInDim S16777216 ![] bcast_S_S16777216),
    StableHlo.TRef.binary (.of main_call4_v4 : StableHlo.TRef sig ⟨S16777216, .i32⟩) (.of main_call4_v13 : StableHlo.TRef sig ⟨S16777216, .i32⟩) (.of main_call4_v14 : StableHlo.TRef sig ⟨S16777216, .i32⟩) addi,
    StableHlo.TRef.ternary (.of main_call4_v12 : StableHlo.TRef sig ⟨S16777216, .i1⟩) (.of main_call4_v14 : StableHlo.TRef sig ⟨S16777216, .i32⟩) (.of main_call4_v4 : StableHlo.TRef sig ⟨S16777216, .i32⟩) (.of main_v24 : StableHlo.TRef sig ⟨S16777216, .i32⟩) select ]
/-- Each operation of stretch 9 touches TensorCore references only. -/
theorem rOps9_sub : (rOps9 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- No operation of stretch 9 allocates: each determines its results. -/
theorem rOps9_fresh : (rOps9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- Stretch 10, 7 operations: @main's %25 … %29 and %c_7, %c_8. -/
abbrev rOps10 : List (HloOp τ sig (Elt F)) :=
  [ StableHlo.nullary main_v25 (iotaInDim S16777216 32 0),
    StableHlo.unary main_v10 main_v26 ((extui 32 · natLt_1_32) : (⟨S16777216, .i1⟩ : BufTy).Contents (Elt F) → (⟨S16777216, .i32⟩ : BufTy).Contents (Elt F)),
    StableHlo.nullary main_c_7 (constantI S_ 32 0#32),
    StableHlo.binary main_v26 main_c_7 main_v27 ((fun x v => Host.reduce IntOp.addi x v reducesTo_S16777216_S_d0 h_S_) : (⟨S16777216, .i32⟩ : BufTy).Contents (Elt F) → (⟨S_, .i32⟩ : BufTy).Contents (Elt F) → (⟨S_, .i32⟩ : BufTy).Contents (Elt F)),
    StableHlo.unary main_v27 main_v28 (broadcastInDim S16777216 ![] bcast_S_S16777216 : (⟨S_, .i32⟩ : BufTy).Contents (Elt F) → (⟨S16777216, .i32⟩ : BufTy).Contents (Elt F)),
    StableHlo.binary main_v25 main_v28 main_v29 (cmpi .sge : (⟨S16777216, .i32⟩ : BufTy).Contents (Elt F) → (⟨S16777216, .i32⟩ : BufTy).Contents (Elt F) → (⟨S16777216, .i1⟩ : BufTy).Contents (Elt F)),
    StableHlo.nullary main_c_8 (constantI S_ 32 0#32) ]
/-- Each operation of stretch 10 touches TensorCore references only. -/
theorem rOps10_sub : (rOps10 : List (HloOp τ sig (Elt F))).Forall fun op => op.bufs ⊆ StableHlo.tcRefs τ sig :=
  ⟨StableHlo.nullary_bufs_sub .., StableHlo.unary_bufs_sub .., StableHlo.nullary_bufs_sub .., StableHlo.binary_bufs_sub .., StableHlo.unary_bufs_sub .., StableHlo.binary_bufs_sub .., StableHlo.nullary_bufs_sub ..⟩
/-- No operation of stretch 10 allocates: each determines its results. -/
theorem rOps10_fresh : (rOps10 : List (HloOp τ sig (Elt F))).Forall fun op => op.fresh = ∅ :=
  ⟨rfl, rfl, rfl, rfl, rfl, rfl, rfl⟩

/-- Stretch 11, 3 operations: @_where_3 inlined at %30 (record main_call5). -/
abbrev rOps11 : List (HloOp τ sig (Elt F)) :=
  [ StableHlo.TRef.unary (.of main_c_8 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S16777216, .i32⟩) (broadcastInDim S16777216 ![] bcast_S_S16777216),
    StableHlo.TRef.ternary (.of main_v29 : StableHlo.TRef sig ⟨S16777216, .i1⟩) (.of main_call5_v1 : StableHlo.TRef sig ⟨S16777216, .i32⟩) (.of main_v24 : StableHlo.TRef sig ⟨S16777216, .i32⟩) (.of main_v30 : StableHlo.TRef sig ⟨S16777216, .i32⟩) select ]
/-- Each operation of stretch 11 touches TensorCore references only. -/
theorem rOps11_sub : (rOps11 : List (HloOp τ sig (Elt F))).Forall fun op => op.bufs ⊆ StableHlo.tcRefs τ sig :=
  ⟨StableHlo.unary_bufs_sub .., StableHlo.unary_bufs_sub .., StableHlo.ternary_bufs_sub ..⟩
/-- No operation of stretch 11 allocates: each determines its results. -/
theorem rOps11_fresh : (rOps11 : List (HloOp τ sig (Elt F))).Forall fun op => op.fresh = ∅ :=
  ⟨rfl, rfl, rfl⟩

/-- Stretch 12, 1 operation: @main's %c_9. -/
abbrev rOps12 : List (HloOp τ sig (Elt F)) :=
  [ StableHlo.nullary main_c_9 (constantI S_ 32 2097152#32) ]
/-- Each operation of stretch 12 touches TensorCore references only. -/
theorem rOps12_sub : (rOps12 : List (HloOp τ sig (Elt F))).Forall fun op => op.bufs ⊆ StableHlo.tcRefs τ sig :=
  StableHlo.nullary_bufs_sub ..
/-- No operation of stretch 12 allocates: each determines its results. -/
theorem rOps12_fresh : (rOps12 : List (HloOp τ sig (Elt F))).Forall fun op => op.fresh = ∅ :=
  rfl

/-- Stretch 13, 17 operations: @floor_divide_4 inlined at %31 (record main_call6). -/
abbrev rOps13 : List (HloOp τ sig (Elt F)) :=
  [ StableHlo.TRef.unary (.of main_c_9 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S16777216, .i32⟩) (broadcastInDim S16777216 ![] bcast_S_S16777216),
    StableHlo.TRef.binary (.of main_v30 : StableHlo.TRef sig ⟨S16777216, .i32⟩) (.of main_call6_v1 : StableHlo.TRef sig ⟨S16777216, .i32⟩) (.of main_call6_v2 : StableHlo.TRef sig ⟨S16777216, .i32⟩) Host.divsi,
    StableHlo.TRef.unary (.of main_v30 : StableHlo.TRef sig ⟨S16777216, .i32⟩) (.of main_call6_v3 : StableHlo.TRef sig ⟨S16777216, .i32⟩) signi,
    StableHlo.TRef.unary (.of main_call6_v0 : StableHlo.TRef sig ⟨S_, .i32⟩) (.of main_call6_v4 : StableHlo.TRef sig ⟨S_, .i32⟩) signi,
    StableHlo.TRef.unary (.of main_call6_v4 : StableHlo.TRef sig ⟨S_, .i32⟩) (.of main_call6_v5 : StableHlo.TRef sig ⟨S16777216, .i32⟩) (broadcastInDim S16777216 ![] bcast_S_S16777216),
    StableHlo.TRef.binary (.of main_call6_v3 : StableHlo.TRef sig ⟨S16777216, .i32⟩) (.of main_call6_v5 : StableHlo.TRef sig ⟨S16777216, .i32⟩) (.of main_call6_v6 : StableHlo.TRef sig ⟨S16777216, .i1⟩) (cmpi .ne),
    StableHlo.TRef.unary (.of main_call6_v0 : StableHlo.TRef sig ⟨S_, .i32⟩) (.of main_call6_v7 : StableHlo.TRef sig ⟨S16777216, .i32⟩) (broadcastInDim S16777216 ![] bcast_S_S16777216),
    StableHlo.TRef.binary (.of main_v30 : StableHlo.TRef sig ⟨S16777216, .i32⟩) (.of main_call6_v7 : StableHlo.TRef sig ⟨S16777216, .i32⟩) (.of main_call6_v8 : StableHlo.TRef sig ⟨S16777216, .i32⟩) Host.remsi,
    StableHlo.TRef.nullary (.of main_call6_c : StableHlo.TRef sig ⟨S_, .i32⟩) (constantI S_ 32 0#32),
    StableHlo.TRef.unary (.of main_call6_c : StableHlo.TRef sig ⟨S_, .i32⟩) (.of main_call6_v9 : StableHlo.TRef sig ⟨S16777216, .i32⟩) (broadcastInDim S16777216 ![] bcast_S_S16777216),
    StableHlo.TRef.binary (.of main_call6_v8 : StableHlo.TRef sig ⟨S16777216, .i32⟩) (.of main_call6_v9 : StableHlo.TRef sig ⟨S16777216, .i32⟩) (.of main_call6_v10 : StableHlo.TRef sig ⟨S16777216, .i1⟩) (cmpi .ne),
    StableHlo.TRef.binary (.of main_call6_v6 : StableHlo.TRef sig ⟨S16777216, .i1⟩) (.of main_call6_v10 : StableHlo.TRef sig ⟨S16777216, .i1⟩) (.of main_call6_v11 : StableHlo.TRef sig ⟨S16777216, .i1⟩) andi,
    StableHlo.TRef.nullary (.of main_call6_c_0 : StableHlo.TRef sig ⟨S_, .i32⟩) (constantI S_ 32 1#32),
    StableHlo.TRef.unary (.of main_call6_c_0 : StableHlo.TRef sig ⟨S_, .i32⟩) (.of main_call6_v12 : StableHlo.TRef sig ⟨S16777216, .i32⟩) (broadcastInDim S16777216 ![] bcast_S_S16777216),
    StableHlo.TRef.binary (.of main_call6_v2 : StableHlo.TRef sig ⟨S16777216, .i32⟩) (.of main_call6_v12 : StableHlo.TRef sig ⟨S16777216, .i32⟩) (.of main_call6_v13 : StableHlo.TRef sig ⟨S16777216, .i32⟩) subi,
    StableHlo.TRef.ternary (.of main_call6_v11 : StableHlo.TRef sig ⟨S16777216, .i1⟩) (.of main_call6_v13 : StableHlo.TRef sig ⟨S16777216, .i32⟩) (.of main_call6_v2 : StableHlo.TRef sig ⟨S16777216, .i32⟩) (.of main_v31 : StableHlo.TRef sig ⟨S16777216, .i32⟩) select ]
/-- Each operation of stretch 13 touches TensorCore references only. -/
theorem rOps13_sub : (rOps13 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- No operation of stretch 13 allocates: each determines its results. -/
theorem rOps13_fresh : (rOps13 : List (HloOp τ sig (Elt F))).Forall fun op => op.fresh = ∅ :=
  ⟨rfl, rfl, rfl, rfl, rfl, rfl, rfl, rfl, rfl, rfl, rfl, rfl, rfl, rfl, rfl, rfl, rfl⟩

/-- Stretch 14, 1 operation: @main's %c_10. -/
abbrev rOps14 : List (HloOp τ sig (Elt F)) :=
  [ StableHlo.nullary main_c_10 (constantI S_ 32 2097152#32) ]
/-- Each operation of stretch 14 touches TensorCore references only. -/
theorem rOps14_sub : (rOps14 : List (HloOp τ sig (Elt F))).Forall fun op => op.bufs ⊆ StableHlo.tcRefs τ sig :=
  StableHlo.nullary_bufs_sub ..
/-- No operation of stretch 14 allocates: each determines its results. -/
theorem rOps14_fresh : (rOps14 : List (HloOp τ sig (Elt F))).Forall fun op => op.fresh = ∅ :=
  rfl

/-- Stretch 15, 21 operations: @remainder inlined at %32 (record main_call7). -/
abbrev rOps15 : List (HloOp τ sig (Elt F)) :=
  [ StableHlo.TRef.unary (.of main_c_10 : StableHlo.TRef sig ⟨S_, .i32⟩) (.of main_call7_v0 : StableHlo.TRef sig ⟨S_, .i32⟩) id,
    StableHlo.TRef.nullary (.of main_call7_c : StableHlo.TRef sig ⟨S_, .i32⟩) (constantI S_ 32 0#32),
    StableHlo.TRef.binary (.of main_call7_v0 : StableHlo.TRef sig ⟨S_, .i32⟩) (.of main_call7_c : StableHlo.TRef sig ⟨S_, .i32⟩) (.of main_call7_v1 : StableHlo.TRef sig ⟨S_, .i1⟩) (cmpi .eq),
    StableHlo.TRef.nullary (.of main_call7_c_0 : StableHlo.TRef sig ⟨S_, .i32⟩) (constantI S_ 32 1#32),
    StableHlo.TRef.ternary (.of main_call7_v1 : StableHlo.TRef sig ⟨S_, .i1⟩) (.of main_call7_c_0 : StableHlo.TRef sig ⟨S_, .i32⟩) (.of main_call7_v0 : StableHlo.TRef sig ⟨S_, .i32⟩) (.of main_call7_v2 : StableHlo.TRef sig ⟨S_, .i32⟩) select,
    StableHlo.TRef.unary main_call7_call0.v0 (.of main_call7_v3 : StableHlo.TRef sig ⟨S16777216, .i32⟩) (broadcastInDim S16777216 ![] bcast_S_S16777216),
    StableHlo.TRef.binary (.of main_v30 : StableHlo.TRef sig ⟨S16777216, .i32⟩) (.of main_call7_v3 : StableHlo.TRef sig ⟨S16777216, .i32⟩) (.of main_call7_v4 : StableHlo.TRef sig ⟨S16777216, .i32⟩) Host.remsi,
    StableHlo.TRef.nullary (.of main_call7_c_1 : StableHlo.TRef sig ⟨S_, .i32⟩) (constantI S_ 32 0#32),
    StableHlo.TRef.unary (.of main_call7_c_1 : StableHlo.TRef sig ⟨S_, .i32⟩) (.of main_call7_v5 : StableHlo.TRef sig ⟨S16777216, .i32⟩) (broadcastInDim S16777216 ![] bcast_S_S16777216),
    StableHlo.TRef.binary (.of main_call7_v4 : StableHlo.TRef sig ⟨S16777216, .i32⟩) (.of main_call7_v5 : StableHlo.TRef sig ⟨S16777216, .i32⟩) (.of main_call7_v6 : StableHlo.TRef sig ⟨S16777216, .i1⟩) (cmpi .ne),
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v7 : StableHlo.TRef sig ⟨S16777216, .i32⟩) (broadcastInDim S16777216 ![] bcast_S_S16777216),
    StableHlo.TRef.binary (.of main_call7_v4 : StableHlo.TRef sig ⟨S16777216, .i32⟩) (.of main_call7_v7 : StableHlo.TRef sig ⟨S16777216, .i32⟩) (.of main_call7_v8 : StableHlo.TRef sig ⟨S16777216, .i1⟩) (cmpi .slt),
    StableHlo.TRef.nullary (.of main_call7_c_3 : StableHlo.TRef sig ⟨S_, .i32⟩) (constantI S_ 32 0#32),
    StableHlo.TRef.binary main_call7_call0.v0 (.of main_call7_c_3 : StableHlo.TRef sig ⟨S_, .i32⟩) (.of main_call7_v9 : StableHlo.TRef sig ⟨S_, .i1⟩) (cmpi .slt),
    StableHlo.TRef.unary (.of main_call7_v9 : StableHlo.TRef sig ⟨S_, .i1⟩) (.of main_call7_v10 : StableHlo.TRef sig ⟨S16777216, .i1⟩) (broadcastInDim S16777216 ![] bcast_S_S16777216),
    StableHlo.TRef.binary (.of main_call7_v8 : StableHlo.TRef sig ⟨S16777216, .i1⟩) (.of main_call7_v10 : StableHlo.TRef sig ⟨S16777216, .i1⟩) (.of main_call7_v11 : StableHlo.TRef sig ⟨S16777216, .i1⟩) (cmpi .ne),
    StableHlo.TRef.binary (.of main_call7_v11 : StableHlo.TRef sig ⟨S16777216, .i1⟩) (.of main_call7_v6 : StableHlo.TRef sig ⟨S16777216, .i1⟩) (.of main_call7_v12 : StableHlo.TRef sig ⟨S16777216, .i1⟩) andi,
    StableHlo.TRef.unary main_call7_call0.v0 (.of main_call7_v13 : StableHlo.TRef sig ⟨S16777216, .i32⟩) (broadcastInDim S16777216 ![] bcast_S_S16777216),
    StableHlo.TRef.binary (.of main_call7_v4 : StableHlo.TRef sig ⟨S16777216, .i32⟩) (.of main_call7_v13 : StableHlo.TRef sig ⟨S16777216, .i32⟩) (.of main_call7_v14 : StableHlo.TRef sig ⟨S16777216, .i32⟩) addi,
    StableHlo.TRef.ternary (.of main_call7_v12 : StableHlo.TRef sig ⟨S16777216, .i1⟩) (.of main_call7_v14 : StableHlo.TRef sig ⟨S16777216, .i32⟩) (.of main_call7_v4 : StableHlo.TRef sig ⟨S16777216, .i32⟩) (.of main_v32 : StableHlo.TRef sig ⟨S16777216, .i32⟩) select ]
/-- Each operation of stretch 15 touches TensorCore references only. -/
theorem rOps15_sub : (rOps15 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- No operation of stretch 15 allocates: each determines its results. -/
theorem rOps15_fresh : (rOps15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- Stretch 16, 4 operations: @main's %c_11, %33, %34, %c_12. -/
abbrev rOps16 : List (HloOp τ sig (Elt F)) :=
  [ StableHlo.nullary main_c_11 (constantI S_ 32 1024#32),
    StableHlo.unary main_c_11 main_v33 (broadcastInDim S16777216 ![] bcast_S_S16777216 : (⟨S_, .i32⟩ : BufTy).Contents (Elt F) → (⟨S16777216, .i32⟩ : BufTy).Contents (Elt F)),
    StableHlo.binary main_v31 main_v33 main_v34 (muli : (⟨S16777216, .i32⟩ : BufTy).Contents (Elt F) → (⟨S16777216, .i32⟩ : BufTy).Contents (Elt F) → (⟨S16777216, .i32⟩ : BufTy).Contents (Elt F)),
    StableHlo.nullary main_c_12 (constantI S_ 32 2048#32) ]
/-- Each operation of stretch 16 touches TensorCore references only. -/
theorem rOps16_sub : (rOps16 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- No operation of stretch 16 allocates: each determines its results. -/
theorem rOps16_fresh : (rOps16 : List (HloOp τ sig (Elt F))).Forall fun op => op.fresh = ∅ :=
  ⟨rfl, rfl, rfl, rfl⟩

/-- Stretch 17, 17 operations: @floor_divide_4 inlined at %35 (record main_call8). -/
abbrev rOps17 : List (HloOp τ sig (Elt F)) :=
  [ StableHlo.TRef.unary (.of main_c_12 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S16777216, .i32⟩) (broadcastInDim S16777216 ![] bcast_S_S16777216),
    StableHlo.TRef.binary (.of main_v32 : StableHlo.TRef sig ⟨S16777216, .i32⟩) (.of main_call8_v1 : StableHlo.TRef sig ⟨S16777216, .i32⟩) (.of main_call8_v2 : StableHlo.TRef sig ⟨S16777216, .i32⟩) Host.divsi,
    StableHlo.TRef.unary (.of main_v32 : StableHlo.TRef sig ⟨S16777216, .i32⟩) (.of main_call8_v3 : StableHlo.TRef sig ⟨S16777216, .i32⟩) signi,
    StableHlo.TRef.unary (.of main_call8_v0 : StableHlo.TRef sig ⟨S_, .i32⟩) (.of main_call8_v4 : StableHlo.TRef sig ⟨S_, .i32⟩) signi,
    StableHlo.TRef.unary (.of main_call8_v4 : StableHlo.TRef sig ⟨S_, .i32⟩) (.of main_call8_v5 : StableHlo.TRef sig ⟨S16777216, .i32⟩) (broadcastInDim S16777216 ![] bcast_S_S16777216),
    StableHlo.TRef.binary (.of main_call8_v3 : StableHlo.TRef sig ⟨S16777216, .i32⟩) (.of main_call8_v5 : StableHlo.TRef sig ⟨S16777216, .i32⟩) (.of main_call8_v6 : StableHlo.TRef sig ⟨S16777216, .i1⟩) (cmpi .ne),
    StableHlo.TRef.unary (.of main_call8_v0 : StableHlo.TRef sig ⟨S_, .i32⟩) (.of main_call8_v7 : StableHlo.TRef sig ⟨S16777216, .i32⟩) (broadcastInDim S16777216 ![] bcast_S_S16777216),
    StableHlo.TRef.binary (.of main_v32 : StableHlo.TRef sig ⟨S16777216, .i32⟩) (.of main_call8_v7 : StableHlo.TRef sig ⟨S16777216, .i32⟩) (.of main_call8_v8 : StableHlo.TRef sig ⟨S16777216, .i32⟩) Host.remsi,
    StableHlo.TRef.nullary (.of main_call8_c : StableHlo.TRef sig ⟨S_, .i32⟩) (constantI S_ 32 0#32),
    StableHlo.TRef.unary (.of main_call8_c : StableHlo.TRef sig ⟨S_, .i32⟩) (.of main_call8_v9 : StableHlo.TRef sig ⟨S16777216, .i32⟩) (broadcastInDim S16777216 ![] bcast_S_S16777216),
    StableHlo.TRef.binary (.of main_call8_v8 : StableHlo.TRef sig ⟨S16777216, .i32⟩) (.of main_call8_v9 : StableHlo.TRef sig ⟨S16777216, .i32⟩) (.of main_call8_v10 : StableHlo.TRef sig ⟨S16777216, .i1⟩) (cmpi .ne),
    StableHlo.TRef.binary (.of main_call8_v6 : StableHlo.TRef sig ⟨S16777216, .i1⟩) (.of main_call8_v10 : StableHlo.TRef sig ⟨S16777216, .i1⟩) (.of main_call8_v11 : StableHlo.TRef sig ⟨S16777216, .i1⟩) andi,
    StableHlo.TRef.nullary (.of main_call8_c_0 : StableHlo.TRef sig ⟨S_, .i32⟩) (constantI S_ 32 1#32),
    StableHlo.TRef.unary (.of main_call8_c_0 : StableHlo.TRef sig ⟨S_, .i32⟩) (.of main_call8_v12 : StableHlo.TRef sig ⟨S16777216, .i32⟩) (broadcastInDim S16777216 ![] bcast_S_S16777216),
    StableHlo.TRef.binary (.of main_call8_v2 : StableHlo.TRef sig ⟨S16777216, .i32⟩) (.of main_call8_v12 : StableHlo.TRef sig ⟨S16777216, .i32⟩) (.of main_call8_v13 : StableHlo.TRef sig ⟨S16777216, .i32⟩) subi,
    StableHlo.TRef.ternary (.of main_call8_v11 : StableHlo.TRef sig ⟨S16777216, .i1⟩) (.of main_call8_v13 : StableHlo.TRef sig ⟨S16777216, .i32⟩) (.of main_call8_v2 : StableHlo.TRef sig ⟨S16777216, .i32⟩) (.of main_v35 : StableHlo.TRef sig ⟨S16777216, .i32⟩) select ]
/-- Each operation of stretch 17 touches TensorCore references only. -/
theorem rOps17_sub : (rOps17 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- No operation of stretch 17 allocates: each determines its results. -/
theorem rOps17_fresh : (rOps17 : List (HloOp τ sig (Elt F))).Forall fun op => op.fresh = ∅ :=
  ⟨rfl, rfl, rfl, rfl, rfl, rfl, rfl, rfl, rfl, rfl, rfl, rfl, rfl, rfl, rfl, rfl, rfl⟩

/-- Stretch 18, 5 operations: @main's %36, %c_13, %37, %38, %c_14. -/
abbrev rOps18 : List (HloOp τ sig (Elt F)) :=
  [ StableHlo.binary main_v34 main_v35 main_v36 (addi : (⟨S16777216, .i32⟩ : BufTy).Contents (Elt F) → (⟨S16777216, .i32⟩ : BufTy).Contents (Elt F) → (⟨S16777216, .i32⟩ : BufTy).Contents (Elt F)),
    StableHlo.nullary main_c_13 (constantI S_ 32 2048#32),
    StableHlo.unary main_c_13 main_v37 (broadcastInDim S16777216 ![] bcast_S_S16777216 : (⟨S_, .i32⟩ : BufTy).Contents (Elt F) → (⟨S16777216, .i32⟩ : BufTy).Contents (Elt F)),
    StableHlo.binary main_v31 main_v37 main_v38 (muli : (⟨S16777216, .i32⟩ : BufTy).Contents (Elt F) → (⟨S16777216, .i32⟩ : BufTy).Contents (Elt F) → (⟨S16777216, .i32⟩ : BufTy).Contents (Elt F)),
    StableHlo.nullary main_c_14 (constantI S_ 32 2048#32) ]
/-- Each operation of stretch 18 touches TensorCore references only. -/
theorem rOps18_sub : (rOps18 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub ..⟩
/-- No operation of stretch 18 allocates: each determines its results. -/
theorem rOps18_fresh : (rOps18 : List (HloOp τ sig (Elt F))).Forall fun op => op.fresh = ∅ :=
  ⟨rfl, rfl, rfl, rfl, rfl⟩

/-- Stretch 19, 21 operations: @remainder inlined at %39 (record main_call9). -/
abbrev rOps19 : List (HloOp τ sig (Elt F)) :=
  [ StableHlo.TRef.unary (.of main_c_14 : StableHlo.TRef sig ⟨S_, .i32⟩) (.of main_call9_v0 : StableHlo.TRef sig ⟨S_, .i32⟩) id,
    StableHlo.TRef.nullary (.of main_call9_c : StableHlo.TRef sig ⟨S_, .i32⟩) (constantI S_ 32 0#32),
    StableHlo.TRef.binary (.of main_call9_v0 : StableHlo.TRef sig ⟨S_, .i32⟩) (.of main_call9_c : StableHlo.TRef sig ⟨S_, .i32⟩) (.of main_call9_v1 : StableHlo.TRef sig ⟨S_, .i1⟩) (cmpi .eq),
    StableHlo.TRef.nullary (.of main_call9_c_0 : StableHlo.TRef sig ⟨S_, .i32⟩) (constantI S_ 32 1#32),
    StableHlo.TRef.ternary (.of main_call9_v1 : StableHlo.TRef sig ⟨S_, .i1⟩) (.of main_call9_c_0 : StableHlo.TRef sig ⟨S_, .i32⟩) (.of main_call9_v0 : StableHlo.TRef sig ⟨S_, .i32⟩) (.of main_call9_v2 : StableHlo.TRef sig ⟨S_, .i32⟩) select,
    StableHlo.TRef.unary main_call9_call0.v0 (.of main_call9_v3 : StableHlo.TRef sig ⟨S16777216, .i32⟩) (broadcastInDim S16777216 ![] bcast_S_S16777216),
    StableHlo.TRef.binary (.of main_v32 : StableHlo.TRef sig ⟨S16777216, .i32⟩) (.of main_call9_v3 : StableHlo.TRef sig ⟨S16777216, .i32⟩) (.of main_call9_v4 : StableHlo.TRef sig ⟨S16777216, .i32⟩) Host.remsi,
    StableHlo.TRef.nullary (.of main_call9_c_1 : StableHlo.TRef sig ⟨S_, .i32⟩) (constantI S_ 32 0#32),
    StableHlo.TRef.unary (.of main_call9_c_1 : StableHlo.TRef sig ⟨S_, .i32⟩) (.of main_call9_v5 : StableHlo.TRef sig ⟨S16777216, .i32⟩) (broadcastInDim S16777216 ![] bcast_S_S16777216),
    StableHlo.TRef.binary (.of main_call9_v4 : StableHlo.TRef sig ⟨S16777216, .i32⟩) (.of main_call9_v5 : StableHlo.TRef sig ⟨S16777216, .i32⟩) (.of main_call9_v6 : StableHlo.TRef sig ⟨S16777216, .i1⟩) (cmpi .ne),
    StableHlo.TRef.nullary (.of main_call9_c_2 : StableHlo.TRef sig ⟨S_, .i32⟩) (constantI S_ 32 0#32),
    StableHlo.TRef.unary (.of main_call9_c_2 : StableHlo.TRef sig ⟨S_, .i32⟩) (.of main_call9_v7 : StableHlo.TRef sig ⟨S16777216, .i32⟩) (broadcastInDim S16777216 ![] bcast_S_S16777216),
    StableHlo.TRef.binary (.of main_call9_v4 : StableHlo.TRef sig ⟨S16777216, .i32⟩) (.of main_call9_v7 : StableHlo.TRef sig ⟨S16777216, .i32⟩) (.of main_call9_v8 : StableHlo.TRef sig ⟨S16777216, .i1⟩) (cmpi .slt),
    StableHlo.TRef.nullary (.of main_call9_c_3 : StableHlo.TRef sig ⟨S_, .i32⟩) (constantI S_ 32 0#32),
    StableHlo.TRef.binary main_call9_call0.v0 (.of main_call9_c_3 : StableHlo.TRef sig ⟨S_, .i32⟩) (.of main_call9_v9 : StableHlo.TRef sig ⟨S_, .i1⟩) (cmpi .slt),
    StableHlo.TRef.unary (.of main_call9_v9 : StableHlo.TRef sig ⟨S_, .i1⟩) (.of main_call9_v10 : StableHlo.TRef sig ⟨S16777216, .i1⟩) (broadcastInDim S16777216 ![] bcast_S_S16777216),
    StableHlo.TRef.binary (.of main_call9_v8 : StableHlo.TRef sig ⟨S16777216, .i1⟩) (.of main_call9_v10 : StableHlo.TRef sig ⟨S16777216, .i1⟩) (.of main_call9_v11 : StableHlo.TRef sig ⟨S16777216, .i1⟩) (cmpi .ne),
    StableHlo.TRef.binary (.of main_call9_v11 : StableHlo.TRef sig ⟨S16777216, .i1⟩) (.of main_call9_v6 : StableHlo.TRef sig ⟨S16777216, .i1⟩) (.of main_call9_v12 : StableHlo.TRef sig ⟨S16777216, .i1⟩) andi,
    StableHlo.TRef.unary main_call9_call0.v0 (.of main_call9_v13 : StableHlo.TRef sig ⟨S16777216, .i32⟩) (broadcastInDim S16777216 ![] bcast_S_S16777216),
    StableHlo.TRef.binary (.of main_call9_v4 : StableHlo.TRef sig ⟨S16777216, .i32⟩) (.of main_call9_v13 : StableHlo.TRef sig ⟨S16777216, .i32⟩) (.of main_call9_v14 : StableHlo.TRef sig ⟨S16777216, .i32⟩) addi,
    StableHlo.TRef.ternary (.of main_call9_v12 : StableHlo.TRef sig ⟨S16777216, .i1⟩) (.of main_call9_v14 : StableHlo.TRef sig ⟨S16777216, .i32⟩) (.of main_call9_v4 : StableHlo.TRef sig ⟨S16777216, .i32⟩) (.of main_v39 : StableHlo.TRef sig ⟨S16777216, .i32⟩) select ]
/-- Each operation of stretch 19 touches TensorCore references only. -/
theorem rOps19_sub : (rOps19 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- No operation of stretch 19 allocates: each determines its results. -/
theorem rOps19_fresh : (rOps19 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- Stretch 20, 28 operations: @main's %40 … %62: the last 28 operations. -/
abbrev rOps20 : List (HloOp τ sig (Elt F)) :=
  [ StableHlo.binary main_v38 main_v39 main_v40 (addi : (⟨S16777216, .i32⟩ : BufTy).Contents (Elt F) → (⟨S16777216, .i32⟩ : BufTy).Contents (Elt F) → (⟨S16777216, .i32⟩ : BufTy).Contents (Elt F)),
    StableHlo.reshape main_arg1 main_v41 rfl shapeCasts_S8x1024x2_S8192x2,
    StableHlo.reshape main_arg3 main_v42 rfl shapeCasts_S8x2048x2_S16384x2,
    StableHlo.nullary main_c_15 (constantI S_ 32 0#32),
    StableHlo.unary main_c_15 main_v43 (broadcastInDim S16777216 ![] bcast_S_S16777216 : (⟨S_, .i32⟩ : BufTy).Contents (Elt F) → (⟨S16777216, .i32⟩ : BufTy).Contents (Elt F)),
    StableHlo.binary main_v36 main_v43 main_v44 (cmpi .slt : (⟨S16777216, .i32⟩ : BufTy).Contents (Elt F) → (⟨S16777216, .i32⟩ : BufTy).Contents (Elt F) → (⟨S16777216, .i1⟩ : BufTy).Contents (Elt F)),
    StableHlo.nullary main_c_16 (constantI S_ 32 8192#32),
    StableHlo.unary main_c_16 main_v45 (broadcastInDim S16777216 ![] bcast_S_S16777216 : (⟨S_, .i32⟩ : BufTy).Contents (Elt F) → (⟨S16777216, .i32⟩ : BufTy).Contents (Elt F)),
    StableHlo.binary main_v36 main_v45 main_v46 (addi : (⟨S16777216, .i32⟩ : BufTy).Contents (Elt F) → (⟨S16777216, .i32⟩ : BufTy).Contents (Elt F) → (⟨S16777216, .i32⟩ : BufTy).Contents (Elt F)),
    StableHlo.ternary main_v44 main_v46 main_v36 main_v47 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v47 main_v48 (broadcastInDim S16777216x1 ![0] bcast_S16777216_S16777216x1_0 : (⟨S16777216, .i32⟩ : BufTy).Contents (Elt F) → (⟨S16777216x1, .i32⟩ : BufTy).Contents (Elt F)),
    StableHlo.binary main_v41 main_v48 main_v49 ((fun x i => Host.gather gather_S8192x2_S16777216x1_S16777216x2_1_0_n_n_0_1_12 x i) : (⟨S8192x2, .f32⟩ : BufTy).Contents (Elt F) → (⟨S16777216x1, .i32⟩ : BufTy).Contents (Elt F) → (⟨S16777216x2, .f32⟩ : BufTy).Contents (Elt F)),
    StableHlo.nullary main_c_17 (constantI S_ 32 0#32),
    StableHlo.unary main_c_17 main_v50 (broadcastInDim S16777216 ![] bcast_S_S16777216 : (⟨S_, .i32⟩ : BufTy).Contents (Elt F) → (⟨S16777216, .i32⟩ : BufTy).Contents (Elt F)),
    StableHlo.binary main_v40 main_v50 main_v51 (cmpi .slt : (⟨S16777216, .i32⟩ : BufTy).Contents (Elt F) → (⟨S16777216, .i32⟩ : BufTy).Contents (Elt F) → (⟨S16777216, .i1⟩ : BufTy).Contents (Elt F)),
    StableHlo.nullary main_c_18 (constantI S_ 32 16384#32),
    StableHlo.unary main_c_18 main_v52 (broadcastInDim S16777216 ![] bcast_S_S16777216 : (⟨S_, .i32⟩ : BufTy).Contents (Elt F) → (⟨S16777216, .i32⟩ : BufTy).Contents (Elt F)),
    StableHlo.binary main_v40 main_v52 main_v53 (addi : (⟨S16777216, .i32⟩ : BufTy).Contents (Elt F) → (⟨S16777216, .i32⟩ : BufTy).Contents (Elt F) → (⟨S16777216, .i32⟩ : BufTy).Contents (Elt F)),
    StableHlo.ternary main_v51 main_v53 main_v40 main_v54 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v54 main_v55 (broadcastInDim S16777216x1 ![0] bcast_S16777216_S16777216x1_0 : (⟨S16777216, .i32⟩ : BufTy).Contents (Elt F) → (⟨S16777216x1, .i32⟩ : BufTy).Contents (Elt F)),
    StableHlo.binary main_v42 main_v55 main_v56 ((fun x i => Host.gather gather_S16384x2_S16777216x1_S16777216x2_1_0_n_n_0_1_12 x i) : (⟨S16384x2, .f32⟩ : BufTy).Contents (Elt F) → (⟨S16777216x1, .i32⟩ : BufTy).Contents (Elt F) → (⟨S16777216x2, .f32⟩ : BufTy).Contents (Elt F)),
    StableHlo.binary main_v49 main_v56 main_v57 (subf : (⟨S16777216x2, .f32⟩ : BufTy).Contents (Elt F) → (⟨S16777216x2, .f32⟩ : BufTy).Contents (Elt F) → (⟨S16777216x2, .f32⟩ : BufTy).Contents (Elt F)),
    StableHlo.unary main_v10 main_v58 ((extui 32 · natLt_1_32) : (⟨S16777216, .i1⟩ : BufTy).Contents (Elt F) → (⟨S16777216, .i32⟩ : BufTy).Contents (Elt F)),
    StableHlo.nullary main_c_19 (constantI S_ 32 0#32),
    StableHlo.binary main_v58 main_c_19 main_v59 ((fun x v => Host.reduce IntOp.addi x v reducesTo_S16777216_S_d0 h_S_) : (⟨S16777216, .i32⟩ : BufTy).Contents (Elt F) → (⟨S_, .i32⟩ : BufTy).Contents (Elt F) → (⟨S_, .i32⟩ : BufTy).Contents (Elt F)),
    StableHlo.nullary main_v60 (iotaInDim S16777216 32 0),
    StableHlo.unary main_v59 main_v61 (broadcastInDim S16777216 ![] bcast_S_S16777216 : (⟨S_, .i32⟩ : BufTy).Contents (Elt F) → (⟨S16777216, .i32⟩ : BufTy).Contents (Elt F)),
    StableHlo.binary main_v60 main_v61 main_v62 (cmpi .slt : (⟨S16777216, .i32⟩ : BufTy).Contents (Elt F) → (⟨S16777216, .i32⟩ : BufTy).Contents (Elt F) → (⟨S16777216, .i1⟩ : BufTy).Contents (Elt F)) ]
/-- Each operation of stretch 20 touches TensorCore references only. -/
theorem rOps20_sub : (rOps20 : List (HloOp τ sig (Elt F))).Forall fun op => op.bufs ⊆ StableHlo.tcRefs τ sig :=
  ⟨StableHlo.binary_bufs_sub .., StableHlo.reshape_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.unary_bufs_sub .., StableHlo.binary_bufs_sub ..⟩
/-- No operation of stretch 20 allocates: each determines its results. -/
theorem rOps20_fresh : (rOps20 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

/-- @main's 201 operations, in order: the 21 stretches appended, nested to the right
    (`rOps0 ++ (rOps1 ++ (… ++ rOps20))`: the head of the list is then found in one step). -/
abbrev ops : List (HloOp τ sig (Elt F)) :=
  rOps0 ++ (rOps1 ++ (rOps2 ++ (rOps3 ++ (rOps4 ++ (rOps5 ++ (rOps6 ++ (rOps7 ++ (rOps8 ++ (rOps9 ++ (rOps10 ++ (rOps11 ++ (rOps12 ++ (rOps13 ++ (rOps14 ++ (rOps15 ++ (rOps16 ++ (rOps17 ++ (rOps18 ++ (rOps19 ++ (rOps20))))))))))))))))))))

/-- Each operation touches TensorCore references only. -/
theorem ops_sub : (ops : List (HloOp τ sig (Elt F))).Forall fun op => op.bufs ⊆ StableHlo.tcRefs τ sig := by
  show List.Forall _ (rOps0 ++ (rOps1 ++ (rOps2 ++ (rOps3 ++ (rOps4 ++ (rOps5 ++ (rOps6 ++ (rOps7 ++ (rOps8 ++ (rOps9 ++ (rOps10 ++ (rOps11 ++ (rOps12 ++ (rOps13 ++ (rOps14 ++ (rOps15 ++ (rOps16 ++ (rOps17 ++ (rOps18 ++ (rOps19 ++ (rOps20)))))))))))))))))))))
  simp only [List.forall_append]
  exact ⟨rOps0_sub, rOps1_sub, rOps2_sub, rOps3_sub, rOps4_sub, rOps5_sub, rOps6_sub, rOps7_sub, rOps8_sub, rOps9_sub, rOps10_sub, rOps11_sub, rOps12_sub, rOps13_sub, rOps14_sub, rOps15_sub, rOps16_sub, rOps17_sub, rOps18_sub, rOps19_sub, rOps20_sub⟩

/-- No operation allocates: each determines its results. -/
theorem ops_fresh : ∀ op ∈ (ops : List (HloOp τ sig (Elt F))), op.fresh = ∅ := by
  refine List.forall_iff_forall_mem.1 ?_
  show List.Forall _ (rOps0 ++ (rOps1 ++ (rOps2 ++ (rOps3 ++ (rOps4 ++ (rOps5 ++ (rOps6 ++ (rOps7 ++ (rOps8 ++ (rOps9 ++ (rOps10 ++ (rOps11 ++ (rOps12 ++ (rOps13 ++ (rOps14 ++ (rOps15 ++ (rOps16 ++ (rOps17 ++ (rOps18 ++ (rOps19 ++ (rOps20)))))))))))))))))))))
  simp only [List.forall_append]
  exact ⟨rOps0_fresh, rOps1_fresh, rOps2_fresh, rOps3_fresh, rOps4_fresh, rOps5_fresh, rOps6_fresh, rOps7_fresh, rOps8_fresh, rOps9_fresh, rOps10_fresh, rOps11_fresh, rOps12_fresh, rOps13_fresh, rOps14_fresh, rOps15_fresh, rOps16_fresh, rOps17_fresh, rOps18_fresh, rOps19_fresh, rOps20_fresh⟩

end Cert.ReferenceIdeal.RefRun

end
-- ==== Proof.RefRun.lean ====
/- The reference program's @main is the straight line `ops` of its 201 host operations (the module-local
   functions' definitions unfolded at their calls, the call records at their fields), and its run: every weakly
   fair execution terminates with each TensorCore buffer at the operations' fold over the launch contents. -/
import proofs.«142671_j52776558133736_1_alg».proof.Proof.RefOps

noncomputable section

namespace Cert.ReferenceIdeal.RefRun

open Idealize.ShloMosaic Idealize.ShloMosaic.TcCoe Idealize.SL.Sem
open Cert.ReferenceIdeal.Facts₀ Cert.ReferenceIdeal.Facts

-- the decided enumerations run over the signature's 205 references
set_option maxRecDepth 4096 in
/-- The signature scopes no buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

variable {F : FTy → Type} [FloatOps F] [Facts]

-- two hundred binds re-associated: the rewrite under the chain recurses once per statement
set_option maxRecDepth 16384 in
set_option maxHeartbeats 4000000 in
/-- @main is that straight line: the functions' definitions unfolded at their calls and the records at their
    fields, both sides are one chain of `hlo` steps once sequencing is reassociated (the rewriting ends at syntactically equal sides). -/
theorem main_eq (c : Dev nD) : main (F := F) c = StableHlo.seq ops := by
  simp only [main, main_part0, main_part1, fn_cumsum.body, fn_cumsum_0.body, fn_clip.body, fn_cumsum_1.body,
    fn_where.body, fn_floor_divide.body, fn_where_2.body, fn_remainder.body, fn_where_3.body, fn_floor_divide_4.body,
    ops, rOps0, rOps1, rOps2, rOps3, rOps4, rOps5, rOps6, rOps7, rOps8, rOps9, rOps10, rOps11, rOps12, rOps13, rOps14, rOps15, rOps16, rOps17, rOps18, rOps19, rOps20,
    StableHlo.seq_append, StableHlo.seq, bind_assoc, pure_bind]

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after ops (StableHlo.launchContents m c) (b : DevRef τ sig) :=
  StableHlo.run_seq scopedRefs_eq scopedSems_eq defs main (fun _ => ops) main_eq (fun _ => ops_sub) m ρ
    (fun _ => ops_fresh)

end Cert.ReferenceIdeal.RefRun

end
-- ==== Proof.RefArgs.lean ====
/- The reference program's four argument buffers are written by no operation of its @main: each of the 201
   operations writes one buffer, of index 4 or more in the signature's table, and the arguments are the
   references of index 0 … 3. So the operations' fold leaves the arguments' contents as they were. -/
import proofs.«142671_j52776558133736_1_alg».proof.Proof.RefOps

noncomputable section

namespace Cert.ReferenceIdeal.RefRun

open Idealize.ShloMosaic Idealize.ShloMosaic.TcCoe Idealize.SL.Sem
open Cert.ReferenceIdeal.Facts₀ Cert.ReferenceIdeal.Facts

variable {F : FTy → Type} [FloatOps F] [Facts]

/-- An operation whose one written buffer is `y` writes no reference of smaller index. -/
theorem not_mem_writes_of_idx_lt {op : HloOp τ sig (Elt F)} {y : Ref sig .tc}
    (hw : op.writes = {Proc.devRef (τ := τ) .tc y}) {r : Ref sig .tc} (h : r.idx.val < y.idx.val) :
    Proc.devRef (τ := τ) .tc r ∉ op.writes := by
  rw [hw, Finset.mem_singleton]
  exact StableHlo.devRef_ne_of_ne fun e => absurd (congrArg (fun b : Ref sig .tc => b.idx.val) e) (Nat.ne_of_lt h)

/-- An operation whose one written buffer `y` has index 4 or more writes none of the references of index
    0 … 3 (the arguments). -/
theorem noarg_of {op : HloOp τ sig (Elt F)} (y : Ref sig .tc)
    (hw : op.writes = {Proc.devRef (τ := τ) .tc y}) (hy : 4 ≤ y.idx.val) :
    ∀ r : Ref sig .tc, r.idx.val < 4 → Proc.devRef (τ := τ) .tc r ∉ op.writes :=
  fun _ hr => not_mem_writes_of_idx_lt hw (Nat.lt_of_lt_of_le hr hy)

/-- No operation of stretch 0 writes an argument. -/
theorem rOps0_noarg : (rOps0 : List (HloOp τ sig (Elt F))).Forall fun op =>
    ∀ r : Ref sig .tc, r.idx.val < 4 → Proc.devRef (τ := τ) .tc r ∉ op.writes :=
  ⟨noarg_of main_v0 rfl (by decide),
    noarg_of main_v1 rfl (by decide),
    noarg_of main_v2 rfl (by decide),
    noarg_of main_v3 rfl (by decide),
    noarg_of main_v4 rfl (by decide),
    noarg_of main_v5 rfl (by decide),
    noarg_of main_cst rfl (by decide),
    noarg_of main_v6 rfl (by decide),
    noarg_of main_v7 rfl (by decide),
    noarg_of main_cst_0 rfl (by decide),
    noarg_of main_v8 rfl (by decide),
    noarg_of main_v9 rfl (by decide),
    noarg_of main_v10 rfl (by decide)⟩

/-- No operation of stretch 1 writes an argument. -/
theorem rOps1_noarg : (rOps1 : List (HloOp τ sig (Elt F))).Forall fun op =>
    ∀ r : Ref sig .tc, r.idx.val < 4 → Proc.devRef (τ := τ) .tc r ∉ op.writes :=
  ⟨noarg_of main_call0_v0 rfl (by decide),
    noarg_of main_call0_call0_c rfl (by decide),
    noarg_of main_call0_call0_v0 rfl (by decide),
    noarg_of main_v11 rfl (by decide)⟩

/-- No operation of stretch 2 writes an argument. -/
theorem rOps2_noarg : (rOps2 : List (HloOp τ sig (Elt F))).Forall fun op =>
    ∀ r : Ref sig .tc, r.idx.val < 4 → Proc.devRef (τ := τ) .tc r ∉ op.writes :=
  ⟨noarg_of main_c rfl (by decide),
    noarg_of main_v12 rfl (by decide),
    noarg_of main_c_1 rfl (by decide)⟩

/-- No operation of stretch 3 writes an argument. -/
theorem rOps3_noarg : (rOps3 : List (HloOp τ sig (Elt F))).Forall fun op =>
    ∀ r : Ref sig .tc, r.idx.val < 4 → Proc.devRef (τ := τ) .tc r ∉ op.writes :=
  ⟨noarg_of main_call1_v0 rfl (by decide),
    noarg_of main_call1_v1 rfl (by decide),
    noarg_of main_v13 rfl (by decide)⟩

/-- No operation of stretch 4 writes an argument. -/
theorem rOps4_noarg : (rOps4 : List (HloOp τ sig (Elt F))).Forall fun op =>
    ∀ r : Ref sig .tc, r.idx.val < 4 → Proc.devRef (τ := τ) .tc r ∉ op.writes :=
  ⟨noarg_of main_c_2 rfl (by decide),
    noarg_of main_v14 rfl (by decide),
    noarg_of main_v15 rfl (by decide),
    noarg_of main_c_3 rfl (by decide),
    noarg_of main_v16 rfl (by decide),
    noarg_of main_v17 rfl (by decide),
    noarg_of main_v18 rfl (by decide),
    noarg_of main_v19 rfl (by decide),
    noarg_of main_c_4 rfl (by decide),
    noarg_of main_v20 rfl (by decide),
    noarg_of main_v21 rfl (by decide)⟩

/-- No operation of stretch 5 writes an argument. -/
theorem rOps5_noarg : (rOps5 : List (HloOp τ sig (Elt F))).Forall fun op =>
    ∀ r : Ref sig .tc, r.idx.val < 4 → Proc.devRef (τ := τ) .tc r ∉ op.writes :=
  ⟨noarg_of main_call2_call0_c rfl (by decide),
    noarg_of main_call2_call0_v0 rfl (by decide),
    noarg_of main_v22 rfl (by decide)⟩

/-- No operation of stretch 6 writes an argument. -/
theorem rOps6_noarg : (rOps6 : List (HloOp τ sig (Elt F))).Forall fun op =>
    ∀ r : Ref sig .tc, r.idx.val < 4 → Proc.devRef (τ := τ) .tc r ∉ op.writes :=
  noarg_of main_c_5 rfl (by decide)

/-- No operation of stretch 7 writes an argument. -/
theorem rOps7_noarg : (rOps7 : List (HloOp τ sig (Elt F))).Forall fun op =>
    ∀ r : Ref sig .tc, r.idx.val < 4 → Proc.devRef (τ := τ) .tc r ∉ op.writes :=
  ⟨noarg_of main_call3_v0 rfl (by decide),
    noarg_of main_call3_v1 rfl (by decide),
    noarg_of main_call3_v2 rfl (by decide),
    noarg_of main_call3_v3 rfl (by decide),
    noarg_of main_call3_v4 rfl (by decide),
    noarg_of main_call3_v5 rfl (by decide),
    noarg_of main_call3_v6 rfl (by decide),
    noarg_of main_call3_v7 rfl (by decide),
    noarg_of main_call3_c rfl (by decide),
    noarg_of main_call3_v8 rfl (by decide),
    noarg_of main_call3_v9 rfl (by decide),
    noarg_of main_call3_v10 rfl (by decide),
    noarg_of main_call3_c_0 rfl (by decide),
    noarg_of main_call3_v11 rfl (by decide),
    noarg_of main_call3_v12 rfl (by decide),
    noarg_of main_v23 rfl (by decide)⟩

/-- No operation of stretch 8 writes an argument. -/
theorem rOps8_noarg : (rOps8 : List (HloOp τ sig (Elt F))).Forall fun op =>
    ∀ r : Ref sig .tc, r.idx.val < 4 → Proc.devRef (τ := τ) .tc r ∉ op.writes :=
  noarg_of main_c_6 rfl (by decide)

/-- No operation of stretch 9 writes an argument. -/
theorem rOps9_noarg : (rOps9 : List (HloOp τ sig (Elt F))).Forall fun op =>
    ∀ r : Ref sig .tc, r.idx.val < 4 → Proc.devRef (τ := τ) .tc r ∉ op.writes :=
  ⟨noarg_of main_call4_v0 rfl (by decide),
    noarg_of main_call4_c rfl (by decide),
    noarg_of main_call4_v1 rfl (by decide),
    noarg_of main_call4_c_0 rfl (by decide),
    noarg_of main_call4_v2 rfl (by decide),
    noarg_of main_call4_v3 rfl (by decide),
    noarg_of main_call4_v4 rfl (by decide),
    noarg_of main_call4_c_1 rfl (by decide),
    noarg_of main_call4_v5 rfl (by decide),
    noarg_of main_call4_v6 rfl (by decide),
    noarg_of main_call4_c_2 rfl (by decide),
    noarg_of main_call4_v7 rfl (by decide),
    noarg_of main_call4_v8 rfl (by decide),
    noarg_of main_call4_c_3 rfl (by decide),
    noarg_of main_call4_v9 rfl (by decide),
    noarg_of main_call4_v10 rfl (by decide),
    noarg_of main_call4_v11 rfl (by decide),
    noarg_of main_call4_v12 rfl (by decide),
    noarg_of main_call4_v13 rfl (by decide),
    noarg_of main_call4_v14 rfl (by decide),
    noarg_of main_v24 rfl (by decide)⟩

/-- No operation of stretch 10 writes an argument. -/
theorem rOps10_noarg : (rOps10 : List (HloOp τ sig (Elt F))).Forall fun op =>
    ∀ r : Ref sig .tc, r.idx.val < 4 → Proc.devRef (τ := τ) .tc r ∉ op.writes :=
  ⟨noarg_of main_v25 rfl (by decide),
    noarg_of main_v26 rfl (by decide),
    noarg_of main_c_7 rfl (by decide),
    noarg_of main_v27 rfl (by decide),
    noarg_of main_v28 rfl (by decide),
    noarg_of main_v29 rfl (by decide),
    noarg_of main_c_8 rfl (by decide)⟩

/-- No operation of stretch 11 writes an argument. -/
theorem rOps11_noarg : (rOps11 : List (HloOp τ sig (Elt F))).Forall fun op =>
    ∀ r : Ref sig .tc, r.idx.val < 4 → Proc.devRef (τ := τ) .tc r ∉ op.writes :=
  ⟨noarg_of main_call5_v0 rfl (by decide),
    noarg_of main_call5_v1 rfl (by decide),
    noarg_of main_v30 rfl (by decide)⟩

/-- No operation of stretch 12 writes an argument. -/
theorem rOps12_noarg : (rOps12 : List (HloOp τ sig (Elt F))).Forall fun op =>
    ∀ r : Ref sig .tc, r.idx.val < 4 → Proc.devRef (τ := τ) .tc r ∉ op.writes :=
  noarg_of main_c_9 rfl (by decide)

/-- No operation of stretch 13 writes an argument. -/
theorem rOps13_noarg : (rOps13 : List (HloOp τ sig (Elt F))).Forall fun op =>
    ∀ r : Ref sig .tc, r.idx.val < 4 → Proc.devRef (τ := τ) .tc r ∉ op.writes :=
  ⟨noarg_of main_call6_v0 rfl (by decide),
    noarg_of main_call6_v1 rfl (by decide),
    noarg_of main_call6_v2 rfl (by decide),
    noarg_of main_call6_v3 rfl (by decide),
    noarg_of main_call6_v4 rfl (by decide),
    noarg_of main_call6_v5 rfl (by decide),
    noarg_of main_call6_v6 rfl (by decide),
    noarg_of main_call6_v7 rfl (by decide),
    noarg_of main_call6_v8 rfl (by decide),
    noarg_of main_call6_c rfl (by decide),
    noarg_of main_call6_v9 rfl (by decide),
    noarg_of main_call6_v10 rfl (by decide),
    noarg_of main_call6_v11 rfl (by decide),
    noarg_of main_call6_c_0 rfl (by decide),
    noarg_of main_call6_v12 rfl (by decide),
    noarg_of main_call6_v13 rfl (by decide),
    noarg_of main_v31 rfl (by decide)⟩

/-- No operation of stretch 14 writes an argument. -/
theorem rOps14_noarg : (rOps14 : List (HloOp τ sig (Elt F))).Forall fun op =>
    ∀ r : Ref sig .tc, r.idx.val < 4 → Proc.devRef (τ := τ) .tc r ∉ op.writes :=
  noarg_of main_c_10 rfl (by decide)

/-- No operation of stretch 15 writes an argument. -/
theorem rOps15_noarg : (rOps15 : List (HloOp τ sig (Elt F))).Forall fun op =>
    ∀ r : Ref sig .tc, r.idx.val < 4 → Proc.devRef (τ := τ) .tc r ∉ op.writes :=
  ⟨noarg_of main_call7_v0 rfl (by decide),
    noarg_of main_call7_c rfl (by decide),
    noarg_of main_call7_v1 rfl (by decide),
    noarg_of main_call7_c_0 rfl (by decide),
    noarg_of main_call7_v2 rfl (by decide),
    noarg_of main_call7_v3 rfl (by decide),
    noarg_of main_call7_v4 rfl (by decide),
    noarg_of main_call7_c_1 rfl (by decide),
    noarg_of main_call7_v5 rfl (by decide),
    noarg_of main_call7_v6 rfl (by decide),
    noarg_of main_call7_c_2 rfl (by decide),
    noarg_of main_call7_v7 rfl (by decide),
    noarg_of main_call7_v8 rfl (by decide),
    noarg_of main_call7_c_3 rfl (by decide),
    noarg_of main_call7_v9 rfl (by decide),
    noarg_of main_call7_v10 rfl (by decide),
    noarg_of main_call7_v11 rfl (by decide),
    noarg_of main_call7_v12 rfl (by decide),
    noarg_of main_call7_v13 rfl (by decide),
    noarg_of main_call7_v14 rfl (by decide),
    noarg_of main_v32 rfl (by decide)⟩

/-- No operation of stretch 16 writes an argument. -/
theorem rOps16_noarg : (rOps16 : List (HloOp τ sig (Elt F))).Forall fun op =>
    ∀ r : Ref sig .tc, r.idx.val < 4 → Proc.devRef (τ := τ) .tc r ∉ op.writes :=
  ⟨noarg_of main_c_11 rfl (by decide),
    noarg_of main_v33 rfl (by decide),
    noarg_of main_v34 rfl (by decide),
    noarg_of main_c_12 rfl (by decide)⟩

/-- No operation of stretch 17 writes an argument. -/
theorem rOps17_noarg : (rOps17 : List (HloOp τ sig (Elt F))).Forall fun op =>
    ∀ r : Ref sig .tc, r.idx.val < 4 → Proc.devRef (τ := τ) .tc r ∉ op.writes :=
  ⟨noarg_of main_call8_v0 rfl (by decide),
    noarg_of main_call8_v1 rfl (by decide),
    noarg_of main_call8_v2 rfl (by decide),
    noarg_of main_call8_v3 rfl (by decide),
    noarg_of main_call8_v4 rfl (by decide),
    noarg_of main_call8_v5 rfl (by decide),
    noarg_of main_call8_v6 rfl (by decide),
    noarg_of main_call8_v7 rfl (by decide),
    noarg_of main_call8_v8 rfl (by decide),
    noarg_of main_call8_c rfl (by decide),
    noarg_of main_call8_v9 rfl (by decide),
    noarg_of main_call8_v10 rfl (by decide),
    noarg_of main_call8_v11 rfl (by decide),
    noarg_of main_call8_c_0 rfl (by decide),
    noarg_of main_call8_v12 rfl (by decide),
    noarg_of main_call8_v13 rfl (by decide),
    noarg_of main_v35 rfl (by decide)⟩

/-- No operation of stretch 18 writes an argument. -/
theorem rOps18_noarg : (rOps18 : List (HloOp τ sig (Elt F))).Forall fun op =>
    ∀ r : Ref sig .tc, r.idx.val < 4 → Proc.devRef (τ := τ) .tc r ∉ op.writes :=
  ⟨noarg_of main_v36 rfl (by decide),
    noarg_of main_c_13 rfl (by decide),
    noarg_of main_v37 rfl (by decide),
    noarg_of main_v38 rfl (by decide),
    noarg_of main_c_14 rfl (by decide)⟩

/-- No operation of stretch 19 writes an argument. -/
theorem rOps19_noarg : (rOps19 : List (HloOp τ sig (Elt F))).Forall fun op =>
    ∀ r : Ref sig .tc, r.idx.val < 4 → Proc.devRef (τ := τ) .tc r ∉ op.writes :=
  ⟨noarg_of main_call9_v0 rfl (by decide),
    noarg_of main_call9_c rfl (by decide),
    noarg_of main_call9_v1 rfl (by decide),
    noarg_of main_call9_c_0 rfl (by decide),
    noarg_of main_call9_v2 rfl (by decide),
    noarg_of main_call9_v3 rfl (by decide),
    noarg_of main_call9_v4 rfl (by decide),
    noarg_of main_call9_c_1 rfl (by decide),
    noarg_of main_call9_v5 rfl (by decide),
    noarg_of main_call9_v6 rfl (by decide),
    noarg_of main_call9_c_2 rfl (by decide),
    noarg_of main_call9_v7 rfl (by decide),
    noarg_of main_call9_v8 rfl (by decide),
    noarg_of main_call9_c_3 rfl (by decide),
    noarg_of main_call9_v9 rfl (by decide),
    noarg_of main_call9_v10 rfl (by decide),
    noarg_of main_call9_v11 rfl (by decide),
    noarg_of main_call9_v12 rfl (by decide),
    noarg_of main_call9_v13 rfl (by decide),
    noarg_of main_call9_v14 rfl (by decide),
    noarg_of main_v39 rfl (by decide)⟩

/-- No operation of stretch 20 writes an argument. -/
theorem rOps20_noarg : (rOps20 : List (HloOp τ sig (Elt F))).Forall fun op =>
    ∀ r : Ref sig .tc, r.idx.val < 4 → Proc.devRef (τ := τ) .tc r ∉ op.writes :=
  ⟨noarg_of main_v40 rfl (by decide),
    noarg_of main_v41 rfl (by decide),
    noarg_of main_v42 rfl (by decide),
    noarg_of main_c_15 rfl (by decide),
    noarg_of main_v43 rfl (by decide),
    noarg_of main_v44 rfl (by decide),
    noarg_of main_c_16 rfl (by decide),
    noarg_of main_v45 rfl (by decide),
    noarg_of main_v46 rfl (by decide),
    noarg_of main_v47 rfl (by decide),
    noarg_of main_v48 rfl (by decide),
    noarg_of main_v49 rfl (by decide),
    noarg_of main_c_17 rfl (by decide),
    noarg_of main_v50 rfl (by decide),
    noarg_of main_v51 rfl (by decide),
    noarg_of main_c_18 rfl (by decide),
    noarg_of main_v52 rfl (by decide),
    noarg_of main_v53 rfl (by decide),
    noarg_of main_v54 rfl (by decide),
    noarg_of main_v55 rfl (by decide),
    noarg_of main_v56 rfl (by decide),
    noarg_of main_v57 rfl (by decide),
    noarg_of main_v58 rfl (by decide),
    noarg_of main_c_19 rfl (by decide),
    noarg_of main_v59 rfl (by decide),
    noarg_of main_v60 rfl (by decide),
    noarg_of main_v61 rfl (by decide),
    noarg_of main_v62 rfl (by decide)⟩

/-- No operation of @main writes an argument. -/
theorem ops_noarg : (ops : List (HloOp τ sig (Elt F))).Forall fun op =>
    ∀ r : Ref sig .tc, r.idx.val < 4 → Proc.devRef (τ := τ) .tc r ∉ op.writes := by
  show List.Forall _ (rOps0 ++ (rOps1 ++ (rOps2 ++ (rOps3 ++ (rOps4 ++ (rOps5 ++ (rOps6 ++ (rOps7 ++ (rOps8 ++ (rOps9 ++ (rOps10 ++ (rOps11 ++ (rOps12 ++ (rOps13 ++ (rOps14 ++ (rOps15 ++ (rOps16 ++ (rOps17 ++ (rOps18 ++ (rOps19 ++ (rOps20)))))))))))))))))))))
  simp only [List.forall_append]
  exact ⟨rOps0_noarg, rOps1_noarg, rOps2_noarg, rOps3_noarg, rOps4_noarg, rOps5_noarg, rOps6_noarg, rOps7_noarg, rOps8_noarg, rOps9_noarg, rOps10_noarg, rOps11_noarg, rOps12_noarg, rOps13_noarg, rOps14_noarg, rOps15_noarg, rOps16_noarg, rOps17_noarg, rOps18_noarg, rOps19_noarg, rOps20_noarg⟩

/-- The operations' fold leaves a reference of index 0 … 3 (an argument) at its contents. -/
theorem after_ops_of_idx_lt (V : Valuation τ sig (Elt F)) (r : Ref sig .tc) (hr : r.idx.val < 4) :
    StableHlo.after ops V (Proc.devRef .tc r) = V (Proc.devRef .tc r) :=
  StableHlo.after_of_forall_not_mem ops V fun op hop => List.forall_iff_forall_mem.1 ops_noarg op hop r hr

/-- Argument 0 keeps its contents. -/
theorem arg0_eq (V : Valuation τ sig (Elt F)) :
    StableHlo.after ops V (Proc.devRef .tc main_arg0) = V (Proc.devRef .tc main_arg0) :=
  after_ops_of_idx_lt V main_arg0 (by decide)

/-- Argument 1 keeps its contents. -/
theorem arg1_eq (V : Valuation τ sig (Elt F)) :
    StableHlo.after ops V (Proc.devRef .tc main_arg1) = V (Proc.devRef .tc main_arg1) :=
  after_ops_of_idx_lt V main_arg1 (by decide)

/-- Argument 2 keeps its contents. -/
theorem arg2_eq (V : Valuation τ sig (Elt F)) :
    StableHlo.after ops V (Proc.devRef .tc main_arg2) = V (Proc.devRef .tc main_arg2) :=
  after_ops_of_idx_lt V main_arg2 (by decide)

/-- Argument 3 keeps its contents. -/
theorem arg3_eq (V : Valuation τ sig (Elt F)) :
    StableHlo.after ops V (Proc.devRef .tc main_arg3) = V (Proc.devRef .tc main_arg3) :=
  after_ops_of_idx_lt V main_arg3 (by decide)

end Cert.ReferenceIdeal.RefRun

end
-- ==== Proof.Finite.lean ====
/-
  From the precondition to real entries: the predicate "every |x| is below +∞, in both coordinate arrays" being
  true makes every entry of both arrays a real number.
-/
import proofs.«142671_j52776558133736_1_alg».proof.Pre_finite_inputs
import Idealize.ShloMosaic.Lib.ReduceAll
import Idealize.ShloMosaic.Lib.ValueIdx
import Idealize.ShloMosaic.PureOps.Ideal.Laws

noncomputable section

namespace Cert.Mask

open Idealize.ShloMosaic Idealize.ShloMosaic.ValueIdx

/-- The float word `0x7F800000` is +∞. -/
theorem ofBits_inf_f32 : Ideal.ofBits .f32 0x7F800000#32 = ⊤ := by
  simp [Ideal.ofBits, Ideal.ieee]

/-- An extended real whose absolute value is below +∞ is a real. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => exact absurd h (by simp [Ideal.cmp])
  | coe r => exact ⟨r, rfl⟩
  | top => exact absurd h (by simp [Ideal.cmp])

instance : Subsingleton Cert.Pre_finite_inputs.S_.Idx := ⟨fun a b => funext fun d => d.elim0⟩

/-- THE PRECONDITION GIVES REAL ENTRIES. -/
theorem finite_of_pre [Cert.Pre_finite_inputs.Facts]
    (x0 : IVec Cert.Pre_finite_inputs.S8x1024 32) (x1 : FVec Ideal Cert.Pre_finite_inputs.S8x1024x2 .f32)
    (x2 : IVec Cert.Pre_finite_inputs.S8x2048 32) (x3 : FVec Ideal Cert.Pre_finite_inputs.S8x2048x2 .f32)
    (h : Cert.Pre_finite_inputs.fn (F := Ideal) x0 x1 x2 x3 = fun _ => 1#1) :
    (∀ i, ∃ r : ℝ, x1 i = (r : EReal)) ∧ (∀ i, ∃ r : ℝ, x3 i = (r : EReal)) := by
  have h0 := congrFun h ix0
  dsimp only [Cert.Pre_finite_inputs.fn] at h0
  obtain ⟨h1, h2⟩ := IntOp.andi_eq_one.1 h0
  exact ⟨fun i => real_of_abs_lt_inf (x1 i) (Host.reduce_andi_all _ _ _ _ ix0 h1 i),
    fun i => real_of_abs_lt_inf (x3 i) (Host.reduce_andi_all _ _ _ _ ix0 h2 i)⟩

end Cert.Mask

end
-- ==== Proof.MaskRef.lean ====
/-
  The reference's mask as one term of its two coordinate arrays — the pairwise differences, their squares summed
  over the coordinate axis, the square root, the comparison with 7, flattened — and that term read at a flat index.
-/
import proofs.«142671_j52776558133736_1_alg».proof.ReferenceIdeal
import Idealize.ShloMosaic.PureOps.Ideal.Laws
import Idealize.ShloMosaic.Lib.ValueIdx
import Idealize.ShloMosaic.Lib.Pipeline.Value

noncomputable section

namespace Cert.Mask

open Idealize.ShloMosaic Idealize.ShloMosaic.ValueIdx
open Cert.ReferenceIdeal Cert.ReferenceIdeal.Facts₀

variable [Cert.ReferenceIdeal.Facts₀]

/-- The pairwise coordinate differences `a[b, n, k] - c[b, j, k]` as the reference forms them. -/
def refDiff (a : FVec Ideal S8x1024x2 .f32) (c : FVec Ideal S8x2048x2 .f32) : FVec Ideal S8x1024x2048x2 .f32 :=
  subf
    (broadcastInDim S8x1024x2048x2 ![0, 1, 2, 3] bcast_S8x1024x1x2_S8x1024x2048x2_0_1_2_3
      (broadcastInDim S8x1024x1x2 ![0, 1, 3] bcast_S8x1024x2_S8x1024x1x2_0_1_3 a))
    (broadcastInDim S8x1024x2048x2 ![0, 1, 2, 3] bcast_S8x1x2048x2_S8x1024x2048x2_0_1_2_3
      (broadcastInDim S8x1x2048x2 ![0, 2, 3] bcast_S8x2048x2_S8x1x2048x2_0_2_3 c))

/-- The reference's flattened mask: `sqrt (Σₖ (a - c)²) ≤ 7`, one bit per pair, in row-major order. -/
def refMask (a : FVec Ideal S8x1024x2 .f32) (c : FVec Ideal S8x2048x2 .f32) : IVec S16777216 1 :=
  shapeCast S16777216
    (cmpf .ole
      (Host.sqrt (Host.reduceAdd (F := Ideal) (mulf (refDiff a c) (refDiff a c))
        (constant (F := Ideal) S_ .f32 0x00000000#32) reducesTo_S8x1024x2048x2_S8x1024x2048_d3 h_S_))
      (broadcastInDim S8x1024x2048 ![] bcast_S_S8x1024x2048 (constant (F := Ideal) S_ .f32 0x40E00000#32)))
    shapeCasts_S8x1024x2048_S16777216

/-- A difference read at coordinates. -/
theorem refDiff_apply (a : FVec Ideal S8x1024x2 .f32) (c : FVec Ideal S8x2048x2 .f32)
    (b : Fin 8) (n : Fin 1024) (j : Fin 2048) (k : Fin 2) :
    refDiff a c (ix4 b n j k) = a (ix3 b n k) - c (ix3 b j k) := by
  unfold refDiff
  rw [subf_apply]
  congr 1
  · refine (broadcastInDim_apply _ _ _ _ (ix4 b n (0 : Fin 1) k) fun ax => ?_).trans ?_
    · match ax with
      | ⟨0, _⟩ => rfl
      | ⟨1, _⟩ => rfl
      | ⟨2, _⟩ => rfl
      | ⟨3, _⟩ => rfl
    · refine broadcastInDim_apply _ _ _ _ (ix3 b n k) fun ax => ?_
      match ax with
      | ⟨0, _⟩ => rfl
      | ⟨1, _⟩ => rfl
      | ⟨2, _⟩ => rfl
  · refine (broadcastInDim_apply _ _ _ _ (ix4 b (0 : Fin 1) j k) fun ax => ?_).trans ?_
    · match ax with
      | ⟨0, _⟩ => rfl
      | ⟨1, _⟩ => rfl
      | ⟨2, _⟩ => rfl
      | ⟨3, _⟩ => rfl
    · refine broadcastInDim_apply _ _ _ _ (ix3 b j k) fun ax => ?_
      match ax with
      | ⟨0, _⟩ => rfl
      | ⟨1, _⟩ => rfl
      | ⟨2, _⟩ => rfl

/-- The index the reduction over the coordinate axis inserts, at literal axes. -/
theorem lift_eq (h : S8x1024x2048x2.Reduces [3] S8x1024x2048) (b : Fin 8) (n : Fin 1024) (j : Fin 2048) (k : Fin 2) :
    h.lift (ix3 b n j) k = ix4 b n j k := by
  funext ax
  refine Fin.ext ?_
  match ax with
  | ⟨0, _⟩ => rfl
  | ⟨1, _⟩ => rfl
  | ⟨2, _⟩ => rfl
  | ⟨3, _⟩ => rfl

/-- THE REFERENCE'S MASK AT A FLAT INDEX: position `(b · 1024 + n) · 2048 + j` holds the bit of
    `sqrt (0 + (dx² + dy²)) ≤ 7` for the pair `(n, j)` of batch `b`. -/
theorem refMask_apply (a : FVec Ideal S8x1024x2 .f32) (c : FVec Ideal S8x2048x2 .f32)
    (b : Fin 8) (n : Fin 1024) (j : Fin 2048) (f : Fin 16777216)
    (hf : f.val = (b.val * 1024 + n.val) * 2048 + j.val) :
    refMask a c (ix1 f)
      = Ideal.cmp .ole
          (Ideal.sqrt (0 + ((a (ix3 b n (0 : Fin 2)) - c (ix3 b j (0 : Fin 2))) * (a (ix3 b n (0 : Fin 2)) - c (ix3 b j (0 : Fin 2)))
            + (a (ix3 b n (1 : Fin 2)) - c (ix3 b j (1 : Fin 2))) * (a (ix3 b n (1 : Fin 2)) - c (ix3 b j (1 : Fin 2))))))
          (Ideal.ofBits .f32 0x40E00000#32) := by
  unfold refMask
  refine (shapeCast_apply _ _ (ix1 f) (ix3 b n j) ?_).trans ?_
  · rw [Shape.rowMajor_val_three, Shape.rowMajor_val_one]
    show (b.val * 1024 + n.val) * 2048 + j.val = f.val
    exact hf.symm
  · have hR : S8x1024x2048x2.Reduces [3] S8x1024x2048 := by decide
    show Ideal.cmp .ole (Ideal.sqrt (Ideal.hostReduceAdd reducesTo_S8x1024x2048x2_S8x1024x2048_d3
      (mulf (refDiff a c) (refDiff a c)) (Ideal.ofBits .f32 0x00000000#32) (ix3 b n j))) (Ideal.ofBits .f32 0x40E00000#32) = _
    rw [Ideal.hostReduceAdd_single _ hR, Ideal.ofBits_zero_f32]
    have hs : (∑ k : Fin (S8x1024x2048x2.size 3), mulf (refDiff a c) (refDiff a c) (hR.lift (ix3 b n j) k))
        = (a (ix3 b n (0 : Fin 2)) - c (ix3 b j (0 : Fin 2))) * (a (ix3 b n (0 : Fin 2)) - c (ix3 b j (0 : Fin 2)))
          + (a (ix3 b n (1 : Fin 2)) - c (ix3 b j (1 : Fin 2))) * (a (ix3 b n (1 : Fin 2)) - c (ix3 b j (1 : Fin 2))) := by
      show (∑ k : Fin 2, mulf (refDiff a c) (refDiff a c) (hR.lift (ix3 b n j) k)) = _
      rw [Fin.sum_univ_two, lift_eq, lift_eq, mulf_apply, mulf_apply, refDiff_apply, refDiff_apply]
    rw [hs]

end Cert.Mask

end
-- ==== Proof.MaskEq.lean ====
/-
  The law that joins the two masks: for real coordinates, "the squared distance is at most 49" and "the square root
  of the squared distance is at most 7" are the same bit, so the kernel's mask, compared with 0 and flattened, is the
  reference's flattened mask.
-/
import proofs.«142671_j52776558133736_1_alg».proof.Proof.MaskSpec
import proofs.«142671_j52776558133736_1_alg».proof.Proof.MaskRef
import proofs.«142671_j52776558133736_1_alg».proof.KernelIdeal
import Idealize.ShloMosaic.Lib.ValueLayout

noncomputable section

namespace Cert.Mask

open Idealize.ShloMosaic Idealize.ShloMosaic.ValueIdx

/-- The float word `0x40E00000` is 7. -/
theorem ofBits_seven : Ideal.ofBits .f32 0x40E00000#32 = ((7 : ℝ) : EReal) := by
  simp [Ideal.ofBits, Ideal.ieee]
  rw [← EReal.coe_mul]
  exact congrArg _ (by norm_num)

/-- The float word `0x42440000` is 49. -/
theorem ofBits_fortynine : Ideal.ofBits .f32 0x42440000#32 = ((49 : ℝ) : EReal) := by
  simp [Ideal.ofBits, Ideal.ieee]
  rw [← EReal.coe_mul]
  exact congrArg _ (by norm_num)

/-- ON REALS: `s ≤ 49` and `sqrt (0 + s) ≤ 7` are one bit, for `s` a sum of two squares of differences. -/
theorem cell_law (ax ay cx cy : ℝ) :
    Ideal.cmp .ole (((ax : EReal) - cx) * ((ax : EReal) - cx) + ((ay : EReal) - cy) * ((ay : EReal) - cy))
        (Ideal.ofBits .f32 0x42440000#32)
      = Ideal.cmp .ole
          (Ideal.sqrt (0 + (((ax : EReal) - cx) * ((ax : EReal) - cx) + ((ay : EReal) - cy) * ((ay : EReal) - cy))))
          (Ideal.ofBits .f32 0x40E00000#32) := by
  have e : ((ax : EReal) - cx) * ((ax : EReal) - cx) + ((ay : EReal) - cy) * ((ay : EReal) - cy)
      = (((ax - cx) * (ax - cx) + (ay - cy) * (ay - cy) : ℝ) : EReal) := by
    simp only [EReal.coe_add, EReal.coe_mul, EReal.coe_sub]
  have h0 : ¬ ((ax - cx) * (ax - cx) + (ay - cy) * (ay - cy) < 0) :=
    not_lt.2 (add_nonneg (mul_self_nonneg _) (mul_self_nonneg _))
  rw [ofBits_seven, ofBits_fortynine, zero_add, e, Ideal.sqrt_coe, if_neg h0]
  show BitVec.ofBool (decide (_ ≤ _)) = BitVec.ofBool (decide (_ ≤ _))
  refine congrArg BitVec.ofBool (decide_eq_decide.2 ?_)
  rw [EReal.coe_le_coe_iff, EReal.coe_le_coe_iff, Real.sqrt_le_left (by norm_num : (0 : ℝ) ≤ 7)]
  norm_num

/-- Comparing the widened bit with the zero word gives the bit back. -/
theorem ne_zero_word (p : Bool) : IntOp.cmpi .ne ((BitVec.ofBool p).setWidth 32) 0#32 = BitVec.ofBool p := by
  cases p <;> decide

/-- A flat position splits into batch, row and column. -/
theorem exists_coords (f : Fin 16777216) :
    ∃ (b : Fin 8) (n : Fin 1024) (j : Fin 2048), f.val = (b.val * 1024 + n.val) * 2048 + j.val :=
  ⟨⟨f.val / 2097152, by omega⟩, ⟨f.val / 2048 % 1024, by omega⟩, ⟨f.val % 2048, by omega⟩, by
    show f.val = (f.val / 2097152 * 1024 + f.val / 2048 % 1024) * 2048 + f.val % 2048
    omega⟩

/-- THE TWO MASKS AGREE: the kernel's mask compared with 0 and flattened is the reference's flattened mask, when
    every coordinate is a real number. The two shape facts are arguments, so any proofs of them fit. -/
theorem mask_eq [Cert.ReferenceIdeal.Facts₀]
    (a : FVec Ideal Cert.KernelIdeal.S8x1024x2 .f32) (c : FVec Ideal Cert.KernelIdeal.S8x2048x2 .f32)
    (ha : ∀ i, ∃ x : ℝ, a i = (x : EReal)) (hc : ∀ i, ∃ x : ℝ, c i = (x : EReal))
    (hb : Cert.KernelIdeal.S_.BroadcastsInDim Cert.KernelIdeal.S8x1024x2048
      (![] : Fin 0 → Fin Cert.KernelIdeal.S8x1024x2048.rank))
    (hs : Cert.KernelIdeal.S8x1024x2048.ShapeCasts Cert.KernelIdeal.S16777216) :
    shapeCast Cert.KernelIdeal.S16777216
        (id (cmpi .ne (G a c)
          (broadcastInDim Cert.KernelIdeal.S8x1024x2048 ![] hb (constantI Cert.KernelIdeal.S_ 32 0#32)))) hs
      = refMask a c := by
  funext i
  obtain ⟨f, rfl⟩ : ∃ f : Fin 16777216, i = ix1 f := ⟨i 0, eq_ix1 i⟩
  obtain ⟨b, n, j, hf⟩ := exists_coords f
  rw [refMask_apply a c b n j f hf]
  refine (shapeCast_apply _ hs (ix1 f) (ix3 b n j) ?_).trans ?_
  · rw [Shape.rowMajor_val_three, Shape.rowMajor_val_one]
    show (b.val * 1024 + n.val) * 2048 + j.val = f.val
    exact hf.symm
  · show IntOp.cmpi .ne (G a c (ix3 b n j)) 0#32 = _
    rw [G_apply, cell_eq, ne_zero_word]
    obtain ⟨ax, hax⟩ := ha (ix3 b n (0 : Fin 2))
    obtain ⟨ay, hay⟩ := ha (ix3 b n (1 : Fin 2))
    obtain ⟨cx, hcx⟩ := hc (ix3 b j (0 : Fin 2))
    obtain ⟨cy, hcy⟩ := hc (ix3 b j (1 : Fin 2))
    rw [hax, hay, hcx, hcy]
    exact cell_law ax ay cx cy

end Cert.Mask

end
-- ==== Proof.HeadBridge.lean ====
/-
  The first stretch of host operations of each program, joined: after the kernel program's five operations on the
  region's output and after the reference's thirteen operations on the two coordinate arrays, the two flattened
  masks are one array, and the coordinate arrays are untouched.
-/
import proofs.«142671_j52776558133736_1_alg».proof.Proof.LaunchKI
import proofs.«142671_j52776558133736_1_alg».proof.Proof.RefOps
import proofs.«142671_j52776558133736_1_alg».proof.Proof.Gen.ReferenceIdeal
import proofs.«142671_j52776558133736_1_alg».proof.Proof.MaskEq
import Idealize.ShloMosaic.Lib.StableHlo.Run

noncomputable section

namespace Cert.Mask

open Idealize.ShloMosaic Idealize.ShloMosaic.ValueIdx Idealize.ShloMosaic.StableHlo

/-- The kernel program's first stretch, at the flattened mask's buffer: the region's output compared with 0, flattened. -/
theorem headK_v4 (WK : Valuation Cert.KernelIdeal.τ Cert.KernelIdeal.sig (Elt Ideal)) :
    (StableHlo.after (Cert.KernelIdeal.GenP.hostOps1 (F := Ideal)) WK (Proc.devRef .tc Cert.KernelIdeal.main_v4)
        : IVec Cert.KernelIdeal.S16777216 1)
      = shapeCast Cert.KernelIdeal.S16777216
          (id (cmpi .ne (WK (Proc.devRef .tc Cert.KernelIdeal.main_v0) : IVec Cert.KernelIdeal.S8x1024x2048 32)
            (broadcastInDim Cert.KernelIdeal.S8x1024x2048 ![] Cert.KernelIdeal.Gen.bcast_S_S8x1024x2048
              (constantI Cert.KernelIdeal.S_ 32 0#32))))
          Cert.KernelIdeal.Gen.shapeCasts_S8x1024x2048_S16777216 := by
  after_results
  rfl

/-- The kernel program's first stretch writes neither coordinate array. -/
theorem headK_arg1 (WK : Valuation Cert.KernelIdeal.τ Cert.KernelIdeal.sig (Elt Ideal)) :
    StableHlo.after (Cert.KernelIdeal.GenP.hostOps1 (F := Ideal)) WK (Proc.devRef .tc Cert.KernelIdeal.main_arg1)
      = WK (Proc.devRef .tc Cert.KernelIdeal.main_arg1) := by
  after_results

theorem headK_arg3 (WK : Valuation Cert.KernelIdeal.τ Cert.KernelIdeal.sig (Elt Ideal)) :
    StableHlo.after (Cert.KernelIdeal.GenP.hostOps1 (F := Ideal)) WK (Proc.devRef .tc Cert.KernelIdeal.main_arg3)
      = WK (Proc.devRef .tc Cert.KernelIdeal.main_arg3) := by
  after_results

/-- The reference's first stretch, at the flattened mask's buffer: the reference's mask of the two coordinate arrays. -/
theorem headR_v10 (WR : Valuation Cert.ReferenceIdeal.τ Cert.ReferenceIdeal.sig (Elt Ideal)) :
    (StableHlo.after (Cert.ReferenceIdeal.RefRun.rOps0 (F := Ideal)) WR (Proc.devRef .tc Cert.ReferenceIdeal.main_v10)
        : IVec Cert.ReferenceIdeal.S16777216 1)
      = refMask (WR (Proc.devRef .tc Cert.ReferenceIdeal.main_arg1)) (WR (Proc.devRef .tc Cert.ReferenceIdeal.main_arg3)) := by
  after_results
  rfl

/-- The reference's first stretch writes neither coordinate array. -/
theorem headR_arg1 (WR : Valuation Cert.ReferenceIdeal.τ Cert.ReferenceIdeal.sig (Elt Ideal)) :
    StableHlo.after (Cert.ReferenceIdeal.RefRun.rOps0 (F := Ideal)) WR (Proc.devRef .tc Cert.ReferenceIdeal.main_arg1)
      = WR (Proc.devRef .tc Cert.ReferenceIdeal.main_arg1) := by
  after_results

theorem headR_arg3 (WR : Valuation Cert.ReferenceIdeal.τ Cert.ReferenceIdeal.sig (Elt Ideal)) :
    StableHlo.after (Cert.ReferenceIdeal.RefRun.rOps0 (F := Ideal)) WR (Proc.devRef .tc Cert.ReferenceIdeal.main_arg3)
      = WR (Proc.devRef .tc Cert.ReferenceIdeal.main_arg3) := by
  after_results

/-- THE FIRST STRETCHES AGREE: with the region's output the mask `G a c` and both programs holding the same real
    coordinate arrays, the two flattened masks are equal and so are the coordinate arrays. -/
theorem head_agree (WK : Valuation Cert.KernelIdeal.τ Cert.KernelIdeal.sig (Elt Ideal))
    (WR : Valuation Cert.ReferenceIdeal.τ Cert.ReferenceIdeal.sig (Elt Ideal))
    (a : FVec Ideal Cert.KernelIdeal.S8x1024x2 .f32) (c : FVec Ideal Cert.KernelIdeal.S8x2048x2 .f32)
    (hv0 : (WK (Proc.devRef .tc Cert.KernelIdeal.main_v0) : IVec Cert.KernelIdeal.S8x1024x2048 32) = G a c)
    (hK1 : WK (Proc.devRef .tc Cert.KernelIdeal.main_arg1) = a) (hK3 : WK (Proc.devRef .tc Cert.KernelIdeal.main_arg3) = c)
    (hR1 : WR (Proc.devRef .tc Cert.ReferenceIdeal.main_arg1) = a) (hR3 : WR (Proc.devRef .tc Cert.ReferenceIdeal.main_arg3) = c)
    (ha : ∀ i, ∃ x : ℝ, a i = (x : EReal)) (hc : ∀ i, ∃ x : ℝ, c i = (x : EReal)) :
    (StableHlo.after (Cert.KernelIdeal.GenP.hostOps1 (F := Ideal)) WK (Proc.devRef .tc Cert.KernelIdeal.main_v4)
        : IVec Cert.KernelIdeal.S16777216 1)
      = StableHlo.after (Cert.ReferenceIdeal.RefRun.rOps0 (F := Ideal)) WR (Proc.devRef .tc Cert.ReferenceIdeal.main_v10)
    ∧ (StableHlo.after (Cert.KernelIdeal.GenP.hostOps1 (F := Ideal)) WK (Proc.devRef .tc Cert.KernelIdeal.main_arg1)
        : FVec Ideal Cert.KernelIdeal.S8x1024x2 .f32)
      = StableHlo.after (Cert.ReferenceIdeal.RefRun.rOps0 (F := Ideal)) WR (Proc.devRef .tc Cert.ReferenceIdeal.main_arg1)
    ∧ (StableHlo.after (Cert.KernelIdeal.GenP.hostOps1 (F := Ideal)) WK (Proc.devRef .tc Cert.KernelIdeal.main_arg3)
        : FVec Ideal Cert.KernelIdeal.S8x2048x2 .f32)
      = StableHlo.after (Cert.ReferenceIdeal.RefRun.rOps0 (F := Ideal)) WR (Proc.devRef .tc Cert.ReferenceIdeal.main_arg3) := by
  refine ⟨?_, ?_, ?_⟩
  · refine (headK_v4 WK).trans (Eq.trans ?_ (headR_v10 WR).symm)
    rw [hv0, hR1, hR3]
    exact mask_eq a c ha hc _ _
  · exact (headK_arg1 WK).trans (hK1.trans (hR1.symm.trans (headR_arg1 WR).symm))
  · exact (headK_arg3 WK).trans (hK3.trans (hR3.symm.trans (headR_arg3 WR).symm))

end Cert.Mask

end
-- ==== Proof.LibAfter.lean ====
/- The fold of a line of host operations over an appended list: the second list's fold over the first's. -/
import Idealize.ShloMosaic.Lib.StableHlo.Run

namespace Cert.LibAfter

open Idealize.ShloMosaic

variable {τ : Topo} {sig : RefSig} {Val : EltTy → Type}

/-- The buffer contents after two lines of operations run one after the other: the second line's fold over
    the first line's. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

end Cert.LibAfter
-- ==== Proof.ResultsBridge.lean ====
/-
  The whole host side of the two programs, joined: after every host operation that follows the region, the kernel
  program's four result buffers hold what the reference's four result buffers hold. The first stretches make the two
  flattened masks one array; from there on the two programs run the same operations on it.
-/
import proofs.«142671_j52776558133736_1_alg».proof.Proof.HeadBridge
import proofs.«142671_j52776558133736_1_alg».proof.Proof.LibAfter

noncomputable section

namespace Cert.Mask

open Idealize.ShloMosaic Idealize.ShloMosaic.StableHlo

/-- The kernel program's host operations after its first stretch, one list. -/
abbrev tailKOps : List (HloOp Cert.KernelIdeal.τ Cert.KernelIdeal.sig (Elt Ideal)) :=
  List.flatten [
    Cert.KernelIdeal.GenP.hostOps1_1 (F := Ideal),
    Cert.KernelIdeal.GenP.hostOps1_2 (F := Ideal),
    Cert.KernelIdeal.GenP.hostOps1_3 (F := Ideal),
    Cert.KernelIdeal.GenP.hostOps1_4 (F := Ideal),
    Cert.KernelIdeal.GenP.hostOps1_5 (F := Ideal),
    Cert.KernelIdeal.GenP.hostOps1_6 (F := Ideal),
    Cert.KernelIdeal.GenP.hostOps1_7 (F := Ideal),
    Cert.KernelIdeal.GenP.hostOps1_8 (F := Ideal),
    Cert.KernelIdeal.GenP.hostOps1_9 (F := Ideal),
    Cert.KernelIdeal.GenP.hostOps1_10 (F := Ideal),
    Cert.KernelIdeal.GenP.hostOps1_11 (F := Ideal),
    Cert.KernelIdeal.GenP.hostOps1_12 (F := Ideal),
    Cert.KernelIdeal.GenP.hostOps1_13 (F := Ideal),
    Cert.KernelIdeal.GenP.hostOps1_14 (F := Ideal),
    Cert.KernelIdeal.GenP.hostOps1_15 (F := Ideal),
    Cert.KernelIdeal.GenP.hostOps1_16 (F := Ideal),
    Cert.KernelIdeal.GenP.hostOps1_17 (F := Ideal),
    Cert.KernelIdeal.GenP.hostOps1_18 (F := Ideal),
    Cert.KernelIdeal.GenP.hostOps1_19 (F := Ideal),
    Cert.KernelIdeal.GenP.hostOps1_20 (F := Ideal)]

/-- The reference's host operations after its first stretch, one list. -/
abbrev tailROps : List (HloOp Cert.ReferenceIdeal.τ Cert.ReferenceIdeal.sig (Elt Ideal)) :=
  List.flatten [
    Cert.ReferenceIdeal.RefRun.rOps1 (F := Ideal),
    Cert.ReferenceIdeal.RefRun.rOps2 (F := Ideal),
    Cert.ReferenceIdeal.RefRun.rOps3 (F := Ideal),
    Cert.ReferenceIdeal.RefRun.rOps4 (F := Ideal),
    Cert.ReferenceIdeal.RefRun.rOps5 (F := Ideal),
    Cert.ReferenceIdeal.RefRun.rOps6 (F := Ideal),
    Cert.ReferenceIdeal.RefRun.rOps7 (F := Ideal),
    Cert.ReferenceIdeal.RefRun.rOps8 (F := Ideal),
    Cert.ReferenceIdeal.RefRun.rOps9 (F := Ideal),
    Cert.ReferenceIdeal.RefRun.rOps10 (F := Ideal),
    Cert.ReferenceIdeal.RefRun.rOps11 (F := Ideal),
    Cert.ReferenceIdeal.RefRun.rOps12 (F := Ideal),
    Cert.ReferenceIdeal.RefRun.rOps13 (F := Ideal),
    Cert.ReferenceIdeal.RefRun.rOps14 (F := Ideal),
    Cert.ReferenceIdeal.RefRun.rOps15 (F := Ideal),
    Cert.ReferenceIdeal.RefRun.rOps16 (F := Ideal),
    Cert.ReferenceIdeal.RefRun.rOps17 (F := Ideal),
    Cert.ReferenceIdeal.RefRun.rOps18 (F := Ideal),
    Cert.ReferenceIdeal.RefRun.rOps19 (F := Ideal),
    Cert.ReferenceIdeal.RefRun.rOps20 (F := Ideal)]

/-- The kernel program's host operations are its first stretch, then the rest. -/
theorem kernel_split :
    List.flatten (Cert.KernelIdeal.GenP.tailOpss (F := Ideal)) = Cert.KernelIdeal.GenP.hostOps1 (F := Ideal) ++ tailKOps :=
  List.flatten_cons

/-- The reference's host operations are its first stretch, then the rest. -/
theorem ref_split : Cert.ReferenceIdeal.RefRun.ops (F := Ideal) = Cert.ReferenceIdeal.RefRun.rOps0 (F := Ideal) ++ tailROps := by
  simp only [Cert.ReferenceIdeal.RefRun.ops, List.flatten_cons, List.flatten_nil, List.append_nil, List.append_assoc]

/-- THE FOUR RESULTS AGREE. -/
theorem results_agree (WK : Valuation Cert.KernelIdeal.τ Cert.KernelIdeal.sig (Elt Ideal)) (WR : Valuation Cert.ReferenceIdeal.τ Cert.ReferenceIdeal.sig (Elt Ideal))
    (a : FVec Ideal Cert.KernelIdeal.S8x1024x2 .f32) (c : FVec Ideal Cert.KernelIdeal.S8x2048x2 .f32)
    (hv0 : (WK (Proc.devRef .tc Cert.KernelIdeal.main_v0) : IVec Cert.KernelIdeal.S8x1024x2048 32) = G a c)
    (hK1 : WK (Proc.devRef .tc Cert.KernelIdeal.main_arg1) = a) (hK3 : WK (Proc.devRef .tc Cert.KernelIdeal.main_arg3) = c)
    (hR1 : WR (Proc.devRef .tc Cert.ReferenceIdeal.main_arg1) = a) (hR3 : WR (Proc.devRef .tc Cert.ReferenceIdeal.main_arg3) = c)
    (ha : ∀ i, ∃ x : ℝ, a i = (x : EReal)) (hc : ∀ i, ∃ x : ℝ, c i = (x : EReal))
    (htail : ∀ (WK : Valuation Cert.KernelIdeal.τ Cert.KernelIdeal.sig (Elt Ideal)) (WR : Valuation Cert.ReferenceIdeal.τ Cert.ReferenceIdeal.sig (Elt Ideal)),
      (WK (Proc.devRef .tc Cert.KernelIdeal.main_v4) : IVec Cert.KernelIdeal.S16777216 1) = WR (Proc.devRef .tc Cert.ReferenceIdeal.main_v10) →
      (WK (Proc.devRef .tc Cert.KernelIdeal.main_arg1) : FVec Ideal Cert.KernelIdeal.S8x1024x2 .f32) = WR (Proc.devRef .tc Cert.ReferenceIdeal.main_arg1) →
      (WK (Proc.devRef .tc Cert.KernelIdeal.main_arg3) : FVec Ideal Cert.KernelIdeal.S8x2048x2 .f32) = WR (Proc.devRef .tc Cert.ReferenceIdeal.main_arg3) →
      (StableHlo.after tailKOps WK (Proc.devRef .tc Cert.KernelIdeal.main_v51) : FVec Ideal Cert.KernelIdeal.S16777216x2 .f32)
        = StableHlo.after tailROps WR (Proc.devRef .tc Cert.ReferenceIdeal.main_v57)
      ∧ (StableHlo.after tailKOps WK (Proc.devRef .tc Cert.KernelIdeal.main_v30) : IVec Cert.KernelIdeal.S16777216 32)
        = StableHlo.after tailROps WR (Proc.devRef .tc Cert.ReferenceIdeal.main_v36)
      ∧ (StableHlo.after tailKOps WK (Proc.devRef .tc Cert.KernelIdeal.main_v34) : IVec Cert.KernelIdeal.S16777216 32)
        = StableHlo.after tailROps WR (Proc.devRef .tc Cert.ReferenceIdeal.main_v40)
      ∧ (StableHlo.after tailKOps WK (Proc.devRef .tc Cert.KernelIdeal.main_v56) : IVec Cert.KernelIdeal.S16777216 1)
        = StableHlo.after tailROps WR (Proc.devRef .tc Cert.ReferenceIdeal.main_v62)) :
    (StableHlo.after (List.flatten (Cert.KernelIdeal.GenP.tailOpss (F := Ideal))) WK (Proc.devRef .tc Cert.KernelIdeal.main_v51) : FVec Ideal Cert.KernelIdeal.S16777216x2 .f32)
        = StableHlo.after (Cert.ReferenceIdeal.RefRun.ops (F := Ideal)) WR (Proc.devRef .tc Cert.ReferenceIdeal.main_v57)
      ∧ (StableHlo.after (List.flatten (Cert.KernelIdeal.GenP.tailOpss (F := Ideal))) WK (Proc.devRef .tc Cert.KernelIdeal.main_v30) : IVec Cert.KernelIdeal.S16777216 32)
        = StableHlo.after (Cert.ReferenceIdeal.RefRun.ops (F := Ideal)) WR (Proc.devRef .tc Cert.ReferenceIdeal.main_v36)
      ∧ (StableHlo.after (List.flatten (Cert.KernelIdeal.GenP.tailOpss (F := Ideal))) WK (Proc.devRef .tc Cert.KernelIdeal.main_v34) : IVec Cert.KernelIdeal.S16777216 32)
        = StableHlo.after (Cert.ReferenceIdeal.RefRun.ops (F := Ideal)) WR (Proc.devRef .tc Cert.ReferenceIdeal.main_v40)
      ∧ (StableHlo.after (List.flatten (Cert.KernelIdeal.GenP.tailOpss (F := Ideal))) WK (Proc.devRef .tc Cert.KernelIdeal.main_v56) : IVec Cert.KernelIdeal.S16777216 1)
        = StableHlo.after (Cert.ReferenceIdeal.RefRun.ops (F := Ideal)) WR (Proc.devRef .tc Cert.ReferenceIdeal.main_v62) := by
  rw [kernel_split, ref_split, Cert.LibAfter.after_append, Cert.LibAfter.after_append]
  obtain ⟨h4, h1, h3⟩ := head_agree WK WR a c hv0 hK1 hK3 hR1 hR3 ha hc
  exact htail _ _ h4 h1 h3

end Cert.Mask

end
-- ==== Proof.TailBridge0.lean ====
import proofs.«142671_j52776558133736_1_alg».proof.Proof.LaunchKI
import proofs.«142671_j52776558133736_1_alg».proof.Proof.RefOps
import Idealize.ShloMosaic.PureOps.Ideal

/-! The two programs run the same host operations after the mask, the kernel's program on its buffers and the
    reference on its own. This module holds what the stretch-by-stretch comparison shares: the valuations' types and
    the fold of a concatenation as the folds of its parts. -/

noncomputable section

namespace Cert.TailBridge

open Idealize.ShloMosaic Idealize.ShloMosaic.TcCoe
open Idealize.SL Idealize.SL.Sem

/-- Buffer contents of the kernel's program, floats read as extended reals. -/
abbrev ValK : Type := Valuation Cert.KernelIdeal.τ Cert.KernelIdeal.sig (Elt Ideal)
/-- Buffer contents of the reference program, floats read as extended reals. -/
abbrev ValR : Type := Valuation Cert.ReferenceIdeal.τ Cert.ReferenceIdeal.sig (Elt Ideal)

/-- Running a concatenation is running its first part, then its second from what the first left. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

end Cert.TailBridge
-- ==== Proof.TailBridge1.lean ====
import proofs.«142671_j52776558133736_1_alg».proof.Proof.TailBridge0

/-! Stretches 1 to 3 of the shared host operations after the mask: the cumulative sum of the mask, a zero vector and a zero constant, the clamp of the cumulative sum at zero from below. -/

set_option maxRecDepth 16384

noncomputable section

namespace Cert.TailBridge

open Idealize.ShloMosaic Idealize.ShloMosaic.TcCoe
open Idealize.SL Idealize.SL.Sem
open Idealize.ShloMosaic.StableHlo

variable [Cert.ReferenceIdeal.Facts]

/-- Stretch 1: from contents that agree on the buffers live before it, the two programs' stretches leave contents that
    agree on the buffers live after it. -/
theorem s1 (VK : ValK) (VR : ValR)
    (h_arg1 : (VK (Proc.devRef .tc Cert.KernelIdeal.main_arg1) : FVec Ideal Cert.KernelIdeal.S8x1024x2 .f32) = VR (Proc.devRef .tc Cert.ReferenceIdeal.main_arg1))
    (h_arg3 : (VK (Proc.devRef .tc Cert.KernelIdeal.main_arg3) : FVec Ideal Cert.KernelIdeal.S8x2048x2 .f32) = VR (Proc.devRef .tc Cert.ReferenceIdeal.main_arg3))
    (h_v4 : (VK (Proc.devRef .tc Cert.KernelIdeal.main_v4) : IVec Cert.KernelIdeal.S16777216 1) = VR (Proc.devRef .tc Cert.ReferenceIdeal.main_v10))
    :
    ((StableHlo.after (Cert.KernelIdeal.GenP.hostOps1_1 (F := Ideal)) VK (Proc.devRef .tc Cert.KernelIdeal.main_arg1) : FVec Ideal Cert.KernelIdeal.S8x1024x2 .f32)
      = StableHlo.after (Cert.ReferenceIdeal.RefRun.rOps1 (F := Ideal)) VR (Proc.devRef .tc Cert.ReferenceIdeal.main_arg1)) ∧
    ((StableHlo.after (Cert.KernelIdeal.GenP.hostOps1_1 (F := Ideal)) VK (Proc.devRef .tc Cert.KernelIdeal.main_arg3) : FVec Ideal Cert.KernelIdeal.S8x2048x2 .f32)
      = StableHlo.after (Cert.ReferenceIdeal.RefRun.rOps1 (F := Ideal)) VR (Proc.devRef .tc Cert.ReferenceIdeal.main_arg3)) ∧
    ((StableHlo.after (Cert.KernelIdeal.GenP.hostOps1_1 (F := Ideal)) VK (Proc.devRef .tc Cert.KernelIdeal.main_v4) : IVec Cert.KernelIdeal.S16777216 1)
      = StableHlo.after (Cert.ReferenceIdeal.RefRun.rOps1 (F := Ideal)) VR (Proc.devRef .tc Cert.ReferenceIdeal.main_v10)) ∧
    ((StableHlo.after (Cert.KernelIdeal.GenP.hostOps1_1 (F := Ideal)) VK (Proc.devRef .tc Cert.KernelIdeal.main_v5) : IVec Cert.KernelIdeal.S16777216 32)
      = StableHlo.after (Cert.ReferenceIdeal.RefRun.rOps1 (F := Ideal)) VR (Proc.devRef .tc Cert.ReferenceIdeal.main_v11)) := by
  refine ⟨?_, ?_, ?_, ?_⟩
  · after_results_simp; exact h_arg1
  · after_results_simp; exact h_arg3
  · after_results_simp; exact h_v4
  · after_results_simp; rw [h_v4] <;> rfl

/-- Stretch 2: from contents that agree on the buffers live before it, the two programs' stretches leave contents that
    agree on the buffers live after it. -/
theorem s2 (VK : ValK) (VR : ValR)
    (h_arg1 : (VK (Proc.devRef .tc Cert.KernelIdeal.main_arg1) : FVec Ideal Cert.KernelIdeal.S8x1024x2 .f32) = VR (Proc.devRef .tc Cert.ReferenceIdeal.main_arg1))
    (h_arg3 : (VK (Proc.devRef .tc Cert.KernelIdeal.main_arg3) : FVec Ideal Cert.KernelIdeal.S8x2048x2 .f32) = VR (Proc.devRef .tc Cert.ReferenceIdeal.main_arg3))
    (h_v4 : (VK (Proc.devRef .tc Cert.KernelIdeal.main_v4) : IVec Cert.KernelIdeal.S16777216 1) = VR (Proc.devRef .tc Cert.ReferenceIdeal.main_v10))
    (h_v5 : (VK (Proc.devRef .tc Cert.KernelIdeal.main_v5) : IVec Cert.KernelIdeal.S16777216 32) = VR (Proc.devRef .tc Cert.ReferenceIdeal.main_v11))
    :
    ((StableHlo.after (Cert.KernelIdeal.GenP.hostOps1_2 (F := Ideal)) VK (Proc.devRef .tc Cert.KernelIdeal.main_arg1) : FVec Ideal Cert.KernelIdeal.S8x1024x2 .f32)
      = StableHlo.after (Cert.ReferenceIdeal.RefRun.rOps2 (F := Ideal)) VR (Proc.devRef .tc Cert.ReferenceIdeal.main_arg1)) ∧
    ((StableHlo.after (Cert.KernelIdeal.GenP.hostOps1_2 (F := Ideal)) VK (Proc.devRef .tc Cert.KernelIdeal.main_arg3) : FVec Ideal Cert.KernelIdeal.S8x2048x2 .f32)
      = StableHlo.after (Cert.ReferenceIdeal.RefRun.rOps2 (F := Ideal)) VR (Proc.devRef .tc Cert.ReferenceIdeal.main_arg3)) ∧
    ((StableHlo.after (Cert.KernelIdeal.GenP.hostOps1_2 (F := Ideal)) VK (Proc.devRef .tc Cert.KernelIdeal.main_v4) : IVec Cert.KernelIdeal.S16777216 1)
      = StableHlo.after (Cert.ReferenceIdeal.RefRun.rOps2 (F := Ideal)) VR (Proc.devRef .tc Cert.ReferenceIdeal.main_v10)) ∧
    ((StableHlo.after (Cert.KernelIdeal.GenP.hostOps1_2 (F := Ideal)) VK (Proc.devRef .tc Cert.KernelIdeal.main_v5) : IVec Cert.KernelIdeal.S16777216 32)
      = StableHlo.after (Cert.ReferenceIdeal.RefRun.rOps2 (F := Ideal)) VR (Proc.devRef .tc Cert.ReferenceIdeal.main_v11)) ∧
    ((StableHlo.after (Cert.KernelIdeal.GenP.hostOps1_2 (F := Ideal)) VK (Proc.devRef .tc Cert.KernelIdeal.main_v6) : IVec Cert.KernelIdeal.S16777216 32)
      = StableHlo.after (Cert.ReferenceIdeal.RefRun.rOps2 (F := Ideal)) VR (Proc.devRef .tc Cert.ReferenceIdeal.main_v12)) ∧
    ((StableHlo.after (Cert.KernelIdeal.GenP.hostOps1_2 (F := Ideal)) VK (Proc.devRef .tc Cert.KernelIdeal.main_c_1) : IVec Cert.KernelIdeal.S_ 32)
      = StableHlo.after (Cert.ReferenceIdeal.RefRun.rOps2 (F := Ideal)) VR (Proc.devRef .tc Cert.ReferenceIdeal.main_c_1)) := by
  refine ⟨?_, ?_, ?_, ?_, ?_, ?_⟩
  · after_results_simp; exact h_arg1
  · after_results_simp; exact h_arg3
  · after_results_simp; exact h_v4
  · after_results_simp; exact h_v5
  · after_results_simp <;> rfl
  · after_results_simp <;> rfl

/-- Stretch 3: from contents that agree on the buffers live before it, the two programs' stretches leave contents that
    agree on the buffers live after it. -/
theorem s3 (VK : ValK) (VR : ValR)
    (h_arg1 : (VK (Proc.devRef .tc Cert.KernelIdeal.main_arg1) : FVec Ideal Cert.KernelIdeal.S8x1024x2 .f32) = VR (Proc.devRef .tc Cert.ReferenceIdeal.main_arg1))
    (h_arg3 : (VK (Proc.devRef .tc Cert.KernelIdeal.main_arg3) : FVec Ideal Cert.KernelIdeal.S8x2048x2 .f32) = VR (Proc.devRef .tc Cert.ReferenceIdeal.main_arg3))
    (h_v4 : (VK (Proc.devRef .tc Cert.KernelIdeal.main_v4) : IVec Cert.KernelIdeal.S16777216 1) = VR (Proc.devRef .tc Cert.ReferenceIdeal.main_v10))
    (h_v5 : (VK (Proc.devRef .tc Cert.KernelIdeal.main_v5) : IVec Cert.KernelIdeal.S16777216 32) = VR (Proc.devRef .tc Cert.ReferenceIdeal.main_v11))
    (h_v6 : (VK (Proc.devRef .tc Cert.KernelIdeal.main_v6) : IVec Cert.KernelIdeal.S16777216 32) = VR (Proc.devRef .tc Cert.ReferenceIdeal.main_v12))
    (h_c_1 : (VK (Proc.devRef .tc Cert.KernelIdeal.main_c_1) : IVec Cert.KernelIdeal.S_ 32) = VR (Proc.devRef .tc Cert.ReferenceIdeal.main_c_1))
    :
    ((StableHlo.after (Cert.KernelIdeal.GenP.hostOps1_3 (F := Ideal)) VK (Proc.devRef .tc Cert.KernelIdeal.main_arg1) : FVec Ideal Cert.KernelIdeal.S8x1024x2 .f32)
      = StableHlo.after (Cert.ReferenceIdeal.RefRun.rOps3 (F := Ideal)) VR (Proc.devRef .tc Cert.ReferenceIdeal.main_arg1)) ∧
    ((StableHlo.after (Cert.KernelIdeal.GenP.hostOps1_3 (F := Ideal)) VK (Proc.devRef .tc Cert.KernelIdeal.main_arg3) : FVec Ideal Cert.KernelIdeal.S8x2048x2 .f32)
      = StableHlo.after (Cert.ReferenceIdeal.RefRun.rOps3 (F := Ideal)) VR (Proc.devRef .tc Cert.ReferenceIdeal.main_arg3)) ∧
    ((StableHlo.after (Cert.KernelIdeal.GenP.hostOps1_3 (F := Ideal)) VK (Proc.devRef .tc Cert.KernelIdeal.main_v4) : IVec Cert.KernelIdeal.S16777216 1)
      = StableHlo.after (Cert.ReferenceIdeal.RefRun.rOps3 (F := Ideal)) VR (Proc.devRef .tc Cert.ReferenceIdeal.main_v10)) ∧
    ((StableHlo.after (Cert.KernelIdeal.GenP.hostOps1_3 (F := Ideal)) VK (Proc.devRef .tc Cert.KernelIdeal.main_v6) : IVec Cert.KernelIdeal.S16777216 32)
      = StableHlo.after (Cert.ReferenceIdeal.RefRun.rOps3 (F := Ideal)) VR (Proc.devRef .tc Cert.ReferenceIdeal.main_v12)) ∧
    ((StableHlo.after (Cert.KernelIdeal.GenP.hostOps1_3 (F := Ideal)) VK (Proc.devRef .tc Cert.KernelIdeal.main_v7) : IVec Cert.KernelIdeal.S16777216 32)
      = StableHlo.after (Cert.ReferenceIdeal.RefRun.rOps3 (F := Ideal)) VR (Proc.devRef .tc Cert.ReferenceIdeal.main_v13)) := by
  refine ⟨?_, ?_, ?_, ?_, ?_⟩
  · after_results_simp; exact h_arg1
  · after_results_simp; exact h_arg3
  · after_results_simp; exact h_v4
  · after_results_simp; exact h_v6
  · after_results_simp; rw [h_v5, h_c_1] <;> rfl

end Cert.TailBridge
-- ==== Proof.TailBridge2.lean ====
import proofs.«142671_j52776558133736_1_alg».proof.Proof.TailBridge0

/-! Stretches 4 to 6 of the shared host operations after the mask: the scatter of ones at the clamped cumulative sums, its cumulative sum, a constant. -/

set_option maxRecDepth 16384

noncomputable section

namespace Cert.TailBridge

open Idealize.ShloMosaic Idealize.ShloMosaic.TcCoe
open Idealize.SL Idealize.SL.Sem
open Idealize.ShloMosaic.StableHlo

variable [Cert.ReferenceIdeal.Facts]

/-- Stretch 4: from contents that agree on the buffers live before it, the two programs' stretches leave contents that
    agree on the buffers live after it. -/
theorem s4 (VK : ValK) (VR : ValR)
    (h_arg1 : (VK (Proc.devRef .tc Cert.KernelIdeal.main_arg1) : FVec Ideal Cert.KernelIdeal.S8x1024x2 .f32) = VR (Proc.devRef .tc Cert.ReferenceIdeal.main_arg1))
    (h_arg3 : (VK (Proc.devRef .tc Cert.KernelIdeal.main_arg3) : FVec Ideal Cert.KernelIdeal.S8x2048x2 .f32) = VR (Proc.devRef .tc Cert.ReferenceIdeal.main_arg3))
    (h_v4 : (VK (Proc.devRef .tc Cert.KernelIdeal.main_v4) : IVec Cert.KernelIdeal.S16777216 1) = VR (Proc.devRef .tc Cert.ReferenceIdeal.main_v10))
    (h_v6 : (VK (Proc.devRef .tc Cert.KernelIdeal.main_v6) : IVec Cert.KernelIdeal.S16777216 32) = VR (Proc.devRef .tc Cert.ReferenceIdeal.main_v12))
    (h_v7 : (VK (Proc.devRef .tc Cert.KernelIdeal.main_v7) : IVec Cert.KernelIdeal.S16777216 32) = VR (Proc.devRef .tc Cert.ReferenceIdeal.main_v13))
    :
    ((StableHlo.after (Cert.KernelIdeal.GenP.hostOps1_4 (F := Ideal)) VK (Proc.devRef .tc Cert.KernelIdeal.main_arg1) : FVec Ideal Cert.KernelIdeal.S8x1024x2 .f32)
      = StableHlo.after (Cert.ReferenceIdeal.RefRun.rOps4 (F := Ideal)) VR (Proc.devRef .tc Cert.ReferenceIdeal.main_arg1)) ∧
    ((StableHlo.after (Cert.KernelIdeal.GenP.hostOps1_4 (F := Ideal)) VK (Proc.devRef .tc Cert.KernelIdeal.main_arg3) : FVec Ideal Cert.KernelIdeal.S8x2048x2 .f32)
      = StableHlo.after (Cert.ReferenceIdeal.RefRun.rOps4 (F := Ideal)) VR (Proc.devRef .tc Cert.ReferenceIdeal.main_arg3)) ∧
    ((StableHlo.after (Cert.KernelIdeal.GenP.hostOps1_4 (F := Ideal)) VK (Proc.devRef .tc Cert.KernelIdeal.main_v4) : IVec Cert.KernelIdeal.S16777216 1)
      = StableHlo.after (Cert.ReferenceIdeal.RefRun.rOps4 (F := Ideal)) VR (Proc.devRef .tc Cert.ReferenceIdeal.main_v10)) ∧
    ((StableHlo.after (Cert.KernelIdeal.GenP.hostOps1_4 (F := Ideal)) VK (Proc.devRef .tc Cert.KernelIdeal.main_v15) : IVec Cert.KernelIdeal.S16777216 32)
      = StableHlo.after (Cert.ReferenceIdeal.RefRun.rOps4 (F := Ideal)) VR (Proc.devRef .tc Cert.ReferenceIdeal.main_v21)) := by
  refine ⟨?_, ?_, ?_, ?_⟩
  · after_results_simp; exact h_arg1
  · after_results_simp; exact h_arg3
  · after_results_simp; exact h_v4
  · after_results_simp; rw [h_v6, h_v7] <;> rfl

/-- Stretch 5: from contents that agree on the buffers live before it, the two programs' stretches leave contents that
    agree on the buffers live after it. -/
theorem s5 (VK : ValK) (VR : ValR)
    (h_arg1 : (VK (Proc.devRef .tc Cert.KernelIdeal.main_arg1) : FVec Ideal Cert.KernelIdeal.S8x1024x2 .f32) = VR (Proc.devRef .tc Cert.ReferenceIdeal.main_arg1))
    (h_arg3 : (VK (Proc.devRef .tc Cert.KernelIdeal.main_arg3) : FVec Ideal Cert.KernelIdeal.S8x2048x2 .f32) = VR (Proc.devRef .tc Cert.ReferenceIdeal.main_arg3))
    (h_v4 : (VK (Proc.devRef .tc Cert.KernelIdeal.main_v4) : IVec Cert.KernelIdeal.S16777216 1) = VR (Proc.devRef .tc Cert.ReferenceIdeal.main_v10))
    (h_v15 : (VK (Proc.devRef .tc Cert.KernelIdeal.main_v15) : IVec Cert.KernelIdeal.S16777216 32) = VR (Proc.devRef .tc Cert.ReferenceIdeal.main_v21))
    :
    ((StableHlo.after (Cert.KernelIdeal.GenP.hostOps1_5 (F := Ideal)) VK (Proc.devRef .tc Cert.KernelIdeal.main_arg1) : FVec Ideal Cert.KernelIdeal.S8x1024x2 .f32)
      = StableHlo.after (Cert.ReferenceIdeal.RefRun.rOps5 (F := Ideal)) VR (Proc.devRef .tc Cert.ReferenceIdeal.main_arg1)) ∧
    ((StableHlo.after (Cert.KernelIdeal.GenP.hostOps1_5 (F := Ideal)) VK (Proc.devRef .tc Cert.KernelIdeal.main_arg3) : FVec Ideal Cert.KernelIdeal.S8x2048x2 .f32)
      = StableHlo.after (Cert.ReferenceIdeal.RefRun.rOps5 (F := Ideal)) VR (Proc.devRef .tc Cert.ReferenceIdeal.main_arg3)) ∧
    ((StableHlo.after (Cert.KernelIdeal.GenP.hostOps1_5 (F := Ideal)) VK (Proc.devRef .tc Cert.KernelIdeal.main_v4) : IVec Cert.KernelIdeal.S16777216 1)
      = StableHlo.after (Cert.ReferenceIdeal.RefRun.rOps5 (F := Ideal)) VR (Proc.devRef .tc Cert.ReferenceIdeal.main_v10)) ∧
    ((StableHlo.after (Cert.KernelIdeal.GenP.hostOps1_5 (F := Ideal)) VK (Proc.devRef .tc Cert.KernelIdeal.main_v16) : IVec Cert.KernelIdeal.S16777216 32)
      = StableHlo.after (Cert.ReferenceIdeal.RefRun.rOps5 (F := Ideal)) VR (Proc.devRef .tc Cert.ReferenceIdeal.main_v22)) := by
  refine ⟨?_, ?_, ?_, ?_⟩
  · after_results_simp; exact h_arg1
  · after_results_simp; exact h_arg3
  · after_results_simp; exact h_v4
  · after_results_simp; rw [h_v15] <;> rfl

/-- Stretch 6: from contents that agree on the buffers live before it, the two programs' stretches leave contents that
    agree on the buffers live after it. -/
theorem s6 (VK : ValK) (VR : ValR)
    (h_arg1 : (VK (Proc.devRef .tc Cert.KernelIdeal.main_arg1) : FVec Ideal Cert.KernelIdeal.S8x1024x2 .f32) = VR (Proc.devRef .tc Cert.ReferenceIdeal.main_arg1))
    (h_arg3 : (VK (Proc.devRef .tc Cert.KernelIdeal.main_arg3) : FVec Ideal Cert.KernelIdeal.S8x2048x2 .f32) = VR (Proc.devRef .tc Cert.ReferenceIdeal.main_arg3))
    (h_v4 : (VK (Proc.devRef .tc Cert.KernelIdeal.main_v4) : IVec Cert.KernelIdeal.S16777216 1) = VR (Proc.devRef .tc Cert.ReferenceIdeal.main_v10))
    (h_v16 : (VK (Proc.devRef .tc Cert.KernelIdeal.main_v16) : IVec Cert.KernelIdeal.S16777216 32) = VR (Proc.devRef .tc Cert.ReferenceIdeal.main_v22))
    :
    ((StableHlo.after (Cert.KernelIdeal.GenP.hostOps1_6 (F := Ideal)) VK (Proc.devRef .tc Cert.KernelIdeal.main_arg1) : FVec Ideal Cert.KernelIdeal.S8x1024x2 .f32)
      = StableHlo.after (Cert.ReferenceIdeal.RefRun.rOps6 (F := Ideal)) VR (Proc.devRef .tc Cert.ReferenceIdeal.main_arg1)) ∧
    ((StableHlo.after (Cert.KernelIdeal.GenP.hostOps1_6 (F := Ideal)) VK (Proc.devRef .tc Cert.KernelIdeal.main_arg3) : FVec Ideal Cert.KernelIdeal.S8x2048x2 .f32)
      = StableHlo.after (Cert.ReferenceIdeal.RefRun.rOps6 (F := Ideal)) VR (Proc.devRef .tc Cert.ReferenceIdeal.main_arg3)) ∧
    ((StableHlo.after (Cert.KernelIdeal.GenP.hostOps1_6 (F := Ideal)) VK (Proc.devRef .tc Cert.KernelIdeal.main_v4) : IVec Cert.KernelIdeal.S16777216 1)
      = StableHlo.after (Cert.ReferenceIdeal.RefRun.rOps6 (F := Ideal)) VR (Proc.devRef .tc Cert.ReferenceIdeal.main_v10)) ∧
    ((StableHlo.after (Cert.KernelIdeal.GenP.hostOps1_6 (F := Ideal)) VK (Proc.devRef .tc Cert.KernelIdeal.main_v16) : IVec Cert.KernelIdeal.S16777216 32)
      = StableHlo.after (Cert.ReferenceIdeal.RefRun.rOps6 (F := Ideal)) VR (Proc.devRef .tc Cert.ReferenceIdeal.main_v22)) ∧
    ((StableHlo.after (Cert.KernelIdeal.GenP.hostOps1_6 (F := Ideal)) VK (Proc.devRef .tc Cert.KernelIdeal.main_c_5) : IVec Cert.KernelIdeal.S_ 32)
      = StableHlo.after (Cert.ReferenceIdeal.RefRun.rOps6 (F := Ideal)) VR (Proc.devRef .tc Cert.ReferenceIdeal.main_c_5)) := by
  refine ⟨?_, ?_, ?_, ?_, ?_⟩
  · after_results_simp; exact h_arg1
  · after_results_simp; exact h_arg3
  · after_results_simp; exact h_v4
  · after_results_simp; exact h_v16
  · after_results_simp <;> rfl

end Cert.TailBridge
-- ==== Proof.TailBridge3.lean ====
import proofs.«142671_j52776558133736_1_alg».proof.Proof.TailBridge0

/-! Stretches 7 and 8 of the shared host operations after the mask: the floor division by one, a constant. -/

set_option maxRecDepth 16384

noncomputable section

namespace Cert.TailBridge

open Idealize.ShloMosaic Idealize.ShloMosaic.TcCoe
open Idealize.SL Idealize.SL.Sem
open Idealize.ShloMosaic.StableHlo

variable [Cert.ReferenceIdeal.Facts]

/-- Stretch 7: from contents that agree on the buffers live before it, the two programs' stretches leave contents that
    agree on the buffers live after it. -/
theorem s7 (VK : ValK) (VR : ValR)
    (h_arg1 : (VK (Proc.devRef .tc Cert.KernelIdeal.main_arg1) : FVec Ideal Cert.KernelIdeal.S8x1024x2 .f32) = VR (Proc.devRef .tc Cert.ReferenceIdeal.main_arg1))
    (h_arg3 : (VK (Proc.devRef .tc Cert.KernelIdeal.main_arg3) : FVec Ideal Cert.KernelIdeal.S8x2048x2 .f32) = VR (Proc.devRef .tc Cert.ReferenceIdeal.main_arg3))
    (h_v4 : (VK (Proc.devRef .tc Cert.KernelIdeal.main_v4) : IVec Cert.KernelIdeal.S16777216 1) = VR (Proc.devRef .tc Cert.ReferenceIdeal.main_v10))
    (h_v16 : (VK (Proc.devRef .tc Cert.KernelIdeal.main_v16) : IVec Cert.KernelIdeal.S16777216 32) = VR (Proc.devRef .tc Cert.ReferenceIdeal.main_v22))
    (h_c_5 : (VK (Proc.devRef .tc Cert.KernelIdeal.main_c_5) : IVec Cert.KernelIdeal.S_ 32) = VR (Proc.devRef .tc Cert.ReferenceIdeal.main_c_5))
    :
    ((StableHlo.after (Cert.KernelIdeal.GenP.hostOps1_7 (F := Ideal)) VK (Proc.devRef .tc Cert.KernelIdeal.main_arg1) : FVec Ideal Cert.KernelIdeal.S8x1024x2 .f32)
      = StableHlo.after (Cert.ReferenceIdeal.RefRun.rOps7 (F := Ideal)) VR (Proc.devRef .tc Cert.ReferenceIdeal.main_arg1)) ∧
    ((StableHlo.after (Cert.KernelIdeal.GenP.hostOps1_7 (F := Ideal)) VK (Proc.devRef .tc Cert.KernelIdeal.main_arg3) : FVec Ideal Cert.KernelIdeal.S8x2048x2 .f32)
      = StableHlo.after (Cert.ReferenceIdeal.RefRun.rOps7 (F := Ideal)) VR (Proc.devRef .tc Cert.ReferenceIdeal.main_arg3)) ∧
    ((StableHlo.after (Cert.KernelIdeal.GenP.hostOps1_7 (F := Ideal)) VK (Proc.devRef .tc Cert.KernelIdeal.main_v4) : IVec Cert.KernelIdeal.S16777216 1)
      = StableHlo.after (Cert.ReferenceIdeal.RefRun.rOps7 (F := Ideal)) VR (Proc.devRef .tc Cert.ReferenceIdeal.main_v10)) ∧
    ((StableHlo.after (Cert.KernelIdeal.GenP.hostOps1_7 (F := Ideal)) VK (Proc.devRef .tc Cert.KernelIdeal.main_v17) : IVec Cert.KernelIdeal.S16777216 32)
      = StableHlo.after (Cert.ReferenceIdeal.RefRun.rOps7 (F := Ideal)) VR (Proc.devRef .tc Cert.ReferenceIdeal.main_v23)) := by
  refine ⟨?_, ?_, ?_, ?_⟩
  · after_results_simp; exact h_arg1
  · after_results_simp; exact h_arg3
  · after_results_simp; exact h_v4
  · after_results_simp; rw [h_v16, h_c_5] <;> rfl

/-- Stretch 8: from contents that agree on the buffers live before it, the two programs' stretches leave contents that
    agree on the buffers live after it. -/
theorem s8 (VK : ValK) (VR : ValR)
    (h_arg1 : (VK (Proc.devRef .tc Cert.KernelIdeal.main_arg1) : FVec Ideal Cert.KernelIdeal.S8x1024x2 .f32) = VR (Proc.devRef .tc Cert.ReferenceIdeal.main_arg1))
    (h_arg3 : (VK (Proc.devRef .tc Cert.KernelIdeal.main_arg3) : FVec Ideal Cert.KernelIdeal.S8x2048x2 .f32) = VR (Proc.devRef .tc Cert.ReferenceIdeal.main_arg3))
    (h_v4 : (VK (Proc.devRef .tc Cert.KernelIdeal.main_v4) : IVec Cert.KernelIdeal.S16777216 1) = VR (Proc.devRef .tc Cert.ReferenceIdeal.main_v10))
    (h_v17 : (VK (Proc.devRef .tc Cert.KernelIdeal.main_v17) : IVec Cert.KernelIdeal.S16777216 32) = VR (Proc.devRef .tc Cert.ReferenceIdeal.main_v23))
    :
    ((StableHlo.after (Cert.KernelIdeal.GenP.hostOps1_8 (F := Ideal)) VK (Proc.devRef .tc Cert.KernelIdeal.main_arg1) : FVec Ideal Cert.KernelIdeal.S8x1024x2 .f32)
      = StableHlo.after (Cert.ReferenceIdeal.RefRun.rOps8 (F := Ideal)) VR (Proc.devRef .tc Cert.ReferenceIdeal.main_arg1)) ∧
    ((StableHlo.after (Cert.KernelIdeal.GenP.hostOps1_8 (F := Ideal)) VK (Proc.devRef .tc Cert.KernelIdeal.main_arg3) : FVec Ideal Cert.KernelIdeal.S8x2048x2 .f32)
      = StableHlo.after (Cert.ReferenceIdeal.RefRun.rOps8 (F := Ideal)) VR (Proc.devRef .tc Cert.ReferenceIdeal.main_arg3)) ∧
    ((StableHlo.after (Cert.KernelIdeal.GenP.hostOps1_8 (F := Ideal)) VK (Proc.devRef .tc Cert.KernelIdeal.main_v4) : IVec Cert.KernelIdeal.S16777216 1)
      = StableHlo.after (Cert.ReferenceIdeal.RefRun.rOps8 (F := Ideal)) VR (Proc.devRef .tc Cert.ReferenceIdeal.main_v10)) ∧
    ((StableHlo.after (Cert.KernelIdeal.GenP.hostOps1_8 (F := Ideal)) VK (Proc.devRef .tc Cert.KernelIdeal.main_v17) : IVec Cert.KernelIdeal.S16777216 32)
      = StableHlo.after (Cert.ReferenceIdeal.RefRun.rOps8 (F := Ideal)) VR (Proc.devRef .tc Cert.ReferenceIdeal.main_v23)) ∧
    ((StableHlo.after (Cert.KernelIdeal.GenP.hostOps1_8 (F := Ideal)) VK (Proc.devRef .tc Cert.KernelIdeal.main_c_6) : IVec Cert.KernelIdeal.S_ 32)
      = StableHlo.after (Cert.ReferenceIdeal.RefRun.rOps8 (F := Ideal)) VR (Proc.devRef .tc Cert.ReferenceIdeal.main_c_6)) := by
  refine ⟨?_, ?_, ?_, ?_, ?_⟩
  · after_results_simp; exact h_arg1
  · after_results_simp; exact h_arg3
  · after_results_simp; exact h_v4
  · after_results_simp; exact h_v17
  · after_results_simp <;> rfl

end Cert.TailBridge
-- ==== Proof.TailBridge4.lean ====
import proofs.«142671_j52776558133736_1_alg».proof.Proof.TailBridge0

/-! Stretch 9 of the shared host operations after the mask: the remainder modulo the number of mask entries. -/

set_option maxRecDepth 16384

noncomputable section

namespace Cert.TailBridge

open Idealize.ShloMosaic Idealize.ShloMosaic.TcCoe
open Idealize.SL Idealize.SL.Sem
open Idealize.ShloMosaic.StableHlo

variable [Cert.ReferenceIdeal.Facts]

/-- Stretch 9: from contents that agree on the buffers live before it, the two programs' stretches leave contents that
    agree on the buffers live after it. -/
theorem s9 (VK : ValK) (VR : ValR)
    (h_arg1 : (VK (Proc.devRef .tc Cert.KernelIdeal.main_arg1) : FVec Ideal Cert.KernelIdeal.S8x1024x2 .f32) = VR (Proc.devRef .tc Cert.ReferenceIdeal.main_arg1))
    (h_arg3 : (VK (Proc.devRef .tc Cert.KernelIdeal.main_arg3) : FVec Ideal Cert.KernelIdeal.S8x2048x2 .f32) = VR (Proc.devRef .tc Cert.ReferenceIdeal.main_arg3))
    (h_v4 : (VK (Proc.devRef .tc Cert.KernelIdeal.main_v4) : IVec Cert.KernelIdeal.S16777216 1) = VR (Proc.devRef .tc Cert.ReferenceIdeal.main_v10))
    (h_v17 : (VK (Proc.devRef .tc Cert.KernelIdeal.main_v17) : IVec Cert.KernelIdeal.S16777216 32) = VR (Proc.devRef .tc Cert.ReferenceIdeal.main_v23))
    (h_c_6 : (VK (Proc.devRef .tc Cert.KernelIdeal.main_c_6) : IVec Cert.KernelIdeal.S_ 32) = VR (Proc.devRef .tc Cert.ReferenceIdeal.main_c_6))
    :
    ((StableHlo.after (Cert.KernelIdeal.GenP.hostOps1_9 (F := Ideal)) VK (Proc.devRef .tc Cert.KernelIdeal.main_arg1) : FVec Ideal Cert.KernelIdeal.S8x1024x2 .f32)
      = StableHlo.after (Cert.ReferenceIdeal.RefRun.rOps9 (F := Ideal)) VR (Proc.devRef .tc Cert.ReferenceIdeal.main_arg1)) ∧
    ((StableHlo.after (Cert.KernelIdeal.GenP.hostOps1_9 (F := Ideal)) VK (Proc.devRef .tc Cert.KernelIdeal.main_arg3) : FVec Ideal Cert.KernelIdeal.S8x2048x2 .f32)
      = StableHlo.after (Cert.ReferenceIdeal.RefRun.rOps9 (F := Ideal)) VR (Proc.devRef .tc Cert.ReferenceIdeal.main_arg3)) ∧
    ((StableHlo.after (Cert.KernelIdeal.GenP.hostOps1_9 (F := Ideal)) VK (Proc.devRef .tc Cert.KernelIdeal.main_v4) : IVec Cert.KernelIdeal.S16777216 1)
      = StableHlo.after (Cert.ReferenceIdeal.RefRun.rOps9 (F := Ideal)) VR (Proc.devRef .tc Cert.ReferenceIdeal.main_v10)) ∧
    ((StableHlo.after (Cert.KernelIdeal.GenP.hostOps1_9 (F := Ideal)) VK (Proc.devRef .tc Cert.KernelIdeal.main_v18) : IVec Cert.KernelIdeal.S16777216 32)
      = StableHlo.after (Cert.ReferenceIdeal.RefRun.rOps9 (F := Ideal)) VR (Proc.devRef .tc Cert.ReferenceIdeal.main_v24)) := by
  refine ⟨?_, ?_, ?_, ?_⟩
  · after_results_simp; exact h_arg1
  · after_results_simp; exact h_arg3
  · after_results_simp; exact h_v4
  · after_results_simp; rw [h_v17, h_c_6] <;> rfl

end Cert.TailBridge
-- ==== Proof.TailBridge5.lean ====
import proofs.«142671_j52776558133736_1_alg».proof.Proof.TailBridge0

/-! Stretches 10 to 12 of the shared host operations after the mask: the count of set entries and the comparison of the positions with it, the selection of the fill value, a constant. -/

set_option maxRecDepth 16384

noncomputable section

namespace Cert.TailBridge

open Idealize.ShloMosaic Idealize.ShloMosaic.TcCoe
open Idealize.SL Idealize.SL.Sem
open Idealize.ShloMosaic.StableHlo

variable [Cert.ReferenceIdeal.Facts]

/-- Stretch 10: from contents that agree on the buffers live before it, the two programs' stretches leave contents that
    agree on the buffers live after it. -/
theorem s10 (VK : ValK) (VR : ValR)
    (h_arg1 : (VK (Proc.devRef .tc Cert.KernelIdeal.main_arg1) : FVec Ideal Cert.KernelIdeal.S8x1024x2 .f32) = VR (Proc.devRef .tc Cert.ReferenceIdeal.main_arg1))
    (h_arg3 : (VK (Proc.devRef .tc Cert.KernelIdeal.main_arg3) : FVec Ideal Cert.KernelIdeal.S8x2048x2 .f32) = VR (Proc.devRef .tc Cert.ReferenceIdeal.main_arg3))
    (h_v4 : (VK (Proc.devRef .tc Cert.KernelIdeal.main_v4) : IVec Cert.KernelIdeal.S16777216 1) = VR (Proc.devRef .tc Cert.ReferenceIdeal.main_v10))
    (h_v18 : (VK (Proc.devRef .tc Cert.KernelIdeal.main_v18) : IVec Cert.KernelIdeal.S16777216 32) = VR (Proc.devRef .tc Cert.ReferenceIdeal.main_v24))
    :
    ((StableHlo.after (Cert.KernelIdeal.GenP.hostOps1_10 (F := Ideal)) VK (Proc.devRef .tc Cert.KernelIdeal.main_arg1) : FVec Ideal Cert.KernelIdeal.S8x1024x2 .f32)
      = StableHlo.after (Cert.ReferenceIdeal.RefRun.rOps10 (F := Ideal)) VR (Proc.devRef .tc Cert.ReferenceIdeal.main_arg1)) ∧
    ((StableHlo.after (Cert.KernelIdeal.GenP.hostOps1_10 (F := Ideal)) VK (Proc.devRef .tc Cert.KernelIdeal.main_arg3) : FVec Ideal Cert.KernelIdeal.S8x2048x2 .f32)
      = StableHlo.after (Cert.ReferenceIdeal.RefRun.rOps10 (F := Ideal)) VR (Proc.devRef .tc Cert.ReferenceIdeal.main_arg3)) ∧
    ((StableHlo.after (Cert.KernelIdeal.GenP.hostOps1_10 (F := Ideal)) VK (Proc.devRef .tc Cert.KernelIdeal.main_v4) : IVec Cert.KernelIdeal.S16777216 1)
      = StableHlo.after (Cert.ReferenceIdeal.RefRun.rOps10 (F := Ideal)) VR (Proc.devRef .tc Cert.ReferenceIdeal.main_v10)) ∧
    ((StableHlo.after (Cert.KernelIdeal.GenP.hostOps1_10 (F := Ideal)) VK (Proc.devRef .tc Cert.KernelIdeal.main_v18) : IVec Cert.KernelIdeal.S16777216 32)
      = StableHlo.after (Cert.ReferenceIdeal.RefRun.rOps10 (F := Ideal)) VR (Proc.devRef .tc Cert.ReferenceIdeal.main_v24)) ∧
    ((StableHlo.after (Cert.KernelIdeal.GenP.hostOps1_10 (F := Ideal)) VK (Proc.devRef .tc Cert.KernelIdeal.main_v23) : IVec Cert.KernelIdeal.S16777216 1)
      = StableHlo.after (Cert.ReferenceIdeal.RefRun.rOps10 (F := Ideal)) VR (Proc.devRef .tc Cert.ReferenceIdeal.main_v29)) ∧
    ((StableHlo.after (Cert.KernelIdeal.GenP.hostOps1_10 (F := Ideal)) VK (Proc.devRef .tc Cert.KernelIdeal.main_c_8) : IVec Cert.KernelIdeal.S_ 32)
      = StableHlo.after (Cert.ReferenceIdeal.RefRun.rOps10 (F := Ideal)) VR (Proc.devRef .tc Cert.ReferenceIdeal.main_c_8)) := by
  refine ⟨?_, ?_, ?_, ?_, ?_, ?_⟩
  · after_results_simp; exact h_arg1
  · after_results_simp; exact h_arg3
  · after_results_simp; exact h_v4
  · after_results_simp; exact h_v18
  · after_results_simp; rw [h_v4] <;> rfl
  · after_results_simp <;> rfl

/-- Stretch 11: from contents that agree on the buffers live before it, the two programs' stretches leave contents that
    agree on the buffers live after it. -/
theorem s11 (VK : ValK) (VR : ValR)
    (h_arg1 : (VK (Proc.devRef .tc Cert.KernelIdeal.main_arg1) : FVec Ideal Cert.KernelIdeal.S8x1024x2 .f32) = VR (Proc.devRef .tc Cert.ReferenceIdeal.main_arg1))
    (h_arg3 : (VK (Proc.devRef .tc Cert.KernelIdeal.main_arg3) : FVec Ideal Cert.KernelIdeal.S8x2048x2 .f32) = VR (Proc.devRef .tc Cert.ReferenceIdeal.main_arg3))
    (h_v4 : (VK (Proc.devRef .tc Cert.KernelIdeal.main_v4) : IVec Cert.KernelIdeal.S16777216 1) = VR (Proc.devRef .tc Cert.ReferenceIdeal.main_v10))
    (h_v18 : (VK (Proc.devRef .tc Cert.KernelIdeal.main_v18) : IVec Cert.KernelIdeal.S16777216 32) = VR (Proc.devRef .tc Cert.ReferenceIdeal.main_v24))
    (h_v23 : (VK (Proc.devRef .tc Cert.KernelIdeal.main_v23) : IVec Cert.KernelIdeal.S16777216 1) = VR (Proc.devRef .tc Cert.ReferenceIdeal.main_v29))
    (h_c_8 : (VK (Proc.devRef .tc Cert.KernelIdeal.main_c_8) : IVec Cert.KernelIdeal.S_ 32) = VR (Proc.devRef .tc Cert.ReferenceIdeal.main_c_8))
    :
    ((StableHlo.after (Cert.KernelIdeal.GenP.hostOps1_11 (F := Ideal)) VK (Proc.devRef .tc Cert.KernelIdeal.main_arg1) : FVec Ideal Cert.KernelIdeal.S8x1024x2 .f32)
      = StableHlo.after (Cert.ReferenceIdeal.RefRun.rOps11 (F := Ideal)) VR (Proc.devRef .tc Cert.ReferenceIdeal.main_arg1)) ∧
    ((StableHlo.after (Cert.KernelIdeal.GenP.hostOps1_11 (F := Ideal)) VK (Proc.devRef .tc Cert.KernelIdeal.main_arg3) : FVec Ideal Cert.KernelIdeal.S8x2048x2 .f32)
      = StableHlo.after (Cert.ReferenceIdeal.RefRun.rOps11 (F := Ideal)) VR (Proc.devRef .tc Cert.ReferenceIdeal.main_arg3)) ∧
    ((StableHlo.after (Cert.KernelIdeal.GenP.hostOps1_11 (F := Ideal)) VK (Proc.devRef .tc Cert.KernelIdeal.main_v4) : IVec Cert.KernelIdeal.S16777216 1)
      = StableHlo.after (Cert.ReferenceIdeal.RefRun.rOps11 (F := Ideal)) VR (Proc.devRef .tc Cert.ReferenceIdeal.main_v10)) ∧
    ((StableHlo.after (Cert.KernelIdeal.GenP.hostOps1_11 (F := Ideal)) VK (Proc.devRef .tc Cert.KernelIdeal.main_v24) : IVec Cert.KernelIdeal.S16777216 32)
      = StableHlo.after (Cert.ReferenceIdeal.RefRun.rOps11 (F := Ideal)) VR (Proc.devRef .tc Cert.ReferenceIdeal.main_v30)) := by
  refine ⟨?_, ?_, ?_, ?_⟩
  · after_results_simp; exact h_arg1
  · after_results_simp; exact h_arg3
  · after_results_simp; exact h_v4
  · after_results_simp; rw [h_v18, h_v23, h_c_8] <;> rfl

/-- Stretch 12: from contents that agree on the buffers live before it, the two programs' stretches leave contents that
    agree on the buffers live after it. -/
theorem s12 (VK : ValK) (VR : ValR)
    (h_arg1 : (VK (Proc.devRef .tc Cert.KernelIdeal.main_arg1) : FVec Ideal Cert.KernelIdeal.S8x1024x2 .f32) = VR (Proc.devRef .tc Cert.ReferenceIdeal.main_arg1))
    (h_arg3 : (VK (Proc.devRef .tc Cert.KernelIdeal.main_arg3) : FVec Ideal Cert.KernelIdeal.S8x2048x2 .f32) = VR (Proc.devRef .tc Cert.ReferenceIdeal.main_arg3))
    (h_v4 : (VK (Proc.devRef .tc Cert.KernelIdeal.main_v4) : IVec Cert.KernelIdeal.S16777216 1) = VR (Proc.devRef .tc Cert.ReferenceIdeal.main_v10))
    (h_v24 : (VK (Proc.devRef .tc Cert.KernelIdeal.main_v24) : IVec Cert.KernelIdeal.S16777216 32) = VR (Proc.devRef .tc Cert.ReferenceIdeal.main_v30))
    :
    ((StableHlo.after (Cert.KernelIdeal.GenP.hostOps1_12 (F := Ideal)) VK (Proc.devRef .tc Cert.KernelIdeal.main_arg1) : FVec Ideal Cert.KernelIdeal.S8x1024x2 .f32)
      = StableHlo.after (Cert.ReferenceIdeal.RefRun.rOps12 (F := Ideal)) VR (Proc.devRef .tc Cert.ReferenceIdeal.main_arg1)) ∧
    ((StableHlo.after (Cert.KernelIdeal.GenP.hostOps1_12 (F := Ideal)) VK (Proc.devRef .tc Cert.KernelIdeal.main_arg3) : FVec Ideal Cert.KernelIdeal.S8x2048x2 .f32)
      = StableHlo.after (Cert.ReferenceIdeal.RefRun.rOps12 (F := Ideal)) VR (Proc.devRef .tc Cert.ReferenceIdeal.main_arg3)) ∧
    ((StableHlo.after (Cert.KernelIdeal.GenP.hostOps1_12 (F := Ideal)) VK (Proc.devRef .tc Cert.KernelIdeal.main_v4) : IVec Cert.KernelIdeal.S16777216 1)
      = StableHlo.after (Cert.ReferenceIdeal.RefRun.rOps12 (F := Ideal)) VR (Proc.devRef .tc Cert.ReferenceIdeal.main_v10)) ∧
    ((StableHlo.after (Cert.KernelIdeal.GenP.hostOps1_12 (F := Ideal)) VK (Proc.devRef .tc Cert.KernelIdeal.main_v24) : IVec Cert.KernelIdeal.S16777216 32)
      = StableHlo.after (Cert.ReferenceIdeal.RefRun.rOps12 (F := Ideal)) VR (Proc.devRef .tc Cert.ReferenceIdeal.main_v30)) ∧
    ((StableHlo.after (Cert.KernelIdeal.GenP.hostOps1_12 (F := Ideal)) VK (Proc.devRef .tc Cert.KernelIdeal.main_c_9) : IVec Cert.KernelIdeal.S_ 32)
      = StableHlo.after (Cert.ReferenceIdeal.RefRun.rOps12 (F := Ideal)) VR (Proc.devRef .tc Cert.ReferenceIdeal.main_c_9)) := by
  refine ⟨?_, ?_, ?_, ?_, ?_⟩
  · after_results_simp; exact h_arg1
  · after_results_simp; exact h_arg3
  · after_results_simp; exact h_v4
  · after_results_simp; exact h_v24
  · after_results_simp <;> rfl

end Cert.TailBridge
-- ==== Proof.TailBridge6.lean ====
import proofs.«142671_j52776558133736_1_alg».proof.Proof.TailBridge0

/-! Stretches 13 and 14 of the shared host operations after the mask: the floor division by the size of one batch of the mask, a constant. -/

set_option maxRecDepth 16384

noncomputable section

namespace Cert.TailBridge

open Idealize.ShloMosaic Idealize.ShloMosaic.TcCoe
open Idealize.SL Idealize.SL.Sem
open Idealize.ShloMosaic.StableHlo

variable [Cert.ReferenceIdeal.Facts]

/-- Stretch 13: from contents that agree on the buffers live before it, the two programs' stretches leave contents that
    agree on the buffers live after it. -/
theorem s13 (VK : ValK) (VR : ValR)
    (h_arg1 : (VK (Proc.devRef .tc Cert.KernelIdeal.main_arg1) : FVec Ideal Cert.KernelIdeal.S8x1024x2 .f32) = VR (Proc.devRef .tc Cert.ReferenceIdeal.main_arg1))
    (h_arg3 : (VK (Proc.devRef .tc Cert.KernelIdeal.main_arg3) : FVec Ideal Cert.KernelIdeal.S8x2048x2 .f32) = VR (Proc.devRef .tc Cert.ReferenceIdeal.main_arg3))
    (h_v4 : (VK (Proc.devRef .tc Cert.KernelIdeal.main_v4) : IVec Cert.KernelIdeal.S16777216 1) = VR (Proc.devRef .tc Cert.ReferenceIdeal.main_v10))
    (h_v24 : (VK (Proc.devRef .tc Cert.KernelIdeal.main_v24) : IVec Cert.KernelIdeal.S16777216 32) = VR (Proc.devRef .tc Cert.ReferenceIdeal.main_v30))
    (h_c_9 : (VK (Proc.devRef .tc Cert.KernelIdeal.main_c_9) : IVec Cert.KernelIdeal.S_ 32) = VR (Proc.devRef .tc Cert.ReferenceIdeal.main_c_9))
    :
    ((StableHlo.after (Cert.KernelIdeal.GenP.hostOps1_13 (F := Ideal)) VK (Proc.devRef .tc Cert.KernelIdeal.main_arg1) : FVec Ideal Cert.KernelIdeal.S8x1024x2 .f32)
      = StableHlo.after (Cert.ReferenceIdeal.RefRun.rOps13 (F := Ideal)) VR (Proc.devRef .tc Cert.ReferenceIdeal.main_arg1)) ∧
    ((StableHlo.after (Cert.KernelIdeal.GenP.hostOps1_13 (F := Ideal)) VK (Proc.devRef .tc Cert.KernelIdeal.main_arg3) : FVec Ideal Cert.KernelIdeal.S8x2048x2 .f32)
      = StableHlo.after (Cert.ReferenceIdeal.RefRun.rOps13 (F := Ideal)) VR (Proc.devRef .tc Cert.ReferenceIdeal.main_arg3)) ∧
    ((StableHlo.after (Cert.KernelIdeal.GenP.hostOps1_13 (F := Ideal)) VK (Proc.devRef .tc Cert.KernelIdeal.main_v4) : IVec Cert.KernelIdeal.S16777216 1)
      = StableHlo.after (Cert.ReferenceIdeal.RefRun.rOps13 (F := Ideal)) VR (Proc.devRef .tc Cert.ReferenceIdeal.main_v10)) ∧
    ((StableHlo.after (Cert.KernelIdeal.GenP.hostOps1_13 (F := Ideal)) VK (Proc.devRef .tc Cert.KernelIdeal.main_v24) : IVec Cert.KernelIdeal.S16777216 32)
      = StableHlo.after (Cert.ReferenceIdeal.RefRun.rOps13 (F := Ideal)) VR (Proc.devRef .tc Cert.ReferenceIdeal.main_v30)) ∧
    ((StableHlo.after (Cert.KernelIdeal.GenP.hostOps1_13 (F := Ideal)) VK (Proc.devRef .tc Cert.KernelIdeal.main_v25) : IVec Cert.KernelIdeal.S16777216 32)
      = StableHlo.after (Cert.ReferenceIdeal.RefRun.rOps13 (F := Ideal)) VR (Proc.devRef .tc Cert.ReferenceIdeal.main_v31)) := by
  refine ⟨?_, ?_, ?_, ?_, ?_⟩
  · after_results_simp; exact h_arg1
  · after_results_simp; exact h_arg3
  · after_results_simp; exact h_v4
  · after_results_simp; exact h_v24
  · after_results_simp; rw [h_v24, h_c_9] <;> rfl

/-- Stretch 14: from contents that agree on the buffers live before it, the two programs' stretches leave contents that
    agree on the buffers live after it. -/
theorem s14 (VK : ValK) (VR : ValR)
    (h_arg1 : (VK (Proc.devRef .tc Cert.KernelIdeal.main_arg1) : FVec Ideal Cert.KernelIdeal.S8x1024x2 .f32) = VR (Proc.devRef .tc Cert.ReferenceIdeal.main_arg1))
    (h_arg3 : (VK (Proc.devRef .tc Cert.KernelIdeal.main_arg3) : FVec Ideal Cert.KernelIdeal.S8x2048x2 .f32) = VR (Proc.devRef .tc Cert.ReferenceIdeal.main_arg3))
    (h_v4 : (VK (Proc.devRef .tc Cert.KernelIdeal.main_v4) : IVec Cert.KernelIdeal.S16777216 1) = VR (Proc.devRef .tc Cert.ReferenceIdeal.main_v10))
    (h_v24 : (VK (Proc.devRef .tc Cert.KernelIdeal.main_v24) : IVec Cert.KernelIdeal.S16777216 32) = VR (Proc.devRef .tc Cert.ReferenceIdeal.main_v30))
    (h_v25 : (VK (Proc.devRef .tc Cert.KernelIdeal.main_v25) : IVec Cert.KernelIdeal.S16777216 32) = VR (Proc.devRef .tc Cert.ReferenceIdeal.main_v31))
    :
    ((StableHlo.after (Cert.KernelIdeal.GenP.hostOps1_14 (F := Ideal)) VK (Proc.devRef .tc Cert.KernelIdeal.main_arg1) : FVec Ideal Cert.KernelIdeal.S8x1024x2 .f32)
      = StableHlo.after (Cert.ReferenceIdeal.RefRun.rOps14 (F := Ideal)) VR (Proc.devRef .tc Cert.ReferenceIdeal.main_arg1)) ∧
    ((StableHlo.after (Cert.KernelIdeal.GenP.hostOps1_14 (F := Ideal)) VK (Proc.devRef .tc Cert.KernelIdeal.main_arg3) : FVec Ideal Cert.KernelIdeal.S8x2048x2 .f32)
      = StableHlo.after (Cert.ReferenceIdeal.RefRun.rOps14 (F := Ideal)) VR (Proc.devRef .tc Cert.ReferenceIdeal.main_arg3)) ∧
    ((StableHlo.after (Cert.KernelIdeal.GenP.hostOps1_14 (F := Ideal)) VK (Proc.devRef .tc Cert.KernelIdeal.main_v4) : IVec Cert.KernelIdeal.S16777216 1)
      = StableHlo.after (Cert.ReferenceIdeal.RefRun.rOps14 (F := Ideal)) VR (Proc.devRef .tc Cert.ReferenceIdeal.main_v10)) ∧
    ((StableHlo.after (Cert.KernelIdeal.GenP.hostOps1_14 (F := Ideal)) VK (Proc.devRef .tc Cert.KernelIdeal.main_v24) : IVec Cert.KernelIdeal.S16777216 32)
      = StableHlo.after (Cert.ReferenceIdeal.RefRun.rOps14 (F := Ideal)) VR (Proc.devRef .tc Cert.ReferenceIdeal.main_v30)) ∧
    ((StableHlo.after (Cert.KernelIdeal.GenP.hostOps1_14 (F := Ideal)) VK (Proc.devRef .tc Cert.KernelIdeal.main_v25) : IVec Cert.KernelIdeal.S16777216 32)
      = StableHlo.after (Cert.ReferenceIdeal.RefRun.rOps14 (F := Ideal)) VR (Proc.devRef .tc Cert.ReferenceIdeal.main_v31)) ∧
    ((StableHlo.after (Cert.KernelIdeal.GenP.hostOps1_14 (F := Ideal)) VK (Proc.devRef .tc Cert.KernelIdeal.main_c_10) : IVec Cert.KernelIdeal.S_ 32)
      = StableHlo.after (Cert.ReferenceIdeal.RefRun.rOps14 (F := Ideal)) VR (Proc.devRef .tc Cert.ReferenceIdeal.main_c_10)) := by
  refine ⟨?_, ?_, ?_, ?_, ?_, ?_⟩
  · after_results_simp; exact h_arg1
  · after_results_simp; exact h_arg3
  · after_results_simp; exact h_v4
  · after_results_simp; exact h_v24
  · after_results_simp; exact h_v25
  · after_results_simp <;> rfl

end Cert.TailBridge
-- ==== Proof.TailBridge7.lean ====
import proofs.«142671_j52776558133736_1_alg».proof.Proof.TailBridge0

/-! Stretch 15 of the shared host operations after the mask: the remainder modulo the size of one batch of the mask. -/

set_option maxRecDepth 16384

noncomputable section

namespace Cert.TailBridge

open Idealize.ShloMosaic Idealize.ShloMosaic.TcCoe
open Idealize.SL Idealize.SL.Sem
open Idealize.ShloMosaic.StableHlo

variable [Cert.ReferenceIdeal.Facts]

/-- Stretch 15: from contents that agree on the buffers live before it, the two programs' stretches leave contents that
    agree on the buffers live after it. -/
theorem s15 (VK : ValK) (VR : ValR)
    (h_arg1 : (VK (Proc.devRef .tc Cert.KernelIdeal.main_arg1) : FVec Ideal Cert.KernelIdeal.S8x1024x2 .f32) = VR (Proc.devRef .tc Cert.ReferenceIdeal.main_arg1))
    (h_arg3 : (VK (Proc.devRef .tc Cert.KernelIdeal.main_arg3) : FVec Ideal Cert.KernelIdeal.S8x2048x2 .f32) = VR (Proc.devRef .tc Cert.ReferenceIdeal.main_arg3))
    (h_v4 : (VK (Proc.devRef .tc Cert.KernelIdeal.main_v4) : IVec Cert.KernelIdeal.S16777216 1) = VR (Proc.devRef .tc Cert.ReferenceIdeal.main_v10))
    (h_v24 : (VK (Proc.devRef .tc Cert.KernelIdeal.main_v24) : IVec Cert.KernelIdeal.S16777216 32) = VR (Proc.devRef .tc Cert.ReferenceIdeal.main_v30))
    (h_v25 : (VK (Proc.devRef .tc Cert.KernelIdeal.main_v25) : IVec Cert.KernelIdeal.S16777216 32) = VR (Proc.devRef .tc Cert.ReferenceIdeal.main_v31))
    (h_c_10 : (VK (Proc.devRef .tc Cert.KernelIdeal.main_c_10) : IVec Cert.KernelIdeal.S_ 32) = VR (Proc.devRef .tc Cert.ReferenceIdeal.main_c_10))
    :
    ((StableHlo.after (Cert.KernelIdeal.GenP.hostOps1_15 (F := Ideal)) VK (Proc.devRef .tc Cert.KernelIdeal.main_arg1) : FVec Ideal Cert.KernelIdeal.S8x1024x2 .f32)
      = StableHlo.after (Cert.ReferenceIdeal.RefRun.rOps15 (F := Ideal)) VR (Proc.devRef .tc Cert.ReferenceIdeal.main_arg1)) ∧
    ((StableHlo.after (Cert.KernelIdeal.GenP.hostOps1_15 (F := Ideal)) VK (Proc.devRef .tc Cert.KernelIdeal.main_arg3) : FVec Ideal Cert.KernelIdeal.S8x2048x2 .f32)
      = StableHlo.after (Cert.ReferenceIdeal.RefRun.rOps15 (F := Ideal)) VR (Proc.devRef .tc Cert.ReferenceIdeal.main_arg3)) ∧
    ((StableHlo.after (Cert.KernelIdeal.GenP.hostOps1_15 (F := Ideal)) VK (Proc.devRef .tc Cert.KernelIdeal.main_v4) : IVec Cert.KernelIdeal.S16777216 1)
      = StableHlo.after (Cert.ReferenceIdeal.RefRun.rOps15 (F := Ideal)) VR (Proc.devRef .tc Cert.ReferenceIdeal.main_v10)) ∧
    ((StableHlo.after (Cert.KernelIdeal.GenP.hostOps1_15 (F := Ideal)) VK (Proc.devRef .tc Cert.KernelIdeal.main_v25) : IVec Cert.KernelIdeal.S16777216 32)
      = StableHlo.after (Cert.ReferenceIdeal.RefRun.rOps15 (F := Ideal)) VR (Proc.devRef .tc Cert.ReferenceIdeal.main_v31)) ∧
    ((StableHlo.after (Cert.KernelIdeal.GenP.hostOps1_15 (F := Ideal)) VK (Proc.devRef .tc Cert.KernelIdeal.main_v26) : IVec Cert.KernelIdeal.S16777216 32)
      = StableHlo.after (Cert.ReferenceIdeal.RefRun.rOps15 (F := Ideal)) VR (Proc.devRef .tc Cert.ReferenceIdeal.main_v32)) := by
  refine ⟨?_, ?_, ?_, ?_, ?_⟩
  · after_results_simp; exact h_arg1
  · after_results_simp; exact h_arg3
  · after_results_simp; exact h_v4
  · after_results_simp; exact h_v25
  · after_results_simp; rw [h_v24, h_c_10] <;> rfl

end Cert.TailBridge
-- ==== Proof.TailBridge8.lean ====
import proofs.«142671_j52776558133736_1_alg».proof.Proof.TailBridge0

/-! Stretches 16 and 17 of the shared host operations after the mask: the batch's row offset, the floor division by the row length. -/

set_option maxRecDepth 16384

noncomputable section

namespace Cert.TailBridge

open Idealize.ShloMosaic Idealize.ShloMosaic.TcCoe
open Idealize.SL Idealize.SL.Sem
open Idealize.ShloMosaic.StableHlo

variable [Cert.ReferenceIdeal.Facts]

/-- Stretch 16: from contents that agree on the buffers live before it, the two programs' stretches leave contents that
    agree on the buffers live after it. -/
theorem s16 (VK : ValK) (VR : ValR)
    (h_arg1 : (VK (Proc.devRef .tc Cert.KernelIdeal.main_arg1) : FVec Ideal Cert.KernelIdeal.S8x1024x2 .f32) = VR (Proc.devRef .tc Cert.ReferenceIdeal.main_arg1))
    (h_arg3 : (VK (Proc.devRef .tc Cert.KernelIdeal.main_arg3) : FVec Ideal Cert.KernelIdeal.S8x2048x2 .f32) = VR (Proc.devRef .tc Cert.ReferenceIdeal.main_arg3))
    (h_v4 : (VK (Proc.devRef .tc Cert.KernelIdeal.main_v4) : IVec Cert.KernelIdeal.S16777216 1) = VR (Proc.devRef .tc Cert.ReferenceIdeal.main_v10))
    (h_v25 : (VK (Proc.devRef .tc Cert.KernelIdeal.main_v25) : IVec Cert.KernelIdeal.S16777216 32) = VR (Proc.devRef .tc Cert.ReferenceIdeal.main_v31))
    (h_v26 : (VK (Proc.devRef .tc Cert.KernelIdeal.main_v26) : IVec Cert.KernelIdeal.S16777216 32) = VR (Proc.devRef .tc Cert.ReferenceIdeal.main_v32))
    :
    ((StableHlo.after (Cert.KernelIdeal.GenP.hostOps1_16 (F := Ideal)) VK (Proc.devRef .tc Cert.KernelIdeal.main_arg1) : FVec Ideal Cert.KernelIdeal.S8x1024x2 .f32)
      = StableHlo.after (Cert.ReferenceIdeal.RefRun.rOps16 (F := Ideal)) VR (Proc.devRef .tc Cert.ReferenceIdeal.main_arg1)) ∧
    ((StableHlo.after (Cert.KernelIdeal.GenP.hostOps1_16 (F := Ideal)) VK (Proc.devRef .tc Cert.KernelIdeal.main_arg3) : FVec Ideal Cert.KernelIdeal.S8x2048x2 .f32)
      = StableHlo.after (Cert.ReferenceIdeal.RefRun.rOps16 (F := Ideal)) VR (Proc.devRef .tc Cert.ReferenceIdeal.main_arg3)) ∧
    ((StableHlo.after (Cert.KernelIdeal.GenP.hostOps1_16 (F := Ideal)) VK (Proc.devRef .tc Cert.KernelIdeal.main_v4) : IVec Cert.KernelIdeal.S16777216 1)
      = StableHlo.after (Cert.ReferenceIdeal.RefRun.rOps16 (F := Ideal)) VR (Proc.devRef .tc Cert.ReferenceIdeal.main_v10)) ∧
    ((StableHlo.after (Cert.KernelIdeal.GenP.hostOps1_16 (F := Ideal)) VK (Proc.devRef .tc Cert.KernelIdeal.main_v25) : IVec Cert.KernelIdeal.S16777216 32)
      = StableHlo.after (Cert.ReferenceIdeal.RefRun.rOps16 (F := Ideal)) VR (Proc.devRef .tc Cert.ReferenceIdeal.main_v31)) ∧
    ((StableHlo.after (Cert.KernelIdeal.GenP.hostOps1_16 (F := Ideal)) VK (Proc.devRef .tc Cert.KernelIdeal.main_v26) : IVec Cert.KernelIdeal.S16777216 32)
      = StableHlo.after (Cert.ReferenceIdeal.RefRun.rOps16 (F := Ideal)) VR (Proc.devRef .tc Cert.ReferenceIdeal.main_v32)) ∧
    ((StableHlo.after (Cert.KernelIdeal.GenP.hostOps1_16 (F := Ideal)) VK (Proc.devRef .tc Cert.KernelIdeal.main_v28) : IVec Cert.KernelIdeal.S16777216 32)
      = StableHlo.after (Cert.ReferenceIdeal.RefRun.rOps16 (F := Ideal)) VR (Proc.devRef .tc Cert.ReferenceIdeal.main_v34)) ∧
    ((StableHlo.after (Cert.KernelIdeal.GenP.hostOps1_16 (F := Ideal)) VK (Proc.devRef .tc Cert.KernelIdeal.main_c_12) : IVec Cert.KernelIdeal.S_ 32)
      = StableHlo.after (Cert.ReferenceIdeal.RefRun.rOps16 (F := Ideal)) VR (Proc.devRef .tc Cert.ReferenceIdeal.main_c_12)) := by
  refine ⟨?_, ?_, ?_, ?_, ?_, ?_, ?_⟩
  · after_results_simp; exact h_arg1
  · after_results_simp; exact h_arg3
  · after_results_simp; exact h_v4
  · after_results_simp; exact h_v25
  · after_results_simp; exact h_v26
  · after_results_simp; rw [h_v25] <;> rfl
  · after_results_simp <;> rfl

/-- Stretch 17: from contents that agree on the buffers live before it, the two programs' stretches leave contents that
    agree on the buffers live after it. -/
theorem s17 (VK : ValK) (VR : ValR)
    (h_arg1 : (VK (Proc.devRef .tc Cert.KernelIdeal.main_arg1) : FVec Ideal Cert.KernelIdeal.S8x1024x2 .f32) = VR (Proc.devRef .tc Cert.ReferenceIdeal.main_arg1))
    (h_arg3 : (VK (Proc.devRef .tc Cert.KernelIdeal.main_arg3) : FVec Ideal Cert.KernelIdeal.S8x2048x2 .f32) = VR (Proc.devRef .tc Cert.ReferenceIdeal.main_arg3))
    (h_v4 : (VK (Proc.devRef .tc Cert.KernelIdeal.main_v4) : IVec Cert.KernelIdeal.S16777216 1) = VR (Proc.devRef .tc Cert.ReferenceIdeal.main_v10))
    (h_v25 : (VK (Proc.devRef .tc Cert.KernelIdeal.main_v25) : IVec Cert.KernelIdeal.S16777216 32) = VR (Proc.devRef .tc Cert.ReferenceIdeal.main_v31))
    (h_v26 : (VK (Proc.devRef .tc Cert.KernelIdeal.main_v26) : IVec Cert.KernelIdeal.S16777216 32) = VR (Proc.devRef .tc Cert.ReferenceIdeal.main_v32))
    (h_v28 : (VK (Proc.devRef .tc Cert.KernelIdeal.main_v28) : IVec Cert.KernelIdeal.S16777216 32) = VR (Proc.devRef .tc Cert.ReferenceIdeal.main_v34))
    (h_c_12 : (VK (Proc.devRef .tc Cert.KernelIdeal.main_c_12) : IVec Cert.KernelIdeal.S_ 32) = VR (Proc.devRef .tc Cert.ReferenceIdeal.main_c_12))
    :
    ((StableHlo.after (Cert.KernelIdeal.GenP.hostOps1_17 (F := Ideal)) VK (Proc.devRef .tc Cert.KernelIdeal.main_arg1) : FVec Ideal Cert.KernelIdeal.S8x1024x2 .f32)
      = StableHlo.after (Cert.ReferenceIdeal.RefRun.rOps17 (F := Ideal)) VR (Proc.devRef .tc Cert.ReferenceIdeal.main_arg1)) ∧
    ((StableHlo.after (Cert.KernelIdeal.GenP.hostOps1_17 (F := Ideal)) VK (Proc.devRef .tc Cert.KernelIdeal.main_arg3) : FVec Ideal Cert.KernelIdeal.S8x2048x2 .f32)
      = StableHlo.after (Cert.ReferenceIdeal.RefRun.rOps17 (F := Ideal)) VR (Proc.devRef .tc Cert.ReferenceIdeal.main_arg3)) ∧
    ((StableHlo.after (Cert.KernelIdeal.GenP.hostOps1_17 (F := Ideal)) VK (Proc.devRef .tc Cert.KernelIdeal.main_v4) : IVec Cert.KernelIdeal.S16777216 1)
      = StableHlo.after (Cert.ReferenceIdeal.RefRun.rOps17 (F := Ideal)) VR (Proc.devRef .tc Cert.ReferenceIdeal.main_v10)) ∧
    ((StableHlo.after (Cert.KernelIdeal.GenP.hostOps1_17 (F := Ideal)) VK (Proc.devRef .tc Cert.KernelIdeal.main_v25) : IVec Cert.KernelIdeal.S16777216 32)
      = StableHlo.after (Cert.ReferenceIdeal.RefRun.rOps17 (F := Ideal)) VR (Proc.devRef .tc Cert.ReferenceIdeal.main_v31)) ∧
    ((StableHlo.after (Cert.KernelIdeal.GenP.hostOps1_17 (F := Ideal)) VK (Proc.devRef .tc Cert.KernelIdeal.main_v26) : IVec Cert.KernelIdeal.S16777216 32)
      = StableHlo.after (Cert.ReferenceIdeal.RefRun.rOps17 (F := Ideal)) VR (Proc.devRef .tc Cert.ReferenceIdeal.main_v32)) ∧
    ((StableHlo.after (Cert.KernelIdeal.GenP.hostOps1_17 (F := Ideal)) VK (Proc.devRef .tc Cert.KernelIdeal.main_v28) : IVec Cert.KernelIdeal.S16777216 32)
      = StableHlo.after (Cert.ReferenceIdeal.RefRun.rOps17 (F := Ideal)) VR (Proc.devRef .tc Cert.ReferenceIdeal.main_v34)) ∧
    ((StableHlo.after (Cert.KernelIdeal.GenP.hostOps1_17 (F := Ideal)) VK (Proc.devRef .tc Cert.KernelIdeal.main_v29) : IVec Cert.KernelIdeal.S16777216 32)
      = StableHlo.after (Cert.ReferenceIdeal.RefRun.rOps17 (F := Ideal)) VR (Proc.devRef .tc Cert.ReferenceIdeal.main_v35)) := by
  refine ⟨?_, ?_, ?_, ?_, ?_, ?_, ?_⟩
  · after_results_simp; exact h_arg1
  · after_results_simp; exact h_arg3
  · after_results_simp; exact h_v4
  · after_results_simp; exact h_v25
  · after_results_simp; exact h_v26
  · after_results_simp; exact h_v28
  · after_results_simp; rw [h_v26, h_c_12] <;> rfl

end Cert.TailBridge
-- ==== Proof.TailBridge9.lean ====
import proofs.«142671_j52776558133736_1_alg».proof.Proof.TailBridge0

/-! Stretches 18 and 19 of the shared host operations after the mask: the row index, the batch's column offset, the remainder modulo the row length. -/

set_option maxRecDepth 16384

noncomputable section

namespace Cert.TailBridge

open Idealize.ShloMosaic Idealize.ShloMosaic.TcCoe
open Idealize.SL Idealize.SL.Sem
open Idealize.ShloMosaic.StableHlo

variable [Cert.ReferenceIdeal.Facts]

/-- Stretch 18: from contents that agree on the buffers live before it, the two programs' stretches leave contents that
    agree on the buffers live after it. -/
theorem s18 (VK : ValK) (VR : ValR)
    (h_arg1 : (VK (Proc.devRef .tc Cert.KernelIdeal.main_arg1) : FVec Ideal Cert.KernelIdeal.S8x1024x2 .f32) = VR (Proc.devRef .tc Cert.ReferenceIdeal.main_arg1))
    (h_arg3 : (VK (Proc.devRef .tc Cert.KernelIdeal.main_arg3) : FVec Ideal Cert.KernelIdeal.S8x2048x2 .f32) = VR (Proc.devRef .tc Cert.ReferenceIdeal.main_arg3))
    (h_v4 : (VK (Proc.devRef .tc Cert.KernelIdeal.main_v4) : IVec Cert.KernelIdeal.S16777216 1) = VR (Proc.devRef .tc Cert.ReferenceIdeal.main_v10))
    (h_v25 : (VK (Proc.devRef .tc Cert.KernelIdeal.main_v25) : IVec Cert.KernelIdeal.S16777216 32) = VR (Proc.devRef .tc Cert.ReferenceIdeal.main_v31))
    (h_v26 : (VK (Proc.devRef .tc Cert.KernelIdeal.main_v26) : IVec Cert.KernelIdeal.S16777216 32) = VR (Proc.devRef .tc Cert.ReferenceIdeal.main_v32))
    (h_v28 : (VK (Proc.devRef .tc Cert.KernelIdeal.main_v28) : IVec Cert.KernelIdeal.S16777216 32) = VR (Proc.devRef .tc Cert.ReferenceIdeal.main_v34))
    (h_v29 : (VK (Proc.devRef .tc Cert.KernelIdeal.main_v29) : IVec Cert.KernelIdeal.S16777216 32) = VR (Proc.devRef .tc Cert.ReferenceIdeal.main_v35))
    :
    ((StableHlo.after (Cert.KernelIdeal.GenP.hostOps1_18 (F := Ideal)) VK (Proc.devRef .tc Cert.KernelIdeal.main_arg1) : FVec Ideal Cert.KernelIdeal.S8x1024x2 .f32)
      = StableHlo.after (Cert.ReferenceIdeal.RefRun.rOps18 (F := Ideal)) VR (Proc.devRef .tc Cert.ReferenceIdeal.main_arg1)) ∧
    ((StableHlo.after (Cert.KernelIdeal.GenP.hostOps1_18 (F := Ideal)) VK (Proc.devRef .tc Cert.KernelIdeal.main_arg3) : FVec Ideal Cert.KernelIdeal.S8x2048x2 .f32)
      = StableHlo.after (Cert.ReferenceIdeal.RefRun.rOps18 (F := Ideal)) VR (Proc.devRef .tc Cert.ReferenceIdeal.main_arg3)) ∧
    ((StableHlo.after (Cert.KernelIdeal.GenP.hostOps1_18 (F := Ideal)) VK (Proc.devRef .tc Cert.KernelIdeal.main_v4) : IVec Cert.KernelIdeal.S16777216 1)
      = StableHlo.after (Cert.ReferenceIdeal.RefRun.rOps18 (F := Ideal)) VR (Proc.devRef .tc Cert.ReferenceIdeal.main_v10)) ∧
    ((StableHlo.after (Cert.KernelIdeal.GenP.hostOps1_18 (F := Ideal)) VK (Proc.devRef .tc Cert.KernelIdeal.main_v26) : IVec Cert.KernelIdeal.S16777216 32)
      = StableHlo.after (Cert.ReferenceIdeal.RefRun.rOps18 (F := Ideal)) VR (Proc.devRef .tc Cert.ReferenceIdeal.main_v32)) ∧
    ((StableHlo.after (Cert.KernelIdeal.GenP.hostOps1_18 (F := Ideal)) VK (Proc.devRef .tc Cert.KernelIdeal.main_v30) : IVec Cert.KernelIdeal.S16777216 32)
      = StableHlo.after (Cert.ReferenceIdeal.RefRun.rOps18 (F := Ideal)) VR (Proc.devRef .tc Cert.ReferenceIdeal.main_v36)) ∧
    ((StableHlo.after (Cert.KernelIdeal.GenP.hostOps1_18 (F := Ideal)) VK (Proc.devRef .tc Cert.KernelIdeal.main_v32) : IVec Cert.KernelIdeal.S16777216 32)
      = StableHlo.after (Cert.ReferenceIdeal.RefRun.rOps18 (F := Ideal)) VR (Proc.devRef .tc Cert.ReferenceIdeal.main_v38)) ∧
    ((StableHlo.after (Cert.KernelIdeal.GenP.hostOps1_18 (F := Ideal)) VK (Proc.devRef .tc Cert.KernelIdeal.main_c_14) : IVec Cert.KernelIdeal.S_ 32)
      = StableHlo.after (Cert.ReferenceIdeal.RefRun.rOps18 (F := Ideal)) VR (Proc.devRef .tc Cert.ReferenceIdeal.main_c_14)) := by
  refine ⟨?_, ?_, ?_, ?_, ?_, ?_, ?_⟩
  · after_results_simp; exact h_arg1
  · after_results_simp; exact h_arg3
  · after_results_simp; exact h_v4
  · after_results_simp; exact h_v26
  · after_results_simp; rw [h_v28, h_v29] <;> rfl
  · after_results_simp; rw [h_v25] <;> rfl
  · after_results_simp <;> rfl

/-- Stretch 19: from contents that agree on the buffers live before it, the two programs' stretches leave contents that
    agree on the buffers live after it. -/
theorem s19 (VK : ValK) (VR : ValR)
    (h_arg1 : (VK (Proc.devRef .tc Cert.KernelIdeal.main_arg1) : FVec Ideal Cert.KernelIdeal.S8x1024x2 .f32) = VR (Proc.devRef .tc Cert.ReferenceIdeal.main_arg1))
    (h_arg3 : (VK (Proc.devRef .tc Cert.KernelIdeal.main_arg3) : FVec Ideal Cert.KernelIdeal.S8x2048x2 .f32) = VR (Proc.devRef .tc Cert.ReferenceIdeal.main_arg3))
    (h_v4 : (VK (Proc.devRef .tc Cert.KernelIdeal.main_v4) : IVec Cert.KernelIdeal.S16777216 1) = VR (Proc.devRef .tc Cert.ReferenceIdeal.main_v10))
    (h_v26 : (VK (Proc.devRef .tc Cert.KernelIdeal.main_v26) : IVec Cert.KernelIdeal.S16777216 32) = VR (Proc.devRef .tc Cert.ReferenceIdeal.main_v32))
    (h_v30 : (VK (Proc.devRef .tc Cert.KernelIdeal.main_v30) : IVec Cert.KernelIdeal.S16777216 32) = VR (Proc.devRef .tc Cert.ReferenceIdeal.main_v36))
    (h_v32 : (VK (Proc.devRef .tc Cert.KernelIdeal.main_v32) : IVec Cert.KernelIdeal.S16777216 32) = VR (Proc.devRef .tc Cert.ReferenceIdeal.main_v38))
    (h_c_14 : (VK (Proc.devRef .tc Cert.KernelIdeal.main_c_14) : IVec Cert.KernelIdeal.S_ 32) = VR (Proc.devRef .tc Cert.ReferenceIdeal.main_c_14))
    :
    ((StableHlo.after (Cert.KernelIdeal.GenP.hostOps1_19 (F := Ideal)) VK (Proc.devRef .tc Cert.KernelIdeal.main_arg1) : FVec Ideal Cert.KernelIdeal.S8x1024x2 .f32)
      = StableHlo.after (Cert.ReferenceIdeal.RefRun.rOps19 (F := Ideal)) VR (Proc.devRef .tc Cert.ReferenceIdeal.main_arg1)) ∧
    ((StableHlo.after (Cert.KernelIdeal.GenP.hostOps1_19 (F := Ideal)) VK (Proc.devRef .tc Cert.KernelIdeal.main_arg3) : FVec Ideal Cert.KernelIdeal.S8x2048x2 .f32)
      = StableHlo.after (Cert.ReferenceIdeal.RefRun.rOps19 (F := Ideal)) VR (Proc.devRef .tc Cert.ReferenceIdeal.main_arg3)) ∧
    ((StableHlo.after (Cert.KernelIdeal.GenP.hostOps1_19 (F := Ideal)) VK (Proc.devRef .tc Cert.KernelIdeal.main_v4) : IVec Cert.KernelIdeal.S16777216 1)
      = StableHlo.after (Cert.ReferenceIdeal.RefRun.rOps19 (F := Ideal)) VR (Proc.devRef .tc Cert.ReferenceIdeal.main_v10)) ∧
    ((StableHlo.after (Cert.KernelIdeal.GenP.hostOps1_19 (F := Ideal)) VK (Proc.devRef .tc Cert.KernelIdeal.main_v30) : IVec Cert.KernelIdeal.S16777216 32)
      = StableHlo.after (Cert.ReferenceIdeal.RefRun.rOps19 (F := Ideal)) VR (Proc.devRef .tc Cert.ReferenceIdeal.main_v36)) ∧
    ((StableHlo.after (Cert.KernelIdeal.GenP.hostOps1_19 (F := Ideal)) VK (Proc.devRef .tc Cert.KernelIdeal.main_v32) : IVec Cert.KernelIdeal.S16777216 32)
      = StableHlo.after (Cert.ReferenceIdeal.RefRun.rOps19 (F := Ideal)) VR (Proc.devRef .tc Cert.ReferenceIdeal.main_v38)) ∧
    ((StableHlo.after (Cert.KernelIdeal.GenP.hostOps1_19 (F := Ideal)) VK (Proc.devRef .tc Cert.KernelIdeal.main_v33) : IVec Cert.KernelIdeal.S16777216 32)
      = StableHlo.after (Cert.ReferenceIdeal.RefRun.rOps19 (F := Ideal)) VR (Proc.devRef .tc Cert.ReferenceIdeal.main_v39)) := by
  refine ⟨?_, ?_, ?_, ?_, ?_, ?_⟩
  · after_results_simp; exact h_arg1
  · after_results_simp; exact h_arg3
  · after_results_simp; exact h_v4
  · after_results_simp; exact h_v30
  · after_results_simp; exact h_v32
  · after_results_simp; rw [h_v26, h_c_14] <;> rfl

end Cert.TailBridge
-- ==== Proof.TailBridge10.lean ====
import proofs.«142671_j52776558133736_1_alg».proof.Proof.TailBridge0

/-! Stretch 20 of the shared host operations after the mask: the column index, the two gathers, their difference, and the validity flags. -/

set_option maxRecDepth 16384

noncomputable section

namespace Cert.TailBridge

open Idealize.ShloMosaic Idealize.ShloMosaic.TcCoe
open Idealize.SL Idealize.SL.Sem
open Idealize.ShloMosaic.StableHlo

variable [Cert.ReferenceIdeal.Facts]

/-- Stretch 20: from contents that agree on the buffers live before it, the two programs' stretches leave contents that
    agree on the buffers live after it. -/
theorem s20 (VK : ValK) (VR : ValR)
    (h_arg1 : (VK (Proc.devRef .tc Cert.KernelIdeal.main_arg1) : FVec Ideal Cert.KernelIdeal.S8x1024x2 .f32) = VR (Proc.devRef .tc Cert.ReferenceIdeal.main_arg1))
    (h_arg3 : (VK (Proc.devRef .tc Cert.KernelIdeal.main_arg3) : FVec Ideal Cert.KernelIdeal.S8x2048x2 .f32) = VR (Proc.devRef .tc Cert.ReferenceIdeal.main_arg3))
    (h_v4 : (VK (Proc.devRef .tc Cert.KernelIdeal.main_v4) : IVec Cert.KernelIdeal.S16777216 1) = VR (Proc.devRef .tc Cert.ReferenceIdeal.main_v10))
    (h_v30 : (VK (Proc.devRef .tc Cert.KernelIdeal.main_v30) : IVec Cert.KernelIdeal.S16777216 32) = VR (Proc.devRef .tc Cert.ReferenceIdeal.main_v36))
    (h_v32 : (VK (Proc.devRef .tc Cert.KernelIdeal.main_v32) : IVec Cert.KernelIdeal.S16777216 32) = VR (Proc.devRef .tc Cert.ReferenceIdeal.main_v38))
    (h_v33 : (VK (Proc.devRef .tc Cert.KernelIdeal.main_v33) : IVec Cert.KernelIdeal.S16777216 32) = VR (Proc.devRef .tc Cert.ReferenceIdeal.main_v39))
    :
    ((StableHlo.after (Cert.KernelIdeal.GenP.hostOps1_20 (F := Ideal)) VK (Proc.devRef .tc Cert.KernelIdeal.main_v30) : IVec Cert.KernelIdeal.S16777216 32)
      = StableHlo.after (Cert.ReferenceIdeal.RefRun.rOps20 (F := Ideal)) VR (Proc.devRef .tc Cert.ReferenceIdeal.main_v36)) ∧
    ((StableHlo.after (Cert.KernelIdeal.GenP.hostOps1_20 (F := Ideal)) VK (Proc.devRef .tc Cert.KernelIdeal.main_v34) : IVec Cert.KernelIdeal.S16777216 32)
      = StableHlo.after (Cert.ReferenceIdeal.RefRun.rOps20 (F := Ideal)) VR (Proc.devRef .tc Cert.ReferenceIdeal.main_v40)) ∧
    ((StableHlo.after (Cert.KernelIdeal.GenP.hostOps1_20 (F := Ideal)) VK (Proc.devRef .tc Cert.KernelIdeal.main_v51) : FVec Ideal Cert.KernelIdeal.S16777216x2 .f32)
      = StableHlo.after (Cert.ReferenceIdeal.RefRun.rOps20 (F := Ideal)) VR (Proc.devRef .tc Cert.ReferenceIdeal.main_v57)) ∧
    ((StableHlo.after (Cert.KernelIdeal.GenP.hostOps1_20 (F := Ideal)) VK (Proc.devRef .tc Cert.KernelIdeal.main_v56) : IVec Cert.KernelIdeal.S16777216 1)
      = StableHlo.after (Cert.ReferenceIdeal.RefRun.rOps20 (F := Ideal)) VR (Proc.devRef .tc Cert.ReferenceIdeal.main_v62)) := by
  refine ⟨?_, ?_, ?_, ?_⟩
  · after_results_simp; exact h_v30
  · after_results_simp; rw [h_v32, h_v33] <;> rfl
  · after_results_simp; rw [h_arg1, h_arg3, h_v30, h_v32, h_v33] <;> rfl
  · after_results_simp; rw [h_v4] <;> rfl

end Cert.TailBridge
-- ==== Proof.TailBridge.lean ====
import proofs.«142671_j52776558133736_1_alg».proof.Proof.TailBridge1
import proofs.«142671_j52776558133736_1_alg».proof.Proof.TailBridge2
import proofs.«142671_j52776558133736_1_alg».proof.Proof.TailBridge3
import proofs.«142671_j52776558133736_1_alg».proof.Proof.TailBridge4
import proofs.«142671_j52776558133736_1_alg».proof.Proof.TailBridge5
import proofs.«142671_j52776558133736_1_alg».proof.Proof.TailBridge6
import proofs.«142671_j52776558133736_1_alg».proof.Proof.TailBridge7
import proofs.«142671_j52776558133736_1_alg».proof.Proof.TailBridge8
import proofs.«142671_j52776558133736_1_alg».proof.Proof.TailBridge9
import proofs.«142671_j52776558133736_1_alg».proof.Proof.TailBridge10

/-! After the mask the two programs run the same host operations, the kernel's program on its buffers and the
    reference on its own: the positions of the set entries (by cumulative sums and a scatter), their row and column
    indices (by floor divisions and remainders), the two gathers of the coordinate rows, their difference, and the
    validity flags. From contents that agree on the flattened mask and on the two coordinate inputs, the four results
    agree. The comparison goes stretch by stretch; the contents before each stretch stay an opaque valuation. -/

noncomputable section

namespace Cert.TailBridge

open Idealize.ShloMosaic Idealize.ShloMosaic.TcCoe
open Idealize.SL Idealize.SL.Sem
open Idealize.ShloMosaic.StableHlo

variable [Cert.ReferenceIdeal.Facts]

/-- The kernel's program after the mask: its twenty stretches of host operations, in order. -/
abbrev tailK : List (HloOp Cert.KernelIdeal.τ Cert.KernelIdeal.sig (Elt Ideal)) :=
  List.flatten [Cert.KernelIdeal.GenP.hostOps1_1,
    Cert.KernelIdeal.GenP.hostOps1_2,
    Cert.KernelIdeal.GenP.hostOps1_3,
    Cert.KernelIdeal.GenP.hostOps1_4,
    Cert.KernelIdeal.GenP.hostOps1_5,
    Cert.KernelIdeal.GenP.hostOps1_6,
    Cert.KernelIdeal.GenP.hostOps1_7,
    Cert.KernelIdeal.GenP.hostOps1_8,
    Cert.KernelIdeal.GenP.hostOps1_9,
    Cert.KernelIdeal.GenP.hostOps1_10,
    Cert.KernelIdeal.GenP.hostOps1_11,
    Cert.KernelIdeal.GenP.hostOps1_12,
    Cert.KernelIdeal.GenP.hostOps1_13,
    Cert.KernelIdeal.GenP.hostOps1_14,
    Cert.KernelIdeal.GenP.hostOps1_15,
    Cert.KernelIdeal.GenP.hostOps1_16,
    Cert.KernelIdeal.GenP.hostOps1_17,
    Cert.KernelIdeal.GenP.hostOps1_18,
    Cert.KernelIdeal.GenP.hostOps1_19,
    Cert.KernelIdeal.GenP.hostOps1_20]

/-- The reference program after the mask: its twenty stretches of host operations, in order. -/
abbrev tailR : List (HloOp Cert.ReferenceIdeal.τ Cert.ReferenceIdeal.sig (Elt Ideal)) :=
  List.flatten [Cert.ReferenceIdeal.RefRun.rOps1,
    Cert.ReferenceIdeal.RefRun.rOps2,
    Cert.ReferenceIdeal.RefRun.rOps3,
    Cert.ReferenceIdeal.RefRun.rOps4,
    Cert.ReferenceIdeal.RefRun.rOps5,
    Cert.ReferenceIdeal.RefRun.rOps6,
    Cert.ReferenceIdeal.RefRun.rOps7,
    Cert.ReferenceIdeal.RefRun.rOps8,
    Cert.ReferenceIdeal.RefRun.rOps9,
    Cert.ReferenceIdeal.RefRun.rOps10,
    Cert.ReferenceIdeal.RefRun.rOps11,
    Cert.ReferenceIdeal.RefRun.rOps12,
    Cert.ReferenceIdeal.RefRun.rOps13,
    Cert.ReferenceIdeal.RefRun.rOps14,
    Cert.ReferenceIdeal.RefRun.rOps15,
    Cert.ReferenceIdeal.RefRun.rOps16,
    Cert.ReferenceIdeal.RefRun.rOps17,
    Cert.ReferenceIdeal.RefRun.rOps18,
    Cert.ReferenceIdeal.RefRun.rOps19,
    Cert.ReferenceIdeal.RefRun.rOps20]

/-- The kernel's program after the mask runs as its stretches one after the other. -/
theorem after_tailK (V : ValK) :
    StableHlo.after tailK V =
      StableHlo.after (Cert.KernelIdeal.GenP.hostOps1_20 (F := Ideal)) (
      StableHlo.after (Cert.KernelIdeal.GenP.hostOps1_19 (F := Ideal)) (
      StableHlo.after (Cert.KernelIdeal.GenP.hostOps1_18 (F := Ideal)) (
      StableHlo.after (Cert.KernelIdeal.GenP.hostOps1_17 (F := Ideal)) (
      StableHlo.after (Cert.KernelIdeal.GenP.hostOps1_16 (F := Ideal)) (
      StableHlo.after (Cert.KernelIdeal.GenP.hostOps1_15 (F := Ideal)) (
      StableHlo.after (Cert.KernelIdeal.GenP.hostOps1_14 (F := Ideal)) (
      StableHlo.after (Cert.KernelIdeal.GenP.hostOps1_13 (F := Ideal)) (
      StableHlo.after (Cert.KernelIdeal.GenP.hostOps1_12 (F := Ideal)) (
      StableHlo.after (Cert.KernelIdeal.GenP.hostOps1_11 (F := Ideal)) (
      StableHlo.after (Cert.KernelIdeal.GenP.hostOps1_10 (F := Ideal)) (
      StableHlo.after (Cert.KernelIdeal.GenP.hostOps1_9 (F := Ideal)) (
      StableHlo.after (Cert.KernelIdeal.GenP.hostOps1_8 (F := Ideal)) (
      StableHlo.after (Cert.KernelIdeal.GenP.hostOps1_7 (F := Ideal)) (
      StableHlo.after (Cert.KernelIdeal.GenP.hostOps1_6 (F := Ideal)) (
      StableHlo.after (Cert.KernelIdeal.GenP.hostOps1_5 (F := Ideal)) (
      StableHlo.after (Cert.KernelIdeal.GenP.hostOps1_4 (F := Ideal)) (
      StableHlo.after (Cert.KernelIdeal.GenP.hostOps1_3 (F := Ideal)) (
      StableHlo.after (Cert.KernelIdeal.GenP.hostOps1_2 (F := Ideal)) (
      StableHlo.after (Cert.KernelIdeal.GenP.hostOps1_1 (F := Ideal)) (V)))))))))))))))))))) := by
  simp only [tailK, List.flatten_cons, List.flatten_nil, List.append_nil, after_append]

/-- The reference program after the mask runs as its stretches one after the other. -/
theorem after_tailR (V : ValR) :
    StableHlo.after tailR V =
      StableHlo.after (Cert.ReferenceIdeal.RefRun.rOps20 (F := Ideal)) (
      StableHlo.after (Cert.ReferenceIdeal.RefRun.rOps19 (F := Ideal)) (
      StableHlo.after (Cert.ReferenceIdeal.RefRun.rOps18 (F := Ideal)) (
      StableHlo.after (Cert.ReferenceIdeal.RefRun.rOps17 (F := Ideal)) (
      StableHlo.after (Cert.ReferenceIdeal.RefRun.rOps16 (F := Ideal)) (
      StableHlo.after (Cert.ReferenceIdeal.RefRun.rOps15 (F := Ideal)) (
      StableHlo.after (Cert.ReferenceIdeal.RefRun.rOps14 (F := Ideal)) (
      StableHlo.after (Cert.ReferenceIdeal.RefRun.rOps13 (F := Ideal)) (
      StableHlo.after (Cert.ReferenceIdeal.RefRun.rOps12 (F := Ideal)) (
      StableHlo.after (Cert.ReferenceIdeal.RefRun.rOps11 (F := Ideal)) (
      StableHlo.after (Cert.ReferenceIdeal.RefRun.rOps10 (F := Ideal)) (
      StableHlo.after (Cert.ReferenceIdeal.RefRun.rOps9 (F := Ideal)) (
      StableHlo.after (Cert.ReferenceIdeal.RefRun.rOps8 (F := Ideal)) (
      StableHlo.after (Cert.ReferenceIdeal.RefRun.rOps7 (F := Ideal)) (
      StableHlo.after (Cert.ReferenceIdeal.RefRun.rOps6 (F := Ideal)) (
      StableHlo.after (Cert.ReferenceIdeal.RefRun.rOps5 (F := Ideal)) (
      StableHlo.after (Cert.ReferenceIdeal.RefRun.rOps4 (F := Ideal)) (
      StableHlo.after (Cert.ReferenceIdeal.RefRun.rOps3 (F := Ideal)) (
      StableHlo.after (Cert.ReferenceIdeal.RefRun.rOps2 (F := Ideal)) (
      StableHlo.after (Cert.ReferenceIdeal.RefRun.rOps1 (F := Ideal)) (V)))))))))))))))))))) := by
  simp only [tailR, List.flatten_cons, List.flatten_nil, List.append_nil, after_append]

/-- From contents that agree on the flattened mask and on the two coordinate inputs, the two programs' host operations
    after the mask leave the same four results: the coordinate differences, the row indices, the column indices and the
    validity flags. -/
theorem tail_agree (WK : ValK) (WR : ValR)
    (h4 : (WK (Proc.devRef .tc Cert.KernelIdeal.main_v4) : IVec Cert.KernelIdeal.S16777216 1) = WR (Proc.devRef .tc Cert.ReferenceIdeal.main_v10))
    (h1 : (WK (Proc.devRef .tc Cert.KernelIdeal.main_arg1) : FVec Ideal Cert.KernelIdeal.S8x1024x2 .f32) = WR (Proc.devRef .tc Cert.ReferenceIdeal.main_arg1))
    (h3 : (WK (Proc.devRef .tc Cert.KernelIdeal.main_arg3) : FVec Ideal Cert.KernelIdeal.S8x2048x2 .f32) = WR (Proc.devRef .tc Cert.ReferenceIdeal.main_arg3)) :
    ((StableHlo.after tailK WK (Proc.devRef .tc Cert.KernelIdeal.main_v51) : FVec Ideal Cert.KernelIdeal.S16777216x2 .f32)
        = StableHlo.after tailR WR (Proc.devRef .tc Cert.ReferenceIdeal.main_v57))
    ∧ ((StableHlo.after tailK WK (Proc.devRef .tc Cert.KernelIdeal.main_v30) : IVec Cert.KernelIdeal.S16777216 32)
        = StableHlo.after tailR WR (Proc.devRef .tc Cert.ReferenceIdeal.main_v36))
    ∧ ((StableHlo.after tailK WK (Proc.devRef .tc Cert.KernelIdeal.main_v34) : IVec Cert.KernelIdeal.S16777216 32)
        = StableHlo.after tailR WR (Proc.devRef .tc Cert.ReferenceIdeal.main_v40))
    ∧ ((StableHlo.after tailK WK (Proc.devRef .tc Cert.KernelIdeal.main_v56) : IVec Cert.KernelIdeal.S16777216 1)
        = StableHlo.after tailR WR (Proc.devRef .tc Cert.ReferenceIdeal.main_v62)) := by
  rw [after_tailK, after_tailR]
  obtain ⟨e_arg1_1, e_arg3_1, e_v4_1, e_v5_1⟩ := s1 _ _ h1 h3 h4
  obtain ⟨e_arg1_2, e_arg3_2, e_v4_2, e_v5_2, e_v6_2, e_c_1_2⟩ := s2 _ _ e_arg1_1 e_arg3_1 e_v4_1 e_v5_1
  obtain ⟨e_arg1_3, e_arg3_3, e_v4_3, e_v6_3, e_v7_3⟩ := s3 _ _ e_arg1_2 e_arg3_2 e_v4_2 e_v5_2 e_v6_2 e_c_1_2
  obtain ⟨e_arg1_4, e_arg3_4, e_v4_4, e_v15_4⟩ := s4 _ _ e_arg1_3 e_arg3_3 e_v4_3 e_v6_3 e_v7_3
  obtain ⟨e_arg1_5, e_arg3_5, e_v4_5, e_v16_5⟩ := s5 _ _ e_arg1_4 e_arg3_4 e_v4_4 e_v15_4
  obtain ⟨e_arg1_6, e_arg3_6, e_v4_6, e_v16_6, e_c_5_6⟩ := s6 _ _ e_arg1_5 e_arg3_5 e_v4_5 e_v16_5
  obtain ⟨e_arg1_7, e_arg3_7, e_v4_7, e_v17_7⟩ := s7 _ _ e_arg1_6 e_arg3_6 e_v4_6 e_v16_6 e_c_5_6
  obtain ⟨e_arg1_8, e_arg3_8, e_v4_8, e_v17_8, e_c_6_8⟩ := s8 _ _ e_arg1_7 e_arg3_7 e_v4_7 e_v17_7
  obtain ⟨e_arg1_9, e_arg3_9, e_v4_9, e_v18_9⟩ := s9 _ _ e_arg1_8 e_arg3_8 e_v4_8 e_v17_8 e_c_6_8
  obtain ⟨e_arg1_10, e_arg3_10, e_v4_10, e_v18_10, e_v23_10, e_c_8_10⟩ := s10 _ _ e_arg1_9 e_arg3_9 e_v4_9 e_v18_9
  obtain ⟨e_arg1_11, e_arg3_11, e_v4_11, e_v24_11⟩ := s11 _ _ e_arg1_10 e_arg3_10 e_v4_10 e_v18_10 e_v23_10 e_c_8_10
  obtain ⟨e_arg1_12, e_arg3_12, e_v4_12, e_v24_12, e_c_9_12⟩ := s12 _ _ e_arg1_11 e_arg3_11 e_v4_11 e_v24_11
  obtain ⟨e_arg1_13, e_arg3_13, e_v4_13, e_v24_13, e_v25_13⟩ := s13 _ _ e_arg1_12 e_arg3_12 e_v4_12 e_v24_12 e_c_9_12
  obtain ⟨e_arg1_14, e_arg3_14, e_v4_14, e_v24_14, e_v25_14, e_c_10_14⟩ := s14 _ _ e_arg1_13 e_arg3_13 e_v4_13 e_v24_13 e_v25_13
  obtain ⟨e_arg1_15, e_arg3_15, e_v4_15, e_v25_15, e_v26_15⟩ := s15 _ _ e_arg1_14 e_arg3_14 e_v4_14 e_v24_14 e_v25_14 e_c_10_14
  obtain ⟨e_arg1_16, e_arg3_16, e_v4_16, e_v25_16, e_v26_16, e_v28_16, e_c_12_16⟩ := s16 _ _ e_arg1_15 e_arg3_15 e_v4_15 e_v25_15 e_v26_15
  obtain ⟨e_arg1_17, e_arg3_17, e_v4_17, e_v25_17, e_v26_17, e_v28_17, e_v29_17⟩ := s17 _ _ e_arg1_16 e_arg3_16 e_v4_16 e_v25_16 e_v26_16 e_v28_16 e_c_12_16
  obtain ⟨e_arg1_18, e_arg3_18, e_v4_18, e_v26_18, e_v30_18, e_v32_18, e_c_14_18⟩ := s18 _ _ e_arg1_17 e_arg3_17 e_v4_17 e_v25_17 e_v26_17 e_v28_17 e_v29_17
  obtain ⟨e_arg1_19, e_arg3_19, e_v4_19, e_v30_19, e_v32_19, e_v33_19⟩ := s19 _ _ e_arg1_18 e_arg3_18 e_v4_18 e_v26_18 e_v30_18 e_v32_18 e_c_14_18
  obtain ⟨e_v30_20, e_v34_20, e_v51_20, e_v56_20⟩ := s20 _ _ e_arg1_19 e_arg3_19 e_v4_19 e_v30_19 e_v32_19 e_v33_19
  exact ⟨e_v51_20, e_v30_20, e_v34_20, e_v56_20⟩

end Cert.TailBridge
-- ==== Proof.lean ====
/- The proof of `Cert.Claim`: the three frames, `preserves` (the idealization rewrote nothing), and the equivalence
   at Ideal.
   The kernel writes the mask entry (b, n, j) = 1 iff (a(b,n,0) − c(b,j,0))² + (a(b,n,1) − c(b,j,1))² ≤ 49; the reference
   compares the square root of that sum with 7. On finite inputs the sum is a non-negative real, and √s ≤ 7 ⇔ s ≤ 49, so
   the two flattened masks agree; from there both programs apply the same host operations (the compaction of the non-zero
   positions, the two gathers, their difference, the count) to equal values, stretch by stretch. -/
import proofs.«142671_j52776558133736_1_alg».proof.Defs
import proofs.«142671_j52776558133736_1_alg».proof.Proof.Gen.Kernel
import proofs.«142671_j52776558133736_1_alg».proof.Proof.Gen.KernelIdeal
import proofs.«142671_j52776558133736_1_alg».proof.Proof.Gen.ReferenceIdeal
import proofs.«142671_j52776558133736_1_alg».proof.Proof.Gen.Pre_finite_inputs
import proofs.«142671_j52776558133736_1_alg».proof.Proof.FrameK
import proofs.«142671_j52776558133736_1_alg».proof.Proof.KValue
import proofs.«142671_j52776558133736_1_alg».proof.Proof.RefRun
import proofs.«142671_j52776558133736_1_alg».proof.Proof.RefArgs
import proofs.«142671_j52776558133736_1_alg».proof.Proof.Finite
import proofs.«142671_j52776558133736_1_alg».proof.Proof.ResultsBridge
import proofs.«142671_j52776558133736_1_alg».proof.Proof.TailBridge
import Idealize.ShloMosaic.Adequacy
import Idealize.ShloMosaic.Init

noncomputable section

namespace Cert.Proof

open Idealize.ShloMosaic Idealize.SL.Sem

/-- The word-level kernel program runs to the end and leaves its arguments unchanged. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- The reference is a straight line of host operations, none of which writes an argument. -/
theorem frame_ri : Cert.frame_ReferenceIdeal := fun m ρ _ =>
  (θ_run Cert.ReferenceIdeal.defs _ _).mono
    (fun r h c => ⟨(h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _)⟩)
    (Cert.ReferenceIdeal.RefRun.run_main (F := Ideal) m ρ)

/-- At Ideal both programs end with the same four results: the kernel's mask array is `G` of the two coordinate
    arrays, which the first host operations turn into the reference's flattened mask (finite inputs), and the remaining
    host operations are the same on both sides. -/
theorem algebraic : Cert.algebraic_KernelIdeal_ReferenceIdeal := by
  intro m ρ m' ρ' hpre hagree
  have hfin := fun c : Dev Cert.KernelIdeal.nD => Cert.Mask.finite_of_pre _ _ _ _ (hpre c)
  refine ⟨fun c => StableHlo.after (Cert.ReferenceIdeal.RefRun.ops (F := Ideal)) (StableHlo.launchContents m' c) (Proc.devRef .tc Cert.ReferenceIdeal.main_v57),
    fun c => StableHlo.after (Cert.ReferenceIdeal.RefRun.ops (F := Ideal)) (StableHlo.launchContents m' c) (Proc.devRef .tc Cert.ReferenceIdeal.main_v36),
    fun c => StableHlo.after (Cert.ReferenceIdeal.RefRun.ops (F := Ideal)) (StableHlo.launchContents m' c) (Proc.devRef .tc Cert.ReferenceIdeal.main_v40),
    fun c => StableHlo.after (Cert.ReferenceIdeal.RefRun.ops (F := Ideal)) (StableHlo.launchContents m' c) (Proc.devRef .tc Cert.ReferenceIdeal.main_v62), ?_, ?_⟩
  · refine (θ_run Cert.KernelIdeal.defs _ _).mono (fun r h c => ?_) (Cert.KernelIdeal.KVal.run m ρ)
    obtain ⟨h51, h30, h34, h56, hargs⟩ := h c
    obtain ⟨g51, g30, g34, g56⟩ := Cert.Mask.results_agree (Cert.KernelIdeal.KVal.WT m c) (StableHlo.launchContents m' c)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (Cert.KernelIdeal.KVal.WT_v0 m c) (Cert.KernelIdeal.KVal.WT_arg1 m c) (Cert.KernelIdeal.KVal.WT_arg3 m c)
      (hagree c).2.1 (hagree c).2.2.2 (hfin c).1 (hfin c).2 (fun WK WR => Cert.TailBridge.tail_agree WK WR)
    exact ⟨h51.trans g51, h30.trans g30, h34.trans g34, h56.trans g56, hargs⟩
  · refine (θ_run Cert.ReferenceIdeal.defs _ _).mono (fun r h c => ?_) (Cert.ReferenceIdeal.RefRun.run_main (F := Ideal) m' ρ')
    exact ⟨h c Cert.ReferenceIdeal.main_v57, h c Cert.ReferenceIdeal.main_v36, h c Cert.ReferenceIdeal.main_v40, h c Cert.ReferenceIdeal.main_v62,
      (h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _)⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
